-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v78_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v78_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x1 : Shape := ⟨2, ![100000, 1]⟩
abbrev S128x64 : Shape := ⟨2, ![128, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x8 .f32) (main_arg10 : FVec F S8 .f32) (main_arg11 : FVec F S8x1 .f32) (main_arg12 : FVec F S1 .f32) (main_v33 : IVec S_ 1) : IVec S_ 1 :=
  let main_v34 : FVec F S64x8 .f32 := Host.absf main_arg9
  let main_cst_12 : FVec F S_ .f32 := constant S_ .f32 0x7F800000#32
  let main_v35 : FVec F S64x8 .f32 := broadcastInDim S64x8 ![] bcast_S_S64x8 main_cst_12
  let main_v36 : IVec S64x8 1 := cmpf .olt main_v34 main_v35
  let main_c_13 : IVec S_ 1 := constantI S_ 1 1#1
  let main_v37 : IVec S_ 1 := (fun x v => Host.reduce IntOp.andi x v reducesTo_S64x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x1 .f32 := Host.absf main_arg11
  let main_cst_16 : FVec F S_ .f32 := constant S_ .f32 0x7F800000#32
  let main_v45 : FVec F S8x1 .f32 := broadcastInDim S8x1 ![] bcast_S_S8x1 main_cst_16
  let main_v46 : IVec S8x1 1 := cmpf .olt main_v44 main_v45
  let main_c_17 : IVec S_ 1 := constantI S_ 1 1#1
  let main_v47 : IVec S_ 1 := (fun x v => Host.reduce IntOp.andi x v reducesTo_S8x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x8 .f32) (main_arg10 : FVec F S8 .f32) (main_arg11 : FVec F S8x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000x1 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x8 .f32) (main_arg10 : FVec F S8 .f32) (main_arg11 : FVec F S8x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000x1 : Shape := ⟨2, ![100000, 1]⟩
abbrev S128x64 : Shape := ⟨2, ![128, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S8x1 : Shape := ⟨2, ![8, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x128 : Shape := ⟨2, ![4000, 128]⟩
abbrev S4000x64 : Shape := ⟨2, ![4000, 64]⟩
abbrev S1700000x64 : Shape := ⟨2, ![1700000, 64]⟩
abbrev S1x64 : Shape := ⟨2, ![1, 64]⟩
abbrev S1x1 : Shape := ⟨2, ![1, 1]⟩
abbrev S1x8 : Shape := ⟨2, ![1, 8]⟩
abbrev S4000x1 : Shape := ⟨2, ![4000, 1]⟩
abbrev S4000x8 : Shape := ⟨2, ![4000, 8]⟩

abbrev nBuf : Space → Nat
  | .hbm => 111
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x1, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x8, .f32⟩
  | .hbm, ⟨10, _⟩ => ⟨S8, .f32⟩
  | .hbm, ⟨11, _⟩ => ⟨S8x1, .f32⟩
  | .hbm, ⟨12, _⟩ => ⟨S1, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x64, .f32⟩
  | .hbm, ⟨92, _⟩ => ⟨S1700000x1, .f32⟩
  | .hbm, ⟨93, _⟩ => ⟨S1700000x64, .f32⟩
  | .hbm, ⟨94, _⟩ => ⟨S1700000x64, .f32⟩
  | .hbm, ⟨95, _⟩ => ⟨S_, .f32⟩
  | .hbm, ⟨96, _⟩ => ⟨S100000x64, .f32⟩
  | .hbm, ⟨97, _⟩ => ⟨S1700000x1, .i32⟩
  | .hbm, ⟨98, _⟩ => ⟨S100000x64, .f32⟩
  | .hbm, ⟨99, _⟩ => ⟨S100000x1, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S1x1, .f32⟩
  | .hbm, ⟨105, _⟩ => ⟨S1x64, .f32⟩
  | .hbm, ⟨106, _⟩ => ⟨S1x8, .f32⟩
  | .hbm, ⟨107, _⟩ => ⟨S1x1, .f32⟩
  | .hbm, ⟨108, _⟩ => ⟨S100000x1, .f32⟩
  | .hbm, ⟨109, _⟩ => ⟨S1x1, .f32⟩
  | .hbm, ⟨110, _⟩ => ⟨S_, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S64x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S1x64, .f32⟩
  | .local _ .vmem, ⟨14, _⟩ => ⟨S64x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S1x64, .f32⟩
  | .local _ .vmem, ⟨20, _⟩ => ⟨S64x8, .f32⟩
  | .local _ .vmem, ⟨21, _⟩ => ⟨S1x8, .f32⟩
  | .local _ .vmem, ⟨22, _⟩ => ⟨S8x1, .f32⟩
  | .local _ .vmem, ⟨23, _⟩ => ⟨S1x1, .f32⟩
  | .local _ .vmem, ⟨24, _⟩ => ⟨S4000x1, .i32⟩
  | .local _ .vmem, ⟨25, _⟩ => ⟨S4000x1, .i32⟩
  | .local _ .vmem, ⟨26, _⟩ => ⟨S1x1, .f32⟩
  | .local _ .vmem, ⟨27, _⟩ => ⟨S4000x1, .f32⟩
  | .local _ .vmem, ⟨28, _⟩ => ⟨S4000x1, .f32⟩
  | .local _ .vmem, ⟨29, _⟩ => ⟨S1x1, .f32⟩
  | .local _ .vmem, ⟨30, _⟩ => ⟨S1x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78_0 : Ref sig .tc := ⟨.hbm, 108, rfl⟩
abbrev main_v78_1 : Ref sig .tc := ⟨.hbm, 109, rfl⟩
abbrev main_v79 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc3_stg7_0 : Ref sig .tc := ⟨.vmem, 26, rfl⟩
abbrev cc3_stg8_0 : Ref sig .tc := ⟨.vmem, 27, rfl⟩
abbrev cc3_stg8_1 : Ref sig .tc := ⟨.vmem, 28, rfl⟩
abbrev cc3_stg9_0 : Ref sig .tc := ⟨.vmem, 29, rfl⟩
abbrev cc3_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25
abbrev cc3_sem7_0 : DmaSem sig := 26
abbrev cc3_sem8_0 : DmaSem sig := 27
abbrev cc3_sem8_1 : DmaSem sig := 28
abbrev cc3_sem9_0 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v67 : BitVec 1 := Scalar.cmpi .eq arg0 c24_i32
  let v68 : BitVec 32 := Scalar.extui v67
  let c0_i32_33 : BitVec 32 := 0#32
  let v69 : BitVec 1 := Scalar.cmpi .ne v68 c0_i32_33
  v69

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x1 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  reducesTo_S100000x1_S_d0_1 : S100000x1.ReducesTo [0, 1] S_
  h_S_ : 0 < S_.numel
  shapeCasts_S_S1x1 : S_.ShapeCasts S1x1
  shapeCasts_S8_S1x8 : S8.ShapeCasts S1x8
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  inb_S8x1_S8x1_0_0 : ∀ a, (![0, 0] : Fin 2 → Nat) a + S8x1.size a ≤ S8x1.size a
  h_S8x1 : 0 < S8x1.numel
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  reduces_S4000x1_S1 : S4000x1.Reduces [0] S1
  shapeCasts_S1x1_S_ : S1x1.ShapeCasts S_
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x64_S4000x64_1_0_0_1_n_n_wf : DotDims.WF S4000x64 S64x64 S4000x64 [1] [0] [0] [1] [] []
  dot_S4000x64_S64x8_S4000x8_1_0_0_1_n_n_wf : DotDims.WF S4000x64 S64x8 S4000x8 [1] [0] [0] [1] [] []
  dot_S4000x8_S8x1_S4000x1_1_0_0_1_n_n_wf : DotDims.WF S4000x8 S8x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x8.size a ≤ S64x8.size a
  hwx3_2 : ∀ i : grid3.Coords, EltTy.bits .f32 = 32 ∨ (Rect.block (s := S64x8) S64x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8x1.size a ≤ S8x1.size a
  hwx3_4 : ∀ i : grid3.Coords, EltTy.bits .f32 = 32 ∨ (Rect.block (s := S8x1) S8x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x1.size a ≤ S100000x1.size a
  hwx3_6 : ∀ i : grid3.Coords, EltTy.bits .i32 = 32 ∨ (Rect.block (s := S100000x1) S4000x1.size (cc3_transform_6 i) (hinb3_6 i)).WholeWords (EltTy.packing .i32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x1.size a ≤ S100000x1.size a
  hwx3_8 : ∀ i : grid3.Coords, EltTy.bits .f32 = 32 ∨ (Rect.block (s := S100000x1) S4000x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x8_S4000x8_1_0_0_1_n_n : DotDims S4000x64 S64x8 S4000x8 where
  lhsContracting := [1]
  rhsContracting := [0]
  lhsNonContracting := [0]
  rhsNonContracting := [1]
  lhsBatch := []
  rhsBatch := []
  wf := dot_S4000x64_S64x8_S4000x8_1_0_0_1_n_n_wf
def dot_S4000x8_S8x1_S4000x1_1_0_0_1_n_n : DotDims S4000x8 S8x1 S4000x1 where
  lhsContracting := [1]
  rhsContracting := [0]
  lhsNonContracting := [0]
  rhsNonContracting := [1]
  lhsBatch := []
  rhsBatch := []
  wf := dot_S4000x8_S8x1_S4000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S8x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg2) S4000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v74) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v78_0) S4000x1.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v78_1) S1x1.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond2 i == 1#1) | ⟨_ + 10, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000x1 : Shape := ⟨2, ![100000, 1]⟩
abbrev S128x64 : Shape := ⟨2, ![128, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S8x1 : Shape := ⟨2, ![8, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x8 : Shape := ⟨2, ![100000, 8]⟩
abbrev S1x8 : Shape := ⟨2, ![1, 8]⟩
abbrev S1x1 : Shape := ⟨2, ![1, 1]⟩

abbrev nBuf : Space → Nat
  | .hbm => 174
  | .vmem => 0
  | .smem => 0
  | _ => 0

abbrev hbmTy0_0 (i : Nat) : BufTy := match i % 128 with
  | 0 => ⟨S100000x128, .f32⟩
  | 1 => ⟨S2x1600000, .i32⟩
  | 2 => ⟨S100000x1, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x8, .f32⟩
  | 10 => ⟨S8, .f32⟩
  | 11 => ⟨S8x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x64, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000x64, .f32⟩
  | 79 => ⟨S1700000x1, .f32⟩
  | 80 => ⟨S1700000x64, .f32⟩
  | 81 => ⟨S1700000x64, .f32⟩
  | 82 => ⟨S_, .f32⟩
  | 83 => ⟨S100000x64, .f32⟩
  | 84 => ⟨S1700000x1, .i32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x64, .f32⟩
  | 102 => ⟨S1700000x1, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x8, .f32⟩
  | 116 => ⟨S1x8, .f32⟩
  | 117 => ⟨S100000x8, .f32⟩
  | 118 => ⟨S100000x8, .f32⟩
  | 119 => ⟨S_, .f32⟩
  | 120 => ⟨S100000x8, .f32⟩
  | 121 => ⟨S100000x8, .f32⟩
  | 122 => ⟨S100000x1, .f32⟩
  | 123 => ⟨S1x1, .f32⟩
  | 124 => ⟨S100000x1, .f32⟩
  | 125 => ⟨S100000x1, .f32⟩
  | 126 => ⟨S100000x1, .f32⟩
  | 127 => ⟨S100000x1, .f32⟩
  | _ => ⟨S100000x128, .f32⟩

abbrev hbmTy0_1 (i : Nat) : BufTy := match i % 128 with
  | 0 => ⟨S_, .f32⟩
  | 1 => ⟨S100000x1, .f32⟩
  | 2 => ⟨S100000x1, .f32⟩
  | 3 => ⟨S_, .f32⟩
  | 4 => ⟨S100000x1, .f32⟩
  | 5 => ⟨S100000x1, .f32⟩
  | 6 => ⟨S100000x1, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S100000x1, .f32⟩
  | 14 => ⟨S100000x1, .f32⟩
  | 15 => ⟨S_, .f32⟩
  | 16 => ⟨S100000x1, .f32⟩
  | 17 => ⟨S100000x1, .f32⟩
  | 18 => ⟨S100000x1, .f32⟩
  | 19 => ⟨S100000x1, .f32⟩
  | 20 => ⟨S100000x1, .f32⟩
  | 21 => ⟨S_, .f32⟩
  | 22 => ⟨S_, .f32⟩
  | 23 => ⟨S_, .f32⟩
  | 24 => ⟨S100000x1, .f32⟩
  | 25 => ⟨S100000x1, .f32⟩
  | 26 => ⟨S_, .f32⟩
  | 27 => ⟨S100000x1, .f32⟩
  | 28 => ⟨S100000x1, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S_, .f32⟩
  | 35 => ⟨S100000x1, .f32⟩
  | 36 => ⟨S100000x1, .f32⟩
  | 37 => ⟨S100000x1, .f32⟩
  | 38 => ⟨S100000x1, .f32⟩
  | 39 => ⟨S100000x1, .f32⟩
  | 40 => ⟨S100000x1, .f32⟩
  | 41 => ⟨S100000x1, .f32⟩
  | 42 => ⟨S_, .f32⟩
  | 43 => ⟨S_, .f32⟩
  | 44 => ⟨S_, .f32⟩
  | 45 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call1_cst : Ref sig .tc := ⟨.hbm, 89, rfl⟩
abbrev main_call1_v0 : Ref sig .tc := ⟨.hbm, 90, rfl⟩
abbrev main_v62 : Ref sig .tc := ⟨.hbm, 91, rfl⟩
abbrev main_v63 : Ref sig .tc := ⟨.hbm, 92, rfl⟩
abbrev main_c_10 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call2_cst : Ref sig .tc := ⟨.hbm, 112, rfl⟩
abbrev main_call2_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_13 : Ref sig .tc := ⟨.hbm, 128, rfl⟩
abbrev main_v92 : Ref sig .tc := ⟨.hbm, 129, rfl⟩
abbrev main_v93 : Ref sig .tc := ⟨.hbm, 130, rfl⟩
abbrev main_cst_14 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_15 : Ref sig .tc := ⟨.hbm, 135, rfl⟩
abbrev main_v97 : Ref sig .tc := ⟨.hbm, 136, rfl⟩
abbrev main_cst_16 : Ref sig .tc := ⟨.hbm, 137, rfl⟩
abbrev main_v98 : Ref sig .tc := ⟨.hbm, 138, rfl⟩
abbrev main_cst_17 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_18 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_19 : Ref sig .tc := ⟨.hbm, 149, rfl⟩
abbrev main_cst_20 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_21 : Ref sig .tc := ⟨.hbm, 159, rfl⟩
abbrev main_v110 : Ref sig .tc := ⟨.hbm, 160, rfl⟩
abbrev main_v111 : Ref sig .tc := ⟨.hbm, 161, rfl⟩
abbrev main_cst_22 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_23 : Ref sig .tc := ⟨.hbm, 170, rfl⟩
abbrev main_v119 : Ref sig .tc := ⟨.hbm, 171, rfl⟩
abbrev main_cst_24 : Ref sig .tc := ⟨.hbm, 172, rfl⟩
abbrev main_v120 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  reducesTo_S100000x1_S_d0_1 : S100000x1.ReducesTo [0, 1] S_
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x8_S100000x8_1_0_0_1_n_n_wf : DotDims.WF S100000x64 S64x8 S100000x8 [1] [0] [0] [1] [] []
  dot_S100000x8_S8x1_S100000x1_1_0_0_1_n_n_wf : DotDims.WF S100000x8 S8x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def dot_S100000x8_S8x1_S100000x1_1_0_0_1_n_n : DotDims S100000x8 S8x1 S100000x1 where
  lhsContracting := [1]
  rhsContracting := [0]
  lhsNonContracting := [0]
  rhsNonContracting := [1]
  lhsBatch := []
  rhsBatch := []
  wf := dot_S100000x8_S8x1_S100000x1_1_0_0_1_n_n_wf

class Facts : Prop extends Facts₀ where

variable [Facts]
-- ==== Proof.K.R0.lean ====
/-
  Region 0: the first dense layer's product, one block of 4000 rows per grid point.
  The body reads its block of the node features and the whole weight matrix and stores the
  product of the two into the output block; nothing else is touched.  Everything is stated at a
  parameter `V`, the buffer contents when the region is entered.
-/
import proofs.«172706_j3221225472394_1_alg».proof.Proof.Gen.Kernel.Launch
import proofs.«172706_j3221225472394_1_alg».proof.Proof.Gen.Kernel.Skeleton
import proofs.«172706_j3221225472394_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S4000x128 := Rect.unit (s := S4000x128) ![0, 0] S4000x128.size inb_S4000x128_S4000x128_0_0
abbrev r0_w : Rect S128x64 := Rect.unit (s := S128x64) ![0, 0] S128x64.size inb_S128x64_S128x64_0_0
abbrev r0_o : Rect S4000x64 := Rect.unit (s := S4000x64) ![0, 0] S4000x64.size inb_S4000x64_S4000x64_0_0

/-- The output block after the body: the one whole-block store of the product. -/
def out0_2 (x0 : Vec F S4000x128 .f32) (x1 : Vec F S128x64 .f32) : Vec F S4000x64 .f32 :=
  View.canon [⟨r0_o, k0_pay1 (View.ld x0 r0_x) (View.ld x1 r0_w)⟩]

theorem cover0_2 (p0 : Vec F S4000x64 .f32) (y : S4000x64.Idx) :
    ∃ pc ∈ ([⟨r0_o, p0⟩] : List (View.Piece (Elt F) S4000x64 .f32)), y ∈ pc.1.set :=
  View.cover_of_tiled [⟨r0_o, p0⟩] S4000x64.size (by rfl) y

/-! ## The body's triple -/

set_option maxHeartbeats 1000000 in
theorem sound_kernel0 (c : Dev nD) (E : Set ℕ) (i : grid0.Coords)
    (arg1 : Memref sig .tc .vmem S4000x128 .f32) (harg1 : arg1.IsWhole)
    (arg2 : Memref sig .tc .vmem S128x64 .f32) (harg2 : arg2.IsWhole)
    (arg3 : Memref sig .tc .vmem S4000x64 .f32) (harg3 : arg3.IsWhole)
    (x0 : Vec F S4000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0: the arrays as the region finds them; after the body each input's buffer at its
    block, the output's at the product of the two input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1: a hidden dense layer's product, one block of 4000 rows per grid point.
  The body adds the bias row to its block of aggregated features, clamps at zero, and stores the product
  with the whole weight matrix into the output block.  Stated at a parameter `V`, the buffer contents when
  the region is entered.
-/
import proofs.«172706_j3221225472394_1_alg».proof.Proof.Gen.Kernel.Launch
import proofs.«172706_j3221225472394_1_alg».proof.Proof.Gen.Kernel.Skeleton
import proofs.«172706_j3221225472394_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S4000x64 := Rect.unit (s := S4000x64) ![0, 0] S4000x64.size inb_S4000x64_S4000x64_0_0
abbrev r1_b : Rect S1x64 := Rect.unit (s := S1x64) ![0, 0] S1x64.size inb_S1x64_S1x64_0_0
abbrev r1_w : Rect S64x64 := Rect.unit (s := S64x64) ![0, 0] S64x64.size inb_S64x64_S64x64_0_0

/-- The output block after the body: the one whole-block store. -/
def out1_3 (x0 : Vec F S4000x64 .f32) (x1 : Vec F S1x64 .f32) (x2 : Vec F S64x64 .f32) : Vec F S4000x64 .f32 :=
  View.canon [⟨r1_x, k1_pay1 (View.ld x0 r1_x) (View.ld x1 r1_b) (View.ld x2 r1_w)⟩]

theorem cover1_3 (p0 : Vec F S4000x64 .f32) (y : S4000x64.Idx) :
    ∃ pc ∈ ([⟨r1_x, p0⟩] : List (View.Piece (Elt F) S4000x64 .f32)), y ∈ pc.1.set :=
  View.cover_of_tiled [⟨r1_x, p0⟩] S4000x64.size (by rfl) y

set_option maxHeartbeats 1000000 in
theorem sound_kernel1 (c : Dev nD) (E : Set ℕ) (i : grid1.Coords)
    (arg1 : Memref sig .tc .vmem S4000x64 .f32) (harg1 : arg1.IsWhole)
    (arg2 : Memref sig .tc .vmem S1x64 .f32) (harg2 : arg2.IsWhole)
    (arg3 : Memref sig .tc .vmem S64x64 .f32) (harg3 : arg3.IsWhole)
    (arg4 : Memref sig .tc .vmem S4000x64 .f32) (harg4 : arg4.IsWhole)
    (x0 : Vec F S4000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_bias_matmul_kernel i arg1 harg1 arg2 harg2 arg3 harg3 arg4 harg4) K := by
  simp only [cc1__relu_bias_matmul_kernel_eq_skeleton]; unfold cc1__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1: the arrays as the region finds them; after the body each input's buffer at its
    block, the output's at the layer's product of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2: a hidden dense layer's product, one block of 4000 rows per grid point.
  The body adds the bias row to its block of aggregated features, clamps at zero, and stores the product
  with the whole weight matrix into the output block.  Stated at a parameter `V`, the buffer contents when
  the region is entered.
-/
import proofs.«172706_j3221225472394_1_alg».proof.Proof.Gen.Kernel.Launch
import proofs.«172706_j3221225472394_1_alg».proof.Proof.Gen.Kernel.Skeleton
import proofs.«172706_j3221225472394_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S4000x64 := Rect.unit (s := S4000x64) ![0, 0] S4000x64.size inb_S4000x64_S4000x64_0_0
abbrev r2_b : Rect S1x64 := Rect.unit (s := S1x64) ![0, 0] S1x64.size inb_S1x64_S1x64_0_0
abbrev r2_w : Rect S64x64 := Rect.unit (s := S64x64) ![0, 0] S64x64.size inb_S64x64_S64x64_0_0

/-- The output block after the body: the one whole-block store. -/
def out2_3 (x0 : Vec F S4000x64 .f32) (x1 : Vec F S1x64 .f32) (x2 : Vec F S64x64 .f32) : Vec F S4000x64 .f32 :=
  View.canon [⟨r2_x, k2_pay1 (View.ld x0 r2_x) (View.ld x1 r2_b) (View.ld x2 r2_w)⟩]

theorem cover2_3 (p0 : Vec F S4000x64 .f32) (y : S4000x64.Idx) :
    ∃ pc ∈ ([⟨r2_x, p0⟩] : List (View.Piece (Elt F) S4000x64 .f32)), y ∈ pc.1.set :=
  View.cover_of_tiled [⟨r2_x, p0⟩] S4000x64.size (by rfl) y

set_option maxHeartbeats 1000000 in
theorem sound_kernel2 (c : Dev nD) (E : Set ℕ) (i : grid2.Coords)
    (arg1 : Memref sig .tc .vmem S4000x64 .f32) (harg1 : arg1.IsWhole)
    (arg2 : Memref sig .tc .vmem S1x64 .f32) (harg2 : arg2.IsWhole)
    (arg3 : Memref sig .tc .vmem S64x64 .f32) (harg3 : arg3.IsWhole)
    (arg4 : Memref sig .tc .vmem S4000x64 .f32) (harg4 : arg4.IsWhole)
    (x0 : Vec F S4000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__relu_bias_matmul_kernel i arg1 harg1 arg2 harg2 arg3 harg3 arg4 harg4) K := by
  simp only [cc2__relu_bias_matmul_kernel_eq_skeleton]; unfold cc2__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2: the arrays as the region finds them; after the body each input's buffer at its
    block, the output's at the layer's product of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole run of the program: its four kernel regions among five stretches of host operations.
  Between two items every unscoped buffer is held at a named valuation: the launch contents, then each host
  stretch folded over them, then, after a region, the region's output arrays at what its write-backs leave.
  Regions 0, 1, 2 are stated in their own modules; region 3's proof data enter as parameters (its arrays as the
  region finds them, full shares, nothing owed, the body obligation, and the scoped rest in and out of its
  invariant), so that this module does not depend on how that region's body is run.
-/
import proofs.«172706_j3221225472394_1_alg».proof.Proof.Gen.Kernel.Launch
import proofs.«172706_j3221225472394_1_alg».proof.Proof.Gen.Kernel.Skeleton
import proofs.«172706_j3221225472394_1_alg».proof.Proof.Gen.Kernel.Points
import proofs.«172706_j3221225472394_1_alg».proof.Proof.Gen.Kernel.Regions
import proofs.«172706_j3221225472394_1_alg».proof.Proof.K.R0
import proofs.«172706_j3221225472394_1_alg».proof.Proof.K.R1
import proofs.«172706_j3221225472394_1_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A valuation read at the TensorCore's references. -/
abbrev Vt (W : Dev nD → Valuation τ sig (Elt F)) : (c : Dev nD) → (b : Ref sig .tc) → Buf (Elt F) ((c : Thread nD τ).loc b) :=
  fun c b => W c b

/-- The entry contents a region half is stated at. -/
abbrev EntryTy (F : FTy → Type) [FloatOps F] : Type := (c : Dev nD) → (b : Ref sig .tc) → Buf (Elt F) ((c : Thread nD τ).loc b)

/-- Region 3's two unknowns: what each window's staging buffer holds after the body at each point, and the region's
    invariant before each point. -/
abbrev Aft3Ty (F : FTy → Type) [FloatOps F] : Type :=
  EntryTy F → (c : Dev nD) → (w : Fin cfg3.W) → Fin cfg3.N → (cfg3.win w).block.Idx → Elt F (cfg3.win w).elt
abbrev Phi3Ty (F : FTy → Type) [FloatOps F] : Type :=
  EntryTy F → (c : Dev nD) → Fin (cfg3.N + 1) → sProp (MT nD τ sig Unit (Elt F) ℕ (UR sig nD τ) ℕ)

/-- Region 3's proof data from them: the arrays as the region finds them, full shares, nothing owed. -/
def mkD3 (aft : Aft3Ty F) (phi : Phi3Ty F) (V : EntryTy F) (c : Dev nD) : Dat τ (Elt F) Unit ℕ (UR sig nD τ) ℕ cfg3 c where
  A w := V c (Pipeline.arrRef spec3 w)
  after := aft V c
  Φ := phi V c
  q _ := fullShare
  owed _ := 0

variable (aft : Aft3Ty F) (phi : Phi3Ty F)
local notation "D3" => mkD3 aft phi

/-! ## The buffer contents at each boundary -/

abbrev U0 (c : Dev nD) : Valuation τ sig (Elt F) := fun b => m (c, b)
abbrev U1 (c : Dev nD) : Valuation τ sig (Elt F) := StableHlo.after hostOps0 (U0 m c)
/-- What region 0 leaves in its output array. -/
def X2 (c : Dev nD) : Buf (Elt F) ((c : Thread nD τ).loc main_v27) := (dat0 (Vt (U1 m)) c).arrAt 2 cfg0.N
abbrev U2 (c : Dev nD) : Valuation τ sig (Elt F) := Function.update (U1 m c) main_v27 (X2 m c)
abbrev U3 (c : Dev nD) : Valuation τ sig (Elt F) := StableHlo.after hostOps1 (U2 m c)
def X4 (c : Dev nD) : Buf (Elt F) ((c : Thread nD τ).loc main_v42) := (dat1 (Vt (U3 m)) c).arrAt 3 cfg1.N
abbrev U4 (c : Dev nD) : Valuation τ sig (Elt F) := Function.update (U3 m c) main_v42 (X4 m c)
abbrev U5 (c : Dev nD) : Valuation τ sig (Elt F) := StableHlo.after hostOps2 (U4 m c)
def X6 (c : Dev nD) : Buf (Elt F) ((c : Thread nD τ).loc main_v57) := (dat2 (Vt (U5 m)) c).arrAt 3 cfg2.N
abbrev U6 (c : Dev nD) : Valuation τ sig (Elt F) := Function.update (U5 m c) main_v57 (X6 m c)
abbrev U7 (c : Dev nD) : Valuation τ sig (Elt F) := StableHlo.after hostOps3 (U6 m c)
def X8a (c : Dev nD) : Buf (Elt F) ((c : Thread nD τ).loc main_v78_0) := (D3 (Vt (U7 m)) c).arrAt 8 cfg3.N
def X8b (c : Dev nD) : Buf (Elt F) ((c : Thread nD τ).loc main_v78_1) := (D3 (Vt (U7 m)) c).arrAt 9 cfg3.N
abbrev U8 (c : Dev nD) : Valuation τ sig (Elt F) :=
  Function.update (Function.update (U7 m c) main_v78_0 (X8a m aft phi c)) main_v78_1 (X8b m aft phi c)
abbrev U9 (c : Dev nD) : Valuation τ sig (Elt F) := StableHlo.after hostOps4 (U8 m aft phi c)

/-! ## The proof data family and what rides along -/

def pdats : (p : Fin 4) → (c : Dev nD) → Dat τ (Elt F) Unit ℕ (UR sig nD τ) ℕ (cfgs p) c
  | ⟨0, _⟩ => fun c => dat0 (Vt (U1 m)) c
  | ⟨1, _⟩ => fun c => dat1 (Vt (U3 m)) c
  | ⟨2, _⟩ => fun c => dat2 (Vt (U5 m)) c
  | ⟨3, _⟩ => fun c => D3 (Vt (U7 m)) c

abbrev 𝒱₀ : Variants := Variants.none
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each region's arrays at its exit -/

theorem hF0 (c : Dev nD) (w : Fin cfg0.W) : (dat0 (Vt (U1 m)) c).arrAt w cfg0.N = Vt (U2 m) c (Pipeline.arrRef spec0 w) := by
  match w with
  | ⟨0, _⟩ => exact ((dat0 (Vt (U1 m)) c).arrAt_in 0 rfl _).trans ((A_eq0 (Vt (U1 m)) c 0).trans
      (Function.update_of_ne (StableHlo.devRef_ne_of_ne (by decide) : (Proc.devRef .tc main_arg0 : DevRef τ sig) ≠ Proc.devRef .tc main_v27) _ _).symm)
  | ⟨1, _⟩ => exact ((dat0 (Vt (U1 m)) c).arrAt_in 1 rfl _).trans ((A_eq0 (Vt (U1 m)) c 1).trans
      (Function.update_of_ne (StableHlo.devRef_ne_of_ne (by decide) : (Proc.devRef .tc main_arg3 : DevRef τ sig) ≠ Proc.devRef .tc main_v27) _ _).symm)
  | ⟨2, _⟩ => exact (Function.update_self (Proc.devRef .tc main_v27 : DevRef τ sig) (X2 m c) (U1 m c)).symm
theorem hrest0 (c : Dev nD) : ∀ b, b ∉ Finset.univ.image (Pipeline.arrRef spec0) → Vt (U2 m) c b = Vt (U1 m) c b :=
  fun b hb => Function.update_of_ne (StableHlo.devRef_ne_of_ne (fun e => hb (Finset.mem_image.mpr ⟨2, Finset.mem_univ _, e.symm⟩))) _ _

theorem hF1 (c : Dev nD) (w : Fin cfg1.W) : (dat1 (Vt (U3 m)) c).arrAt w cfg1.N = Vt (U4 m) c (Pipeline.arrRef spec1 w) := by
  match w with
  | ⟨0, _⟩ => exact ((dat1 (Vt (U3 m)) c).arrAt_in 0 rfl _).trans ((A_eq1 (Vt (U3 m)) c 0).trans
      (Function.update_of_ne (StableHlo.devRef_ne_of_ne (by decide) : (Proc.devRef .tc main_v40 : DevRef τ sig) ≠ Proc.devRef .tc main_v42) _ _).symm)
  | ⟨1, _⟩ => exact ((dat1 (Vt (U3 m)) c).arrAt_in 1 rfl _).trans ((A_eq1 (Vt (U3 m)) c 1).trans
      (Function.update_of_ne (StableHlo.devRef_ne_of_ne (by decide) : (Proc.devRef .tc main_v41 : DevRef τ sig) ≠ Proc.devRef .tc main_v42) _ _).symm)
  | ⟨2, _⟩ => exact ((dat1 (Vt (U3 m)) c).arrAt_in 2 rfl _).trans ((A_eq1 (Vt (U3 m)) c 2).trans
      (Function.update_of_ne (StableHlo.devRef_ne_of_ne (by decide) : (Proc.devRef .tc main_arg5 : DevRef τ sig) ≠ Proc.devRef .tc main_v42) _ _).symm)
  | ⟨3, _⟩ => exact (Function.update_self (Proc.devRef .tc main_v42 : DevRef τ sig) (X4 m c) (U3 m c)).symm
theorem hrest1 (c : Dev nD) : ∀ b, b ∉ Finset.univ.image (Pipeline.arrRef spec1) → Vt (U4 m) c b = Vt (U3 m) c b :=
  fun b hb => Function.update_of_ne (StableHlo.devRef_ne_of_ne (fun e => hb (Finset.mem_image.mpr ⟨3, Finset.mem_univ _, e.symm⟩))) _ _

theorem hF2 (c : Dev nD) (w : Fin cfg2.W) : (dat2 (Vt (U5 m)) c).arrAt w cfg2.N = Vt (U6 m) c (Pipeline.arrRef spec2 w) := by
  match w with
  | ⟨0, _⟩ => exact ((dat2 (Vt (U5 m)) c).arrAt_in 0 rfl _).trans ((A_eq2 (Vt (U5 m)) c 0).trans
      (Function.update_of_ne (StableHlo.devRef_ne_of_ne (by decide) : (Proc.devRef .tc main_v55 : DevRef τ sig) ≠ Proc.devRef .tc main_v57) _ _).symm)
  | ⟨1, _⟩ => exact ((dat2 (Vt (U5 m)) c).arrAt_in 1 rfl _).trans ((A_eq2 (Vt (U5 m)) c 1).trans
      (Function.update_of_ne (StableHlo.devRef_ne_of_ne (by decide) : (Proc.devRef .tc main_v56 : DevRef τ sig) ≠ Proc.devRef .tc main_v57) _ _).symm)
  | ⟨2, _⟩ => exact ((dat2 (Vt (U5 m)) c).arrAt_in 2 rfl _).trans ((A_eq2 (Vt (U5 m)) c 2).trans
      (Function.update_of_ne (StableHlo.devRef_ne_of_ne (by decide) : (Proc.devRef .tc main_arg7 : DevRef τ sig) ≠ Proc.devRef .tc main_v57) _ _).symm)
  | ⟨3, _⟩ => exact (Function.update_self (Proc.devRef .tc main_v57 : DevRef τ sig) (X6 m c) (U5 m c)).symm
theorem hrest2 (c : Dev nD) : ∀ b, b ∉ Finset.univ.image (Pipeline.arrRef spec2) → Vt (U6 m) c b = Vt (U5 m) c b :=
  fun b hb => Function.update_of_ne (StableHlo.devRef_ne_of_ne (fun e => hb (Finset.mem_image.mpr ⟨3, Finset.mem_univ _, e.symm⟩))) _ _

/-! ## The regions as segments -/

/-- What this module needs of region 3: its body obligation, and the scoped rest in and out of its invariant. -/
structure R3Facts (aft : Aft3Ty F) (phi : Phi3Ty F) : Prop where
  hbody : ∀ V c, BodyObligation (mkD3 aft phi V c) (defs₀ (F := F)) Variants.none () Set.univ
  hin : ∀ V c, (Pipeline.ΦA spec3 c : sProp (MT nD τ sig Unit (Elt F) ℕ (UR sig nD τ) ℕ)) ⊢ phi V c 0
  hout : ∀ V c, phi V c (Fin.last cfg3.N) ⊢ (Pipeline.ΦA spec3 c : sProp (MT nD τ sig Unit (Elt F) ℕ (UR sig nD τ) ℕ))

variable (h3 : R3Facts aft phi)

set_option backward.isDefEq.respectTransparency.types false in
/-- Region 0 over the thread state: entered from every unscoped buffer at the contents before it, left at the
    contents after it; its arrays split out of the unscoped buffers and put back at their exit contents; the
    generator register into the invariant and out; nothing owed; no semaphore of the kernel's own. -/
def reg0 : Pipeline.RegionSeg (pcfgs (F := F)) adm (pdats m aft phi) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (Vt (U1 m) c)
  hentry c := by
    rw [Pipeline.ownSems0_none]
    have hsplit := Pipeline.arrays_of_unscopedBufs (p := 0) (pcfgs (F := F)) adm (pdats m aft phi) launch0.win launch0.arr_whole c
      ((pdats m aft phi 0 c).share_full fun _ => rfl) (Vt (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft phi 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m aft phi 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m aft phi) ((pdats m aft phi 0 c).share_full fun _ => rfl)
      (Vt (U1 m) c) (Vt (U2 m) c) ((pdats m aft phi 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at their exit contents; the
    generator register into the invariant and out; nothing owed; no semaphore of the kernel's own. -/
def reg1 : Pipeline.RegionSeg (pcfgs (F := F)) adm (pdats m aft phi) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (Vt (U3 m) c)
  hentry c := by
    rw [Pipeline.ownSems0_none]
    have hsplit := Pipeline.arrays_of_unscopedBufs (p := 1) (pcfgs (F := F)) adm (pdats m aft phi) launch1.win launch1.arr_whole c
      ((pdats m aft phi 1 c).share_full fun _ => rfl) (Vt (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft phi 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m aft phi 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m aft phi) ((pdats m aft phi 1 c).share_full fun _ => rfl)
      (Vt (U3 m) c) (Vt (U4 m) c) ((pdats m aft phi 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back at their exit contents; the
    generator register into the invariant and out; nothing owed; no semaphore of the kernel's own. -/
def reg2 : Pipeline.RegionSeg (pcfgs (F := F)) adm (pdats m aft phi) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (Vt (U5 m) c)
  hentry c := by
    rw [Pipeline.ownSems0_none]
    have hsplit := Pipeline.arrays_of_unscopedBufs (p := 2) (pcfgs (F := F)) adm (pdats m aft phi) launch2.win launch2.arr_whole c
      ((pdats m aft phi 2 c).share_full fun _ => rfl) (Vt (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft phi 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m aft phi 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m aft phi) ((pdats m aft phi 2 c).share_full fun _ => rfl)
      (Vt (U5 m) c) (Vt (U6 m) c) ((pdats m aft phi 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
theorem hF3 (c : Dev nD) (w : Fin cfg3.W) : (D3 (Vt (U7 m)) c).arrAt w cfg3.N = Vt (U8 m aft phi) c (Pipeline.arrRef spec3 w) := by
  have hin : ∀ (b : Ref sig .tc), b ≠ main_v78_0 → b ≠ main_v78_1 → Vt (U7 m) c b = Vt (U8 m aft phi) c b := fun b h0 h1 =>
    ((Function.update_of_ne (StableHlo.devRef_ne_of_ne h1 : (Proc.devRef .tc b : DevRef τ sig) ≠ Proc.devRef .tc main_v78_1) _ _).trans
      (Function.update_of_ne (StableHlo.devRef_ne_of_ne h0 : (Proc.devRef .tc b : DevRef τ sig) ≠ Proc.devRef .tc main_v78_0) _ _)).symm
  match w with
  | ⟨0, _⟩ => exact ((D3 (Vt (U7 m)) c).arrAt_in 0 rfl _).trans (rfl.trans (hin main_v70 (by decide) (by decide)))
  | ⟨1, _⟩ => exact ((D3 (Vt (U7 m)) c).arrAt_in 1 rfl _).trans (rfl.trans (hin main_v75 (by decide) (by decide)))
  | ⟨2, _⟩ => exact ((D3 (Vt (U7 m)) c).arrAt_in 2 rfl _).trans (rfl.trans (hin main_arg9 (by decide) (by decide)))
  | ⟨3, _⟩ => exact ((D3 (Vt (U7 m)) c).arrAt_in 3 rfl _).trans (rfl.trans (hin main_v76 (by decide) (by decide)))
  | ⟨4, _⟩ => exact ((D3 (Vt (U7 m)) c).arrAt_in 4 rfl _).trans (rfl.trans (hin main_arg11 (by decide) (by decide)))
  | ⟨5, _⟩ => exact ((D3 (Vt (U7 m)) c).arrAt_in 5 rfl _).trans (rfl.trans (hin main_v77 (by decide) (by decide)))
  | ⟨6, _⟩ => exact ((D3 (Vt (U7 m)) c).arrAt_in 6 rfl _).trans (rfl.trans (hin main_arg2 (by decide) (by decide)))
  | ⟨7, _⟩ => exact ((D3 (Vt (U7 m)) c).arrAt_in 7 rfl _).trans (rfl.trans (hin main_v74 (by decide) (by decide)))
  | ⟨8, _⟩ => exact ((Function.update_of_ne (StableHlo.devRef_ne_of_ne (by decide) : (Proc.devRef .tc main_v78_0 : DevRef τ sig) ≠ Proc.devRef .tc main_v78_1) _ _).trans
      (Function.update_self (Proc.devRef .tc main_v78_0 : DevRef τ sig) (X8a m aft phi c) (U7 m c))).symm
  | ⟨9, _⟩ => exact (Function.update_self (Proc.devRef .tc main_v78_1 : DevRef τ sig) (X8b m aft phi c) (Function.update (U7 m c) main_v78_0 (X8a m aft phi c))).symm
theorem hrest3 (c : Dev nD) : ∀ b, b ∉ Finset.univ.image (Pipeline.arrRef spec3) → Vt (U8 m aft phi) c b = Vt (U7 m) c b :=
  fun b hb => (Function.update_of_ne (StableHlo.devRef_ne_of_ne (fun e => hb (Finset.mem_image.mpr ⟨9, Finset.mem_univ _, e.symm⟩))) _ _).trans
    (Function.update_of_ne (StableHlo.devRef_ne_of_ne (fun e => hb (Finset.mem_image.mpr ⟨8, Finset.mem_univ _, e.symm⟩))) _ _)

set_option backward.isDefEq.respectTransparency.types false in
/-- Region 3 over the thread state.  Its invariant carries the loss accumulator between points; at the region's
    two ends it is the scoped rest and the generator register, as for the other regions. -/
def reg3 : Pipeline.RegionSeg (pcfgs (F := F)) adm (pdats m aft phi) () defs₀ 𝒱₀ L lv 3 where
  win := launch3.win.to₀
  block_pos := launch3.block_pos
  stage_whole := launch3.stage_whole
  K := PEmpty
  osem k := k.elim
  ho := Pipeline.OwnSemFacts.none _
  hbody c := (h3.hbody (Vt (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m aft phi c) ∗ R c)
  X c := iprop(∃ r, prngReg c r)
  Y c := iprop(∃ r, prngReg c r)
  Z c := Pipeline.unscopedRest (Ix := Unit) (Name := ℕ) (U := UR sig nD τ) (Lvl := ℕ) spec3 c (Vt (U7 m) c)
  hentry c := by
    rw [Pipeline.ownSems0_none]
    have hsplit := Pipeline.arrays_of_unscopedBufs (p := 3) (pcfgs (F := F)) adm (pdats m aft phi) launch3.win launch3.arr_whole c
      ((pdats m aft phi 3 c).share_full fun _ => rfl) (Vt (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := h3.hin (Vt (U7 m)) c
    unfold Pipeline.ΦA at h
    rw [show (pdats m aft phi 3 c).Φ 0 = phi (Vt (U7 m)) c 0 from rfl]
    iintro ⟨Hp, -, Hr⟩
    iapply h
    isplitl [Hr]; · iexact Hr
    iexact Hp
  hout c := by
    have h := h3.hout (Vt (U7 m)) c
    unfold Pipeline.ΦA at h
    rw [Pipeline.ownSems0_none, show (pdats m aft phi 3 c).Φ (Fin.last _) = phi (Vt (U7 m)) c (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m aft phi) ((pdats m aft phi 3 c).share_full fun _ => rfl)
      (Vt (U7 m) c) (Vt (U8 m aft phi) c) ((pdats m aft phi 3 c).arrAt · cfg3.N) (hF3 m aft phi c) (hrest3 m aft phi c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segsH : List (Pipeline.Seg (pcfgs (F := F)) adm (pdats m aft phi) () defs₀ 𝒱₀ L lv) :=
  [ .host (hseg hostOps0 hostOps0_sub Gen.hostOps0_fresh (U0 m)),
    .region (reg0 m aft phi),
    .host (hseg hostOps1 hostOps1_sub Gen.hostOps1_fresh (U2 m)),
    .region (reg1 m aft phi),
    .host (hseg hostOps2 hostOps2_sub Gen.hostOps2_fresh (U4 m)),
    .region (reg2 m aft phi),
    .host (hseg hostOps3 hostOps3_sub Gen.hostOps3_fresh (U6 m)),
    .region (reg3 m aft phi h3),
    .host (hseg hostOps4 hostOps4_sub Gen.hostOps4_fresh (U8 m aft phi)) ]

include h3 in
set_option backward.isDefEq.respectTransparency.types false in
/-- THE RUN.  From any memory with zero counters every weakly fair execution of the program terminates without a
    fault, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U9 m aft phi c b) :=
  Pipeline.θ_run_regions_kit (pcfgs (F := F)) adm (pdats m aft phi) () cellOf_inj emb₁ defs₀ 𝒱₀ L lv m ρ main (segsH m aft phi h3)
    (fun c Q => by
      rewrite [main_chain c, Seg.run_eq_chain,
        show (segsH m aft phi h3).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c))
    (Tₙ := fun c => iprop(StableHlo.held (c : Thread nD τ) (Pipeline.ucRefs τ sig) (U9 m aft phi c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (U9 m aft phi c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U9 m aft phi c b)
    (hfin := fun c s' => by
      iintro ⟨⟨Hh, -⟩, HSI⟩
      unfold StableHlo.held
      imodintro
      iapply (pointsTo_read_all (Pipeline.ucRefs τ sig) (fun b => (((c : Thread nD τ)).1, b)) (U9 m aft phi c) s')
      isplitl [Hh] <;> iassumption)
    (hQ := fun s h c => h c)

end Cert.Kernel.Hand

end
-- ==== Proof.K.Frame.lean ====
/-
  The frame: no host stretch writes an argument array and no region changes one, so each argument's buffer at the
  last boundary is its launch contents.
-/
import proofs.«172706_j3221225472394_1_alg».proof.Proof.Gen.Kernel.Launch
import proofs.«172706_j3221225472394_1_alg».proof.Proof.Gen.Kernel.Skeleton
import proofs.«172706_j3221225472394_1_alg».proof.Proof.Gen.Kernel.Points
import proofs.«172706_j3221225472394_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (aft : Aft3Ty F) (phi : Phi3Ty F)

/-- A buffer that no host stretch writes and that is no region's output holds its launch contents at the end. -/
theorem U9_of (c : Dev nD) (b : Ref sig .tc) (h0 : b ∉ Gen.hostOps0_W) (h1 : b ∉ Gen.hostOps1_W) (h2 : b ∉ Gen.hostOps2_W)
    (h3 : b ∉ Gen.hostOps3_W) (h4 : b ∉ Gen.hostOps4_W)
    (n27 : b ≠ main_v27) (n42 : b ≠ main_v42) (n57 : b ≠ main_v57) (n780 : b ≠ main_v78_0) (n781 : b ≠ main_v78_1) :
    U9 m aft phi c b = m (c, b) :=
  (StableHlo.after_of_writes_sub hostOps4 _ Gen.hostOps4_writes h4).trans <|
  (Function.update_of_ne (StableHlo.devRef_ne_of_ne n781 : (Proc.devRef .tc b : DevRef τ sig) ≠ Proc.devRef .tc main_v78_1) _ _).trans <|
  (Function.update_of_ne (StableHlo.devRef_ne_of_ne n780 : (Proc.devRef .tc b : DevRef τ sig) ≠ Proc.devRef .tc main_v78_0) _ _).trans <|
  (StableHlo.after_of_writes_sub hostOps3 _ Gen.hostOps3_writes h3).trans <|
  (Function.update_of_ne (StableHlo.devRef_ne_of_ne n57 : (Proc.devRef .tc b : DevRef τ sig) ≠ Proc.devRef .tc main_v57) _ _).trans <|
  (StableHlo.after_of_writes_sub hostOps2 _ Gen.hostOps2_writes h2).trans <|
  (Function.update_of_ne (StableHlo.devRef_ne_of_ne n42 : (Proc.devRef .tc b : DevRef τ sig) ≠ Proc.devRef .tc main_v42) _ _).trans <|
  (StableHlo.after_of_writes_sub hostOps1 _ Gen.hostOps1_writes h1).trans <|
  (Function.update_of_ne (StableHlo.devRef_ne_of_ne n27 : (Proc.devRef .tc b : DevRef τ sig) ≠ Proc.devRef .tc main_v27) _ _).trans <|
  (StableHlo.after_of_writes_sub hostOps0 _ Gen.hostOps0_writes h0).trans rfl

/-- THE FRAME, at any `F`: every weakly fair execution terminates without a fault and leaves each argument array as
    launched. -/
theorem frame_all (h3 : R3Facts aft phi) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (U9_of m aft phi c main_arg0 (by decide) (by decide) (by decide) (by decide) (by decide) (by decide) (by decide) (by decide) (by decide) (by decide)),
    (h c _ (mem_uc main_arg1 (by decide))).trans (U9_of m aft phi c main_arg1 (by decide) (by decide) (by decide) (by decide) (by decide) (by decide) (by decide) (by decide) (by decide) (by decide)),
    (h c _ (mem_uc main_arg2 (by decide))).trans (U9_of m aft phi c main_arg2 (by decide) (by decide) (by decide) (by decide) (by decide) (by decide) (by decide) (by decide) (by decide) (by decide)),
    (h c _ (mem_uc main_arg3 (by decide))).trans (U9_of m aft phi c main_arg3 (by decide) (by decide) (by decide) (by decide) (by decide) (by decide) (by decide) (by decide) (by decide) (by decide)),
    (h c _ (mem_uc main_arg4 (by decide))).trans (U9_of m aft phi c main_arg4 (by decide) (by decide) (by decide) (by decide) (by decide) (by decide) (by decide) (by decide) (by decide) (by decide)),
    (h c _ (mem_uc main_arg5 (by decide))).trans (U9_of m aft phi c main_arg5 (by decide) (by decide) (by decide) (by decide) (by decide) (by decide) (by decide) (by decide) (by decide) (by decide)),
    (h c _ (mem_uc main_arg6 (by decide))).trans (U9_of m aft phi c main_arg6 (by decide) (by decide) (by decide) (by decide) (by decide) (by decide) (by decide) (by decide) (by decide) (by decide)),
    (h c _ (mem_uc main_arg7 (by decide))).trans (U9_of m aft phi c main_arg7 (by decide) (by decide) (by decide) (by decide) (by decide) (by decide) (by decide) (by decide) (by decide) (by decide)),
    (h c _ (mem_uc main_arg8 (by decide))).trans (U9_of m aft phi c main_arg8 (by decide) (by decide) (by decide) (by decide) (by decide) (by decide) (by decide) (by decide) (by decide) (by decide)),
    (h c _ (mem_uc main_arg9 (by decide))).trans (U9_of m aft phi c main_arg9 (by decide) (by decide) (by decide) (by decide) (by decide) (by decide) (by decide) (by decide) (by decide) (by decide)),
    (h c _ (mem_uc main_arg10 (by decide))).trans (U9_of m aft phi c main_arg10 (by decide) (by decide) (by decide) (by decide) (by decide) (by decide) (by decide) (by decide) (by decide) (by decide)),
    (h c _ (mem_uc main_arg11 (by decide))).trans (U9_of m aft phi c main_arg11 (by decide) (by decide) (by decide) (by decide) (by decide) (by decide) (by decide) (by decide) (by decide) (by decide)),
    (h c _ (mem_uc main_arg12 (by decide))).trans (U9_of m aft phi c main_arg12 (by decide) (by decide) (by decide) (by decide) (by decide) (by decide) (by decide) (by decide) (by decide) (by decide))⟩)
    (run_all m ρ aft phi h3)

end Cert.Kernel.Hand

end
-- ==== Proof.K.R3Runs.lean ====
/- Region 3 (the head kernel) at a parameter `V`, the contents its arrays hold when the region is entered:
   the windows' blocks, the input windows' staging contents at every point, the two branch conditions in
   closed form over the grid, where output 9 is idle, the staging and scratch memrefs, and the region's
   invariant with the scratch accumulator split off the scoped rest. -/
import proofs.«172706_j3221225472394_1_alg».proof.Proof.Gen.Kernel.Launch
import proofs.«172706_j3221225472394_1_alg».proof.Proof.Gen.Kernel.Skeleton
import proofs.«172706_j3221225472394_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: unfetched,
    the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: unfetched,
    the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: unfetched,
    the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: unfetched,
    the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: unfetched,
    the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not: unfetched,
    the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not: unfetched,
    the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not: unfetched,
    the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first `scf.if` (the accumulator is zeroed), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the body's second `scf.if` (the mean is stored into output 9), from the grid coordinates. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem liveAt3_8 : ∀ t : Fin cfg3.N, cfg3.idle 8 (grid3.coords t) = false := by decide +kernel
/-- Where the second condition fails output 9 is idle, and its block is not written back there. -/
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
/-- Where it holds output 9 is live. -/
theorem liveAt3_9 : ∀ t : Fin cfg3.N, cond3_1 (grid3.coords t) → cfg3.idle 9 (grid3.coords t) = false := by decide +kernel

/-! ## The staging and scratch memrefs -/

/-- One staging buffer of each output window, through which its contents are stated. -/
abbrev VO3_8 : View sig .tc .vmem S4000x1 .f32 := (Memref.whole cc3_stg8_0 : Memref sig .tc .vmem S4000x1 .f32).view
abbrev VO3_9 : View sig .tc .vmem S1x1 .f32 := (Memref.whole cc3_stg9_0 : Memref sig .tc .vmem S1x1 .f32).view
abbrev ms3_0 (t : Fin cfg3.N) : Memref sig .tc .vmem S4000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x8 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x8 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S8x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S4000x1 .i32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x1 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S4000x1 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x1 .f32 := win3_9.stage (cfg3.slots t 9)
abbrev hs3_9 (t : Fin cfg3.N) : (ms3_9 t).IsWhole := hstage3_9 ((cfg3.slots t 9).cast nbuf3_9)
/-- The scratch accumulator: a whole scoped buffer of the kernel's own, passed beside the windows. -/
abbrev scM3_0 : Memref sig .tc .vmem S1x1 .f32 := Memref.whole cc3_scratch0
abbrev VS3_0 : View sig .tc .vmem S1x1 .f32 := scM3_0.view

/-- Every scoped buffer of the core that is neither a staging buffer of region 3 nor its scratch, at some contents. -/
abbrev restBut3 (c : Dev nD) : sProp 𝕄 :=
  Pipeline.scopedRestBut (Ix := Unit) (Name := ℕ) (U := UR sig nD τ) (Lvl := ℕ) (Val := Elt F) spec3 c [cc3_scratch0]

/-- The region's invariant with the scratch accumulator as a memref owned at some contents, split off the
    other scoped buffers. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA
  rw [Pipeline.scopedRest_split_of_list spec3 c [cc3_scratch0] (by decide) (by decide)]
  simp only [scM3_0, owns_whole]; try rfl

end Cert.Kernel.Hand

end
-- ==== Proof.K.R3RunA.lean ====
/- The head kernel's body run whole at the first point: the accumulator is zeroed first (first `scf.if` taken), output 9 is not stored (second not taken). -/
import proofs.«172706_j3221225472394_1_alg».proof.Proof.K.R3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

set_option maxHeartbeats 4000000 in
/-- What the body's stores leave in output 8's, output 9's and the scratch accumulator's memrefs, as pieces (last
    first), at the first point: the accumulator is zeroed first (first `scf.if` taken), output 9 is not stored (second not taken); with the proof that on whole memrefs — the inputs' at
    their contents, output 8's at anything, output 9's at contents handed back untouched, the accumulator's at anything —
    the body runs to the continuation holding the inputs' as they were and each stored buffer with its pieces written. -/
noncomputable def kernelRun3_A (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) :
    Σ' (L8 : List (View.Piece (Elt F) S4000x1 .f32)) (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11) K } := by
  refine ⟨?_, [], ?_, fun xi9 E K => ?run⟩
  case run =>
    simp only [cc3__head_kernel_eq_skeleton]; unfold cc3__head_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    iexists _; iexact HS0

end Cert.Kernel.Hand

end
-- ==== Proof.K.R3RunB.lean ====
/- The head kernel's body run whole at a middle point: neither `scf.if` is taken. -/
import proofs.«172706_j3221225472394_1_alg».proof.Proof.K.R3RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

set_option maxHeartbeats 4000000 in
/-- What the body's stores leave in output 8's, output 9's and the scratch accumulator's memrefs, as pieces (last
    first), at a middle point: neither `scf.if` is taken; with the proof that on whole memrefs — the inputs' at
    their contents, output 8's at anything, output 9's at contents handed back untouched, the accumulator's at what the point before left —
    the body runs to the continuation holding the inputs' as they were and each stored buffer with its pieces written. -/
noncomputable def kernelRun3_B (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    Σ' (L8 : List (View.Piece (Elt F) S4000x1 .f32)) (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11) K } := by
  refine ⟨?_, [], ?_, fun xi9 E K => ?run⟩
  case run =>
    simp only [cc3__head_kernel_eq_skeleton]; unfold cc3__head_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    iexists _; iexact HS0

end Cert.Kernel.Hand

end
-- ==== Proof.K.R3RunC.lean ====
/- The head kernel's body run whole at the last point: the accumulator is not zeroed, and its mean is stored into output 9 (second `scf.if` taken). -/
import proofs.«172706_j3221225472394_1_alg».proof.Proof.K.R3RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

set_option maxHeartbeats 4000000 in
/-- What the body's stores leave in output 8's, output 9's and the scratch accumulator's memrefs, as pieces (last
    first), at the last point: the accumulator is not zeroed, and its mean is stored into output 9 (second `scf.if` taken); with the proof that on whole memrefs — the inputs' at
    their contents, output 8's at anything, output 9's at anything, the accumulator's at what the point before left —
    the body runs to the continuation holding the inputs' as they were and each stored buffer with its pieces written. -/
noncomputable def kernelRun3_C (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    Σ' (L8 : List (View.Piece (Elt F) S4000x1 .f32)) (L9 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc3__head_kernel_eq_skeleton]; unfold cc3__head_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.Kernel.Hand

end
-- ==== Proof.K.R3Pieces.lean ====
/- What the pieces each whole-body run of the head kernel found leave in output 8, output 9 and the scratch
   accumulator: every store is of a whole buffer, so the last one's payload is the contents; each payload is one
   of the skeleton's, at the blocks read. -/
import proofs.«172706_j3221225472394_1_alg».proof.Proof.K.R3RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

/-- The zero offsets of a whole-buffer access. -/
theorem hz2 : (![0, 0] : Fin 2 → Nat) = fun _ => 0 := by funext a; fin_cases a <;> rfl

/-! ## Case A -/

/-- Case A's one store into output 8 covers its block. -/
theorem cover3_A_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (y : S4000x1.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 S4000x1.size (by sl_kernel_rfl) y

/-- What it leaves there: the sigmoid of the block's logits. -/
theorem canon3_A_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) :
    View.canon (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 = k3_pay4 x0 x1 x2 x3 x4 x5 := by
  unfold kernelRun3_A; dsimp only; sl_unfold_words
  rw [View.canon_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-- Case A's stores into the scratch accumulator cover it. -/
theorem scover3_A_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (y : S1x1.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 S1x1.size (by sl_kernel_rfl) y

/-- What they leave there: zero plus the block's loss sum. -/
theorem canon3_A_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) :
    View.canon (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 = k3_pay1 (k3_pay4 x0 x1 x2 x3 x4 x5) (k3_pay5 x6) x7 (k3_pay3 (F := F)) := by
  unfold kernelRun3_A; dsimp only; sl_unfold_words
  rw [View.canon_cons_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-! ## Case B -/

/-- Case B's one store into output 8 covers its block. -/
theorem cover3_B_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S4000x1.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 S4000x1.size (by sl_kernel_rfl) y

/-- What it leaves there: the sigmoid of the block's logits. -/
theorem canon3_B_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 = k3_pay4 x0 x1 x2 x3 x4 x5 := by
  unfold kernelRun3_B; dsimp only; sl_unfold_words
  rw [View.canon_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-- Case B's stores into the scratch accumulator cover it. -/
theorem scover3_B_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S1x1.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 S1x1.size (by sl_kernel_rfl) y

/-- What they leave there: what the accumulator held plus the block's loss sum. -/
theorem canon3_B_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 = k3_pay1 (k3_pay4 x0 x1 x2 x3 x4 x5) (k3_pay5 x6) x7 xs0 := by
  unfold kernelRun3_B; dsimp only; sl_unfold_words
  rw [View.canon_cons_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-! ## Case C -/

/-- Case C's one store into output 8 covers its block. -/
theorem cover3_C_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S4000x1.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 S4000x1.size (by sl_kernel_rfl) y

/-- What it leaves there: the sigmoid of the block's logits. -/
theorem canon3_C_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 = k3_pay4 x0 x1 x2 x3 x4 x5 := by
  unfold kernelRun3_C; dsimp only; sl_unfold_words
  rw [View.canon_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-- Case C's stores into the scratch accumulator cover it. -/
theorem scover3_C_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S1x1.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 S1x1.size (by sl_kernel_rfl) y

/-- What they leave there: what the accumulator held plus the block's loss sum. -/
theorem canon3_C_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 = k3_pay1 (k3_pay4 x0 x1 x2 x3 x4 x5) (k3_pay5 x6) x7 xs0 := by
  unfold kernelRun3_C; dsimp only; sl_unfold_words
  rw [View.canon_cons_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-- Case C's one store into output 9 covers its block. -/
theorem cover3_C_9 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S1x1.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.1 S1x1.size (by sl_kernel_rfl) y

/-- What it leaves there: the accumulator's mean. -/
theorem canon3_C_9 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.1 = k3_pay2 (k3_pay1 (k3_pay4 x0 x1 x2 x3 x4 x5) (k3_pay5 x6) x7 xs0) := by
  unfold kernelRun3_C; dsimp only; sl_unfold_words
  rw [View.canon_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

end Cert.Kernel.Hand

end
-- ==== Proof.K.R3.lean ====
/- Region 3 (the head kernel) at a parameter `V`: the scratch accumulator point by point, the proof data in closed
   form over the skeleton's payloads, the body obligation (the three control cases, each by its whole-body run and
   the canonical contents of the pieces it found), and the invariant at the region's two ends. -/
import proofs.«172706_j3221225472394_1_alg».proof.Proof.K.R3Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

/-! ## The scratch accumulator, point by point -/

/-- The scratch accumulator after point `n`: zero plus the first block's loss sum; then the point before's plus this block's. -/
def acc3 (c : Dev nD) : (n : ℕ) → n < cfg3.N → Vec F S1x1 .f32
  | 0, hn => k3_pay1 (k3_pay4 (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩)) (k3_pay5 (iblk3 V c 6 ⟨0, hn⟩)) (iblk3 V c 7 ⟨0, hn⟩) (k3_pay3 (F := F))
  | n + 1, hn => k3_pay1 (k3_pay4 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩)) (k3_pay5 (iblk3 V c 6 ⟨n + 1, hn⟩)) (iblk3 V c 7 ⟨n + 1, hn⟩) (acc3 c n (Nat.lt_of_succ_lt hn))

theorem acc3_zero (c : Dev nD) (t : Fin cfg3.N) (h : t.val = 0) :
    acc3 V c t.val t.isLt = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) (k3_pay3 (F := F)) := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) (acc3 V c (t.val - 1) (Nat.lt_of_le_of_lt (Nat.sub_le _ _) t.isLt)) := by
  obtain ⟨n, hn⟩ := t
  cases n with
  | zero => exact absurd rfl h
  | succ n => rfl

/-! ## The region's invariant -/

/-- Before the first point the launch's invariant (every scoped buffer at anything); afterwards the scratch
    accumulator at what the point before left, the other scoped buffers at anything, the generator register at
    some state. -/
def PhiS3 (c : Dev nD) : (n : ℕ) → n ≤ cfg3.N → sProp 𝕄
  | 0, _ => Pipeline.ΦA spec3 c
  | n + 1, hn => iprop(iprop(owns (c : Thread nD τ) scM3_0 fullShare (acc3 V c n hn) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (acc3 V c n hn) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (acc3 V c (n - 1) (by omega)) ∗ restBut3 (F := F) c) ∗ (∃ r, prngReg c r)) := by
  cases n with
  | zero => exact absurd rfl hz
  | succ n => rfl

/-! ## The pipeline's proof data -/

/-- The proof data of region 3 on core `c`: the arrays as the region finds them (`V`); after the body at point `t`
    each input's buffer at its block, output 8's at the sigmoid of the block's logits, output 9's at the mean of the
    accumulator there (read at the last point only: elsewhere the window is idle); the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => k3_pay4 (iblk3 V c 0 t) (iblk3 V c 1 t) (iblk3 V c 2 t) (iblk3 V c 3 t) (iblk3 V c 4 t) (iblk3 V c 5 t)
    | ⟨9, _⟩ => k3_pay2 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
/-- Output 8: the sigmoid block, stored whole at every point. -/
theorem after3_8 (c : Dev nD) (t : Fin cfg3.N) : (dat3 V c).after 8 t = k3_pay4 (iblk3 V c 0 t) (iblk3 V c 1 t) (iblk3 V c 2 t) (iblk3 V c 3 t) (iblk3 V c 4 t) (iblk3 V c 5 t) := by dsimp only [dat3]
/-- Output 9: the accumulator's mean. -/
theorem after3_9 (c : Dev nD) (t : Fin cfg3.N) : (dat3 V c).after 9 t = k3_pay2 (acc3 V c t.val t.isLt) := by dsimp only [dat3]
theorem after3_9_last (c : Dev nD) : (dat3 V c).after 9 ⟨24, by decide⟩ = k3_pay2 (acc3 V c 24 (by decide)) := after3_9 V c _

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The three runs at a point of the grid -/

abbrev runA (c : Dev nD) (t : Fin cfg3.N) (hc0 : cond3_0 (grid3.coords t)) (hc1 : ¬cond3_1 (grid3.coords t)) :=
  kernelRun3_A (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t)
abbrev runB (c : Dev nD) (t : Fin cfg3.N) (hc0 : ¬cond3_0 (grid3.coords t)) (hc1 : ¬cond3_1 (grid3.coords t)) (xs0 : Vec F S1x1 .f32) :=
  kernelRun3_B (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0
abbrev runC (c : Dev nD) (t : Fin cfg3.N) (hc0 : ¬cond3_0 (grid3.coords t)) (hc1 : cond3_1 (grid3.coords t)) (xs0 : Vec F S1x1 .f32) :=
  kernelRun3_C (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

/-- What case A's pieces leave in output 8's buffer, whatever it held: the sigmoid block. -/
theorem canon8_A (c : Dev nD) (t : Fin cfg3.N) (hc0 : cond3_0 (grid3.coords t)) (hc1 : ¬cond3_1 (grid3.coords t)) (f : (ms3_8 t).view.ty.Contents (Elt F)) :
    (ms3_8 t).view.read (Elt F) ((ms3_8 t).view.writes (Elt F) f (runA V c t hc0 hc1).1) = k3_pay4 (iblk3 V c 0 t) (iblk3 V c 1 t) (iblk3 V c 2 t) (iblk3 V c 3 t) (iblk3 V c 4 t) (iblk3 V c 5 t) :=
  (View.read_writes_eq_canon _ _ _ (cover3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t))).trans (canon3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t))
/-- What they leave in the scratch accumulator: zero plus the block's loss sum. -/
theorem canonS_A (c : Dev nD) (t : Fin cfg3.N) (hc0 : cond3_0 (grid3.coords t)) (hc1 : ¬cond3_1 (grid3.coords t)) (f : scM3_0.view.ty.Contents (Elt F)) :
    scM3_0.view.read (Elt F) (scM3_0.view.writes (Elt F) f (runA V c t hc0 hc1).2.2.1) = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) (k3_pay3 (F := F)) :=
  (View.read_writes_eq_canon _ _ _ (scover3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t))).trans (canon3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t))

/-- What case B's pieces leave in output 8's buffer, whatever it held: the sigmoid block. -/
theorem canon8_B (c : Dev nD) (t : Fin cfg3.N) (hc0 : ¬cond3_0 (grid3.coords t)) (hc1 : ¬cond3_1 (grid3.coords t)) (xs0 : Vec F S1x1 .f32) (f : (ms3_8 t).view.ty.Contents (Elt F)) :
    (ms3_8 t).view.read (Elt F) ((ms3_8 t).view.writes (Elt F) f (runB V c t hc0 hc1 xs0).1) = k3_pay4 (iblk3 V c 0 t) (iblk3 V c 1 t) (iblk3 V c 2 t) (iblk3 V c 3 t) (iblk3 V c 4 t) (iblk3 V c 5 t) :=
  (View.read_writes_eq_canon _ _ _ (cover3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)
/-- What they leave in the scratch accumulator: what it held plus the block's loss sum. -/
theorem canonS_B (c : Dev nD) (t : Fin cfg3.N) (hc0 : ¬cond3_0 (grid3.coords t)) (hc1 : ¬cond3_1 (grid3.coords t)) (xs0 : Vec F S1x1 .f32) (f : scM3_0.view.ty.Contents (Elt F)) :
    scM3_0.view.read (Elt F) (scM3_0.view.writes (Elt F) f (runB V c t hc0 hc1 xs0).2.2.1) = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) xs0 :=
  (View.read_writes_eq_canon _ _ _ (scover3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)

/-- What case C's pieces leave in output 8's buffer, whatever it held: the sigmoid block. -/
theorem canon8_C (c : Dev nD) (t : Fin cfg3.N) (hc0 : ¬cond3_0 (grid3.coords t)) (hc1 : cond3_1 (grid3.coords t)) (xs0 : Vec F S1x1 .f32) (f : (ms3_8 t).view.ty.Contents (Elt F)) :
    (ms3_8 t).view.read (Elt F) ((ms3_8 t).view.writes (Elt F) f (runC V c t hc0 hc1 xs0).1) = k3_pay4 (iblk3 V c 0 t) (iblk3 V c 1 t) (iblk3 V c 2 t) (iblk3 V c 3 t) (iblk3 V c 4 t) (iblk3 V c 5 t) :=
  (View.read_writes_eq_canon _ _ _ (cover3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)
/-- What they leave in the scratch accumulator: what it held plus the block's loss sum. -/
theorem canonS_C (c : Dev nD) (t : Fin cfg3.N) (hc0 : ¬cond3_0 (grid3.coords t)) (hc1 : cond3_1 (grid3.coords t)) (xs0 : Vec F S1x1 .f32) (f : scM3_0.view.ty.Contents (Elt F)) :
    scM3_0.view.read (Elt F) (scM3_0.view.writes (Elt F) f (runC V c t hc0 hc1 xs0).2.2.1) = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) xs0 :=
  (View.read_writes_eq_canon _ _ _ (scover3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)
/-- What they leave in output 9's buffer: the accumulator's mean. -/
theorem canon9_C (c : Dev nD) (t : Fin cfg3.N) (hc0 : ¬cond3_0 (grid3.coords t)) (hc1 : cond3_1 (grid3.coords t)) (xs0 : Vec F S1x1 .f32) (f : (ms3_9 t).view.ty.Contents (Elt F)) :
    (ms3_9 t).view.read (Elt F) ((ms3_9 t).view.writes (Elt F) f (runC V c t hc0 hc1 xs0).2.1) = k3_pay2 (k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) xs0) :=
  (View.read_writes_eq_canon _ _ _ (cover3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)

set_option maxHeartbeats 4800000 in
/-- The body at any point: the inputs' memrefs hold their blocks; the closed forms of the two conditions say which
    case the point is in; the case's run applies; the invariant hands the body the scratch accumulator at what the point
    before left (at anything at the first point) and takes it back at this point's contents; output 8 is left at
    the sigmoid block, output 9 untouched but at the last point, where it is left at the accumulator's mean. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  rw [show (dat3 V c).leavesExact 7 t = owns (c : Thread nD τ) (ms3_7 t) fullShare ((dat3 V c).after 7 t) from by
    unfold Dat.leavesExact; rw [liveAt3_7 t], after3_7]
  rw [show (dat3 V c).leavesExact 8 t = owns (c : Thread nD τ) (ms3_8 t) fullShare ((dat3 V c).after 8 t) from by
    unfold Dat.leavesExact; rw [liveAt3_8 t], after3_8]
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 9 t (idleAt3_9 t hc1) (noFlush3_9 t hc1)]
    rw [acc3_zero V c t h0]
    rw [PhiS3_castSucc V c t, PhiS3_zero V c _ _ h0, PhiA3_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA V c t hc0 hc1).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    iintro ⟨H0, H1, H2, H3, H4, H5, H6, H7, ⟨%e8, H8⟩, H9, ⟨%es0, HS0⟩⟩
    isplitl [HS0 HR Hg]
    · isplitl [HS0 HR]
      · isplitl [HS0]
        · unfold owns; iexists _; isplitr
          swap; · iexact HS0
          ipureintro; exact canonS_A V c t hc0 hc1 _
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact canon8_A V c t hc0 hc1 _
    iexists _; iexact H9
  · have hc0 : ¬cond3_0 (grid3.coords t) := fun h => h0 ((hcond3_0 t).mp h)
    by_cases h1 : t.val = 24
    · have hc1 : cond3_1 (grid3.coords t) := (hcond3_1 t).mpr h1
      rw [show (dat3 V c).leavesExact 9 t = owns (c : Thread nD τ) (ms3_9 t) fullShare ((dat3 V c).after 9 t) from by
        unfold Dat.leavesExact; rw [liveAt3_9 t hc1], after3_9]
      rw [acc3_pos V c t h0]
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC V c t hc0 hc1 (acc3 V c (t.val - 1) (Nat.lt_of_le_of_lt (Nat.sub_le _ _) t.isLt))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 HR Hg]
      · isplitl [HS0 HR]
        · isplitl [HS0]
          · unfold owns; iexists _; isplitr
            swap; · iexact HS0
            ipureintro; exact canonS_C V c t hc0 hc1 _ _
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact canon8_C V c t hc0 hc1 _ _
      unfold owns; iexists _; isplitr
      swap; · iexact H9
      ipureintro; exact canon9_C V c t hc0 hc1 _ _
    · have hc1 : ¬cond3_1 (grid3.coords t) := fun h => h1 ((hcond3_1 t).mp h)
      rw [Dat.leavesExact_idle (dat3 V c) 9 t (idleAt3_9 t hc1) (noFlush3_9 t hc1)]
      rw [acc3_pos V c t h0]
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB V c t hc0 hc1 (acc3 V c (t.val - 1) (Nat.lt_of_le_of_lt (Nat.sub_le _ _) t.isLt))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      iintro ⟨H0, H1, H2, H3, H4, H5, H6, H7, ⟨%e8, H8⟩, H9, ⟨%es0, HS0⟩⟩
      isplitl [HS0 HR Hg]
      · isplitl [HS0 HR]
        · isplitl [HS0]
          · unfold owns; iexists _; isplitr
            swap; · iexact HS0
            ipureintro; exact canonS_B V c t hc0 hc1 _ _
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact canon8_B V c t hc0 hc1 _ _
      iexists _; iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 25 := N_3; omega)

end Cert.Kernel.Hand

end
-- ==== Proof.K.R3Inst.lean ====
/-
  Region 3's proof data handed to the run: what its staging buffers hold after each point and its invariant are
  the components of the head kernel's proof data; the run needs its body obligation and the scoped rest passing in
  and out of the invariant at the region's two ends.
-/
import proofs.«172706_j3221225472394_1_alg».proof.Proof.Gen.Kernel.Launch
import proofs.«172706_j3221225472394_1_alg».proof.Proof.Gen.Kernel.Skeleton
import proofs.«172706_j3221225472394_1_alg».proof.Proof.Gen.Kernel.Points
import proofs.«172706_j3221225472394_1_alg».proof.Proof.K.Frame
import proofs.«172706_j3221225472394_1_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the head kernel leaves in each window's staging buffer, per point. -/
def aft3 : Aft3Ty F := fun V c => (dat3 V c).after
/-- The head kernel's invariant, per point. -/
def phi3 : Phi3Ty F := fun V c => (dat3 V c).Φ

theorem mkD3_eq (V : EntryTy F) (c : Dev nD) : mkD3 (aft3 (F := F)) phi3 V c = dat3 V c := rfl

theorem r3facts : R3Facts (aft3 (F := F)) phi3 where
  hbody V c := body_obligation3 V c
  hin V c := hin3 V c
  hout V c := hout3 V c

variable (m : (ℓ : Loc nD τ sig) → Buf (Elt F) ℓ) (ρ : Dev nD → PrngReg)

/-- THE FRAME of the program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_all m ρ aft3 phi3 r3facts

/-- THE RUN with every unscoped buffer named at the end. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = U9 m aft3 phi3 c b) :=
  run_all m ρ aft3 phi3 r3facts

end Cert.Kernel.Hand

end
-- ==== Proof.KI.R0.lean ====
/-
  Region 0: the first dense layer's product, one block of 4000 rows per grid point.
  The body reads its block of the node features and the whole weight matrix and stores the
  product of the two into the output block; nothing else is touched.  Everything is stated at a
  parameter `V`, the buffer contents when the region is entered.
-/
import proofs.«172706_j3221225472394_1_alg».proof.Proof.Gen.KernelIdeal.Launch
import proofs.«172706_j3221225472394_1_alg».proof.Proof.Gen.KernelIdeal.Skeleton
import proofs.«172706_j3221225472394_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S4000x128 := Rect.unit (s := S4000x128) ![0, 0] S4000x128.size inb_S4000x128_S4000x128_0_0
abbrev r0_w : Rect S128x64 := Rect.unit (s := S128x64) ![0, 0] S128x64.size inb_S128x64_S128x64_0_0
abbrev r0_o : Rect S4000x64 := Rect.unit (s := S4000x64) ![0, 0] S4000x64.size inb_S4000x64_S4000x64_0_0

/-- The output block after the body: the one whole-block store of the product. -/
def out0_2 (x0 : Vec F S4000x128 .f32) (x1 : Vec F S128x64 .f32) : Vec F S4000x64 .f32 :=
  View.canon [⟨r0_o, k0_pay1 (View.ld x0 r0_x) (View.ld x1 r0_w)⟩]

theorem cover0_2 (p0 : Vec F S4000x64 .f32) (y : S4000x64.Idx) :
    ∃ pc ∈ ([⟨r0_o, p0⟩] : List (View.Piece (Elt F) S4000x64 .f32)), y ∈ pc.1.set :=
  View.cover_of_tiled [⟨r0_o, p0⟩] S4000x64.size (by rfl) y

/-! ## The body's triple -/

set_option maxHeartbeats 1000000 in
theorem sound_kernel0 (c : Dev nD) (E : Set ℕ) (i : grid0.Coords)
    (arg1 : Memref sig .tc .vmem S4000x128 .f32) (harg1 : arg1.IsWhole)
    (arg2 : Memref sig .tc .vmem S128x64 .f32) (harg2 : arg2.IsWhole)
    (arg3 : Memref sig .tc .vmem S4000x64 .f32) (harg3 : arg3.IsWhole)
    (x0 : Vec F S4000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0: the arrays as the region finds them; after the body each input's buffer at its
    block, the output's at the product of the two input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1: a hidden dense layer's product, one block of 4000 rows per grid point.
  The body adds the bias row to its block of aggregated features, clamps at zero, and stores the product
  with the whole weight matrix into the output block.  Stated at a parameter `V`, the buffer contents when
  the region is entered.
-/
import proofs.«172706_j3221225472394_1_alg».proof.Proof.Gen.KernelIdeal.Launch
import proofs.«172706_j3221225472394_1_alg».proof.Proof.Gen.KernelIdeal.Skeleton
import proofs.«172706_j3221225472394_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S4000x64 := Rect.unit (s := S4000x64) ![0, 0] S4000x64.size inb_S4000x64_S4000x64_0_0
abbrev r1_b : Rect S1x64 := Rect.unit (s := S1x64) ![0, 0] S1x64.size inb_S1x64_S1x64_0_0
abbrev r1_w : Rect S64x64 := Rect.unit (s := S64x64) ![0, 0] S64x64.size inb_S64x64_S64x64_0_0

/-- The output block after the body: the one whole-block store. -/
def out1_3 (x0 : Vec F S4000x64 .f32) (x1 : Vec F S1x64 .f32) (x2 : Vec F S64x64 .f32) : Vec F S4000x64 .f32 :=
  View.canon [⟨r1_x, k1_pay1 (View.ld x0 r1_x) (View.ld x1 r1_b) (View.ld x2 r1_w)⟩]

theorem cover1_3 (p0 : Vec F S4000x64 .f32) (y : S4000x64.Idx) :
    ∃ pc ∈ ([⟨r1_x, p0⟩] : List (View.Piece (Elt F) S4000x64 .f32)), y ∈ pc.1.set :=
  View.cover_of_tiled [⟨r1_x, p0⟩] S4000x64.size (by rfl) y

set_option maxHeartbeats 1000000 in
theorem sound_kernel1 (c : Dev nD) (E : Set ℕ) (i : grid1.Coords)
    (arg1 : Memref sig .tc .vmem S4000x64 .f32) (harg1 : arg1.IsWhole)
    (arg2 : Memref sig .tc .vmem S1x64 .f32) (harg2 : arg2.IsWhole)
    (arg3 : Memref sig .tc .vmem S64x64 .f32) (harg3 : arg3.IsWhole)
    (arg4 : Memref sig .tc .vmem S4000x64 .f32) (harg4 : arg4.IsWhole)
    (x0 : Vec F S4000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_bias_matmul_kernel i arg1 harg1 arg2 harg2 arg3 harg3 arg4 harg4) K := by
  simp only [cc1__relu_bias_matmul_kernel_eq_skeleton]; unfold cc1__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1: the arrays as the region finds them; after the body each input's buffer at its
    block, the output's at the layer's product of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2: a hidden dense layer's product, one block of 4000 rows per grid point.
  The body adds the bias row to its block of aggregated features, clamps at zero, and stores the product
  with the whole weight matrix into the output block.  Stated at a parameter `V`, the buffer contents when
  the region is entered.
-/
import proofs.«172706_j3221225472394_1_alg».proof.Proof.Gen.KernelIdeal.Launch
import proofs.«172706_j3221225472394_1_alg».proof.Proof.Gen.KernelIdeal.Skeleton
import proofs.«172706_j3221225472394_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S4000x64 := Rect.unit (s := S4000x64) ![0, 0] S4000x64.size inb_S4000x64_S4000x64_0_0
abbrev r2_b : Rect S1x64 := Rect.unit (s := S1x64) ![0, 0] S1x64.size inb_S1x64_S1x64_0_0
abbrev r2_w : Rect S64x64 := Rect.unit (s := S64x64) ![0, 0] S64x64.size inb_S64x64_S64x64_0_0

/-- The output block after the body: the one whole-block store. -/
def out2_3 (x0 : Vec F S4000x64 .f32) (x1 : Vec F S1x64 .f32) (x2 : Vec F S64x64 .f32) : Vec F S4000x64 .f32 :=
  View.canon [⟨r2_x, k2_pay1 (View.ld x0 r2_x) (View.ld x1 r2_b) (View.ld x2 r2_w)⟩]

theorem cover2_3 (p0 : Vec F S4000x64 .f32) (y : S4000x64.Idx) :
    ∃ pc ∈ ([⟨r2_x, p0⟩] : List (View.Piece (Elt F) S4000x64 .f32)), y ∈ pc.1.set :=
  View.cover_of_tiled [⟨r2_x, p0⟩] S4000x64.size (by rfl) y

set_option maxHeartbeats 1000000 in
theorem sound_kernel2 (c : Dev nD) (E : Set ℕ) (i : grid2.Coords)
    (arg1 : Memref sig .tc .vmem S4000x64 .f32) (harg1 : arg1.IsWhole)
    (arg2 : Memref sig .tc .vmem S1x64 .f32) (harg2 : arg2.IsWhole)
    (arg3 : Memref sig .tc .vmem S64x64 .f32) (harg3 : arg3.IsWhole)
    (arg4 : Memref sig .tc .vmem S4000x64 .f32) (harg4 : arg4.IsWhole)
    (x0 : Vec F S4000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__relu_bias_matmul_kernel i arg1 harg1 arg2 harg2 arg3 harg3 arg4 harg4) K := by
  simp only [cc2__relu_bias_matmul_kernel_eq_skeleton]; unfold cc2__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2: the arrays as the region finds them; after the body each input's buffer at its
    block, the output's at the layer's product of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole run of the program: its four kernel regions among five stretches of host operations.
  Between two items every unscoped buffer is held at a named valuation: the launch contents, then each host
  stretch folded over them, then, after a region, the region's output arrays at what its write-backs leave.
  Regions 0, 1, 2 are stated in their own modules; region 3's proof data enter as parameters (its arrays as the
  region finds them, full shares, nothing owed, the body obligation, and the scoped rest in and out of its
  invariant), so that this module does not depend on how that region's body is run.
-/
import proofs.«172706_j3221225472394_1_alg».proof.Proof.Gen.KernelIdeal.Launch
import proofs.«172706_j3221225472394_1_alg».proof.Proof.Gen.KernelIdeal.Skeleton
import proofs.«172706_j3221225472394_1_alg».proof.Proof.Gen.KernelIdeal.Points
import proofs.«172706_j3221225472394_1_alg».proof.Proof.Gen.KernelIdeal.Regions
import proofs.«172706_j3221225472394_1_alg».proof.Proof.KI.R0
import proofs.«172706_j3221225472394_1_alg».proof.Proof.KI.R1
import proofs.«172706_j3221225472394_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A valuation read at the TensorCore's references. -/
abbrev Vt (W : Dev nD → Valuation τ sig (Elt F)) : (c : Dev nD) → (b : Ref sig .tc) → Buf (Elt F) ((c : Thread nD τ).loc b) :=
  fun c b => W c b

/-- The entry contents a region half is stated at. -/
abbrev EntryTy (F : FTy → Type) [FloatOps F] : Type := (c : Dev nD) → (b : Ref sig .tc) → Buf (Elt F) ((c : Thread nD τ).loc b)

/-- Region 3's two unknowns: what each window's staging buffer holds after the body at each point, and the region's
    invariant before each point. -/
abbrev Aft3Ty (F : FTy → Type) [FloatOps F] : Type :=
  EntryTy F → (c : Dev nD) → (w : Fin cfg3.W) → Fin cfg3.N → (cfg3.win w).block.Idx → Elt F (cfg3.win w).elt
abbrev Phi3Ty (F : FTy → Type) [FloatOps F] : Type :=
  EntryTy F → (c : Dev nD) → Fin (cfg3.N + 1) → sProp (MT nD τ sig Unit (Elt F) ℕ (UR sig nD τ) ℕ)

/-- Region 3's proof data from them: the arrays as the region finds them, full shares, nothing owed. -/
def mkD3 (aft : Aft3Ty F) (phi : Phi3Ty F) (V : EntryTy F) (c : Dev nD) : Dat τ (Elt F) Unit ℕ (UR sig nD τ) ℕ cfg3 c where
  A w := V c (Pipeline.arrRef spec3 w)
  after := aft V c
  Φ := phi V c
  q _ := fullShare
  owed _ := 0

variable (aft : Aft3Ty F) (phi : Phi3Ty F)
local notation "D3" => mkD3 aft phi

/-! ## The buffer contents at each boundary -/

abbrev U0 (c : Dev nD) : Valuation τ sig (Elt F) := fun b => m (c, b)
abbrev U1 (c : Dev nD) : Valuation τ sig (Elt F) := StableHlo.after hostOps0 (U0 m c)
/-- What region 0 leaves in its output array. -/
def X2 (c : Dev nD) : Buf (Elt F) ((c : Thread nD τ).loc main_v27) := (dat0 (Vt (U1 m)) c).arrAt 2 cfg0.N
abbrev U2 (c : Dev nD) : Valuation τ sig (Elt F) := Function.update (U1 m c) main_v27 (X2 m c)
abbrev U3 (c : Dev nD) : Valuation τ sig (Elt F) := StableHlo.after hostOps1 (U2 m c)
def X4 (c : Dev nD) : Buf (Elt F) ((c : Thread nD τ).loc main_v42) := (dat1 (Vt (U3 m)) c).arrAt 3 cfg1.N
abbrev U4 (c : Dev nD) : Valuation τ sig (Elt F) := Function.update (U3 m c) main_v42 (X4 m c)
abbrev U5 (c : Dev nD) : Valuation τ sig (Elt F) := StableHlo.after hostOps2 (U4 m c)
def X6 (c : Dev nD) : Buf (Elt F) ((c : Thread nD τ).loc main_v57) := (dat2 (Vt (U5 m)) c).arrAt 3 cfg2.N
abbrev U6 (c : Dev nD) : Valuation τ sig (Elt F) := Function.update (U5 m c) main_v57 (X6 m c)
abbrev U7 (c : Dev nD) : Valuation τ sig (Elt F) := StableHlo.after hostOps3 (U6 m c)
def X8a (c : Dev nD) : Buf (Elt F) ((c : Thread nD τ).loc main_v78_0) := (D3 (Vt (U7 m)) c).arrAt 8 cfg3.N
def X8b (c : Dev nD) : Buf (Elt F) ((c : Thread nD τ).loc main_v78_1) := (D3 (Vt (U7 m)) c).arrAt 9 cfg3.N
abbrev U8 (c : Dev nD) : Valuation τ sig (Elt F) :=
  Function.update (Function.update (U7 m c) main_v78_0 (X8a m aft phi c)) main_v78_1 (X8b m aft phi c)
abbrev U9 (c : Dev nD) : Valuation τ sig (Elt F) := StableHlo.after hostOps4 (U8 m aft phi c)

/-! ## The proof data family and what rides along -/

def pdats : (p : Fin 4) → (c : Dev nD) → Dat τ (Elt F) Unit ℕ (UR sig nD τ) ℕ (cfgs p) c
  | ⟨0, _⟩ => fun c => dat0 (Vt (U1 m)) c
  | ⟨1, _⟩ => fun c => dat1 (Vt (U3 m)) c
  | ⟨2, _⟩ => fun c => dat2 (Vt (U5 m)) c
  | ⟨3, _⟩ => fun c => D3 (Vt (U7 m)) c

abbrev 𝒱₀ : Variants := Variants.none
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each region's arrays at its exit -/

theorem hF0 (c : Dev nD) (w : Fin cfg0.W) : (dat0 (Vt (U1 m)) c).arrAt w cfg0.N = Vt (U2 m) c (Pipeline.arrRef spec0 w) := by
  match w with
  | ⟨0, _⟩ => exact ((dat0 (Vt (U1 m)) c).arrAt_in 0 rfl _).trans ((A_eq0 (Vt (U1 m)) c 0).trans
      (Function.update_of_ne (StableHlo.devRef_ne_of_ne (by decide) : (Proc.devRef .tc main_arg0 : DevRef τ sig) ≠ Proc.devRef .tc main_v27) _ _).symm)
  | ⟨1, _⟩ => exact ((dat0 (Vt (U1 m)) c).arrAt_in 1 rfl _).trans ((A_eq0 (Vt (U1 m)) c 1).trans
      (Function.update_of_ne (StableHlo.devRef_ne_of_ne (by decide) : (Proc.devRef .tc main_arg3 : DevRef τ sig) ≠ Proc.devRef .tc main_v27) _ _).symm)
  | ⟨2, _⟩ => exact (Function.update_self (Proc.devRef .tc main_v27 : DevRef τ sig) (X2 m c) (U1 m c)).symm
theorem hrest0 (c : Dev nD) : ∀ b, b ∉ Finset.univ.image (Pipeline.arrRef spec0) → Vt (U2 m) c b = Vt (U1 m) c b :=
  fun b hb => Function.update_of_ne (StableHlo.devRef_ne_of_ne (fun e => hb (Finset.mem_image.mpr ⟨2, Finset.mem_univ _, e.symm⟩))) _ _

theorem hF1 (c : Dev nD) (w : Fin cfg1.W) : (dat1 (Vt (U3 m)) c).arrAt w cfg1.N = Vt (U4 m) c (Pipeline.arrRef spec1 w) := by
  match w with
  | ⟨0, _⟩ => exact ((dat1 (Vt (U3 m)) c).arrAt_in 0 rfl _).trans ((A_eq1 (Vt (U3 m)) c 0).trans
      (Function.update_of_ne (StableHlo.devRef_ne_of_ne (by decide) : (Proc.devRef .tc main_v40 : DevRef τ sig) ≠ Proc.devRef .tc main_v42) _ _).symm)
  | ⟨1, _⟩ => exact ((dat1 (Vt (U3 m)) c).arrAt_in 1 rfl _).trans ((A_eq1 (Vt (U3 m)) c 1).trans
      (Function.update_of_ne (StableHlo.devRef_ne_of_ne (by decide) : (Proc.devRef .tc main_v41 : DevRef τ sig) ≠ Proc.devRef .tc main_v42) _ _).symm)
  | ⟨2, _⟩ => exact ((dat1 (Vt (U3 m)) c).arrAt_in 2 rfl _).trans ((A_eq1 (Vt (U3 m)) c 2).trans
      (Function.update_of_ne (StableHlo.devRef_ne_of_ne (by decide) : (Proc.devRef .tc main_arg5 : DevRef τ sig) ≠ Proc.devRef .tc main_v42) _ _).symm)
  | ⟨3, _⟩ => exact (Function.update_self (Proc.devRef .tc main_v42 : DevRef τ sig) (X4 m c) (U3 m c)).symm
theorem hrest1 (c : Dev nD) : ∀ b, b ∉ Finset.univ.image (Pipeline.arrRef spec1) → Vt (U4 m) c b = Vt (U3 m) c b :=
  fun b hb => Function.update_of_ne (StableHlo.devRef_ne_of_ne (fun e => hb (Finset.mem_image.mpr ⟨3, Finset.mem_univ _, e.symm⟩))) _ _

theorem hF2 (c : Dev nD) (w : Fin cfg2.W) : (dat2 (Vt (U5 m)) c).arrAt w cfg2.N = Vt (U6 m) c (Pipeline.arrRef spec2 w) := by
  match w with
  | ⟨0, _⟩ => exact ((dat2 (Vt (U5 m)) c).arrAt_in 0 rfl _).trans ((A_eq2 (Vt (U5 m)) c 0).trans
      (Function.update_of_ne (StableHlo.devRef_ne_of_ne (by decide) : (Proc.devRef .tc main_v55 : DevRef τ sig) ≠ Proc.devRef .tc main_v57) _ _).symm)
  | ⟨1, _⟩ => exact ((dat2 (Vt (U5 m)) c).arrAt_in 1 rfl _).trans ((A_eq2 (Vt (U5 m)) c 1).trans
      (Function.update_of_ne (StableHlo.devRef_ne_of_ne (by decide) : (Proc.devRef .tc main_v56 : DevRef τ sig) ≠ Proc.devRef .tc main_v57) _ _).symm)
  | ⟨2, _⟩ => exact ((dat2 (Vt (U5 m)) c).arrAt_in 2 rfl _).trans ((A_eq2 (Vt (U5 m)) c 2).trans
      (Function.update_of_ne (StableHlo.devRef_ne_of_ne (by decide) : (Proc.devRef .tc main_arg7 : DevRef τ sig) ≠ Proc.devRef .tc main_v57) _ _).symm)
  | ⟨3, _⟩ => exact (Function.update_self (Proc.devRef .tc main_v57 : DevRef τ sig) (X6 m c) (U5 m c)).symm
theorem hrest2 (c : Dev nD) : ∀ b, b ∉ Finset.univ.image (Pipeline.arrRef spec2) → Vt (U6 m) c b = Vt (U5 m) c b :=
  fun b hb => Function.update_of_ne (StableHlo.devRef_ne_of_ne (fun e => hb (Finset.mem_image.mpr ⟨3, Finset.mem_univ _, e.symm⟩))) _ _

/-! ## The regions as segments -/

/-- What this module needs of region 3: its body obligation, and the scoped rest in and out of its invariant. -/
structure R3Facts (aft : Aft3Ty F) (phi : Phi3Ty F) : Prop where
  hbody : ∀ V c, BodyObligation (mkD3 aft phi V c) (defs₀ (F := F)) Variants.none () Set.univ
  hin : ∀ V c, (Pipeline.ΦA spec3 c : sProp (MT nD τ sig Unit (Elt F) ℕ (UR sig nD τ) ℕ)) ⊢ phi V c 0
  hout : ∀ V c, phi V c (Fin.last cfg3.N) ⊢ (Pipeline.ΦA spec3 c : sProp (MT nD τ sig Unit (Elt F) ℕ (UR sig nD τ) ℕ))

variable (h3 : R3Facts aft phi)

set_option backward.isDefEq.respectTransparency.types false in
/-- Region 0 over the thread state: entered from every unscoped buffer at the contents before it, left at the
    contents after it; its arrays split out of the unscoped buffers and put back at their exit contents; the
    generator register into the invariant and out; nothing owed; no semaphore of the kernel's own. -/
def reg0 : Pipeline.RegionSeg (pcfgs (F := F)) adm (pdats m aft phi) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (Vt (U1 m) c)
  hentry c := by
    rw [Pipeline.ownSems0_none]
    have hsplit := Pipeline.arrays_of_unscopedBufs (p := 0) (pcfgs (F := F)) adm (pdats m aft phi) launch0.win launch0.arr_whole c
      ((pdats m aft phi 0 c).share_full fun _ => rfl) (Vt (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft phi 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m aft phi 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m aft phi) ((pdats m aft phi 0 c).share_full fun _ => rfl)
      (Vt (U1 m) c) (Vt (U2 m) c) ((pdats m aft phi 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back at their exit contents; the
    generator register into the invariant and out; nothing owed; no semaphore of the kernel's own. -/
def reg1 : Pipeline.RegionSeg (pcfgs (F := F)) adm (pdats m aft phi) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (Vt (U3 m) c)
  hentry c := by
    rw [Pipeline.ownSems0_none]
    have hsplit := Pipeline.arrays_of_unscopedBufs (p := 1) (pcfgs (F := F)) adm (pdats m aft phi) launch1.win launch1.arr_whole c
      ((pdats m aft phi 1 c).share_full fun _ => rfl) (Vt (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft phi 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m aft phi 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m aft phi) ((pdats m aft phi 1 c).share_full fun _ => rfl)
      (Vt (U3 m) c) (Vt (U4 m) c) ((pdats m aft phi 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back at their exit contents; the
    generator register into the invariant and out; nothing owed; no semaphore of the kernel's own. -/
def reg2 : Pipeline.RegionSeg (pcfgs (F := F)) adm (pdats m aft phi) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (Vt (U5 m) c)
  hentry c := by
    rw [Pipeline.ownSems0_none]
    have hsplit := Pipeline.arrays_of_unscopedBufs (p := 2) (pcfgs (F := F)) adm (pdats m aft phi) launch2.win launch2.arr_whole c
      ((pdats m aft phi 2 c).share_full fun _ => rfl) (Vt (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m aft phi 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m aft phi 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m aft phi) ((pdats m aft phi 2 c).share_full fun _ => rfl)
      (Vt (U5 m) c) (Vt (U6 m) c) ((pdats m aft phi 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
theorem hF3 (c : Dev nD) (w : Fin cfg3.W) : (D3 (Vt (U7 m)) c).arrAt w cfg3.N = Vt (U8 m aft phi) c (Pipeline.arrRef spec3 w) := by
  have hin : ∀ (b : Ref sig .tc), b ≠ main_v78_0 → b ≠ main_v78_1 → Vt (U7 m) c b = Vt (U8 m aft phi) c b := fun b h0 h1 =>
    ((Function.update_of_ne (StableHlo.devRef_ne_of_ne h1 : (Proc.devRef .tc b : DevRef τ sig) ≠ Proc.devRef .tc main_v78_1) _ _).trans
      (Function.update_of_ne (StableHlo.devRef_ne_of_ne h0 : (Proc.devRef .tc b : DevRef τ sig) ≠ Proc.devRef .tc main_v78_0) _ _)).symm
  match w with
  | ⟨0, _⟩ => exact ((D3 (Vt (U7 m)) c).arrAt_in 0 rfl _).trans (rfl.trans (hin main_v70 (by decide) (by decide)))
  | ⟨1, _⟩ => exact ((D3 (Vt (U7 m)) c).arrAt_in 1 rfl _).trans (rfl.trans (hin main_v75 (by decide) (by decide)))
  | ⟨2, _⟩ => exact ((D3 (Vt (U7 m)) c).arrAt_in 2 rfl _).trans (rfl.trans (hin main_arg9 (by decide) (by decide)))
  | ⟨3, _⟩ => exact ((D3 (Vt (U7 m)) c).arrAt_in 3 rfl _).trans (rfl.trans (hin main_v76 (by decide) (by decide)))
  | ⟨4, _⟩ => exact ((D3 (Vt (U7 m)) c).arrAt_in 4 rfl _).trans (rfl.trans (hin main_arg11 (by decide) (by decide)))
  | ⟨5, _⟩ => exact ((D3 (Vt (U7 m)) c).arrAt_in 5 rfl _).trans (rfl.trans (hin main_v77 (by decide) (by decide)))
  | ⟨6, _⟩ => exact ((D3 (Vt (U7 m)) c).arrAt_in 6 rfl _).trans (rfl.trans (hin main_arg2 (by decide) (by decide)))
  | ⟨7, _⟩ => exact ((D3 (Vt (U7 m)) c).arrAt_in 7 rfl _).trans (rfl.trans (hin main_v74 (by decide) (by decide)))
  | ⟨8, _⟩ => exact ((Function.update_of_ne (StableHlo.devRef_ne_of_ne (by decide) : (Proc.devRef .tc main_v78_0 : DevRef τ sig) ≠ Proc.devRef .tc main_v78_1) _ _).trans
      (Function.update_self (Proc.devRef .tc main_v78_0 : DevRef τ sig) (X8a m aft phi c) (U7 m c))).symm
  | ⟨9, _⟩ => exact (Function.update_self (Proc.devRef .tc main_v78_1 : DevRef τ sig) (X8b m aft phi c) (Function.update (U7 m c) main_v78_0 (X8a m aft phi c))).symm
theorem hrest3 (c : Dev nD) : ∀ b, b ∉ Finset.univ.image (Pipeline.arrRef spec3) → Vt (U8 m aft phi) c b = Vt (U7 m) c b :=
  fun b hb => (Function.update_of_ne (StableHlo.devRef_ne_of_ne (fun e => hb (Finset.mem_image.mpr ⟨9, Finset.mem_univ _, e.symm⟩))) _ _).trans
    (Function.update_of_ne (StableHlo.devRef_ne_of_ne (fun e => hb (Finset.mem_image.mpr ⟨8, Finset.mem_univ _, e.symm⟩))) _ _)

set_option backward.isDefEq.respectTransparency.types false in
/-- Region 3 over the thread state.  Its invariant carries the loss accumulator between points; at the region's
    two ends it is the scoped rest and the generator register, as for the other regions. -/
def reg3 : Pipeline.RegionSeg (pcfgs (F := F)) adm (pdats m aft phi) () defs₀ 𝒱₀ L lv 3 where
  win := launch3.win.to₀
  block_pos := launch3.block_pos
  stage_whole := launch3.stage_whole
  K := PEmpty
  osem k := k.elim
  ho := Pipeline.OwnSemFacts.none _
  hbody c := (h3.hbody (Vt (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m aft phi c) ∗ R c)
  X c := iprop(∃ r, prngReg c r)
  Y c := iprop(∃ r, prngReg c r)
  Z c := Pipeline.unscopedRest (Ix := Unit) (Name := ℕ) (U := UR sig nD τ) (Lvl := ℕ) spec3 c (Vt (U7 m) c)
  hentry c := by
    rw [Pipeline.ownSems0_none]
    have hsplit := Pipeline.arrays_of_unscopedBufs (p := 3) (pcfgs (F := F)) adm (pdats m aft phi) launch3.win launch3.arr_whole c
      ((pdats m aft phi 3 c).share_full fun _ => rfl) (Vt (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := h3.hin (Vt (U7 m)) c
    unfold Pipeline.ΦA at h
    rw [show (pdats m aft phi 3 c).Φ 0 = phi (Vt (U7 m)) c 0 from rfl]
    iintro ⟨Hp, -, Hr⟩
    iapply h
    isplitl [Hr]; · iexact Hr
    iexact Hp
  hout c := by
    have h := h3.hout (Vt (U7 m)) c
    unfold Pipeline.ΦA at h
    rw [Pipeline.ownSems0_none, show (pdats m aft phi 3 c).Φ (Fin.last _) = phi (Vt (U7 m)) c (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m aft phi) ((pdats m aft phi 3 c).share_full fun _ => rfl)
      (Vt (U7 m) c) (Vt (U8 m aft phi) c) ((pdats m aft phi 3 c).arrAt · cfg3.N) (hF3 m aft phi c) (hrest3 m aft phi c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segsH : List (Pipeline.Seg (pcfgs (F := F)) adm (pdats m aft phi) () defs₀ 𝒱₀ L lv) :=
  [ .host (hseg hostOps0 hostOps0_sub Gen.hostOps0_fresh (U0 m)),
    .region (reg0 m aft phi),
    .host (hseg hostOps1 hostOps1_sub Gen.hostOps1_fresh (U2 m)),
    .region (reg1 m aft phi),
    .host (hseg hostOps2 hostOps2_sub Gen.hostOps2_fresh (U4 m)),
    .region (reg2 m aft phi),
    .host (hseg hostOps3 hostOps3_sub Gen.hostOps3_fresh (U6 m)),
    .region (reg3 m aft phi h3),
    .host (hseg hostOps4 hostOps4_sub Gen.hostOps4_fresh (U8 m aft phi)) ]

include h3 in
set_option backward.isDefEq.respectTransparency.types false in
/-- THE RUN.  From any memory with zero counters every weakly fair execution of the program terminates without a
    fault, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U9 m aft phi c b) :=
  Pipeline.θ_run_regions_kit (pcfgs (F := F)) adm (pdats m aft phi) () cellOf_inj emb₁ defs₀ 𝒱₀ L lv m ρ main (segsH m aft phi h3)
    (fun c Q => by
      rewrite [main_chain c, Seg.run_eq_chain,
        show (segsH m aft phi h3).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c))
    (Tₙ := fun c => iprop(StableHlo.held (c : Thread nD τ) (Pipeline.ucRefs τ sig) (U9 m aft phi c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (U9 m aft phi c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U9 m aft phi c b)
    (hfin := fun c s' => by
      iintro ⟨⟨Hh, -⟩, HSI⟩
      unfold StableHlo.held
      imodintro
      iapply (pointsTo_read_all (Pipeline.ucRefs τ sig) (fun b => (((c : Thread nD τ)).1, b)) (U9 m aft phi c) s')
      isplitl [Hh] <;> iassumption)
    (hQ := fun s h c => h c)

end Cert.KernelIdeal.Hand

end
-- ==== Proof.KI.Frame.lean ====
/-
  The frame: no host stretch writes an argument array and no region changes one, so each argument's buffer at the
  last boundary is its launch contents.
-/
import proofs.«172706_j3221225472394_1_alg».proof.Proof.Gen.KernelIdeal.Launch
import proofs.«172706_j3221225472394_1_alg».proof.Proof.Gen.KernelIdeal.Skeleton
import proofs.«172706_j3221225472394_1_alg».proof.Proof.Gen.KernelIdeal.Points
import proofs.«172706_j3221225472394_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (aft : Aft3Ty F) (phi : Phi3Ty F)

/-- A buffer that no host stretch writes and that is no region's output holds its launch contents at the end. -/
theorem U9_of (c : Dev nD) (b : Ref sig .tc) (h0 : b ∉ Gen.hostOps0_W) (h1 : b ∉ Gen.hostOps1_W) (h2 : b ∉ Gen.hostOps2_W)
    (h3 : b ∉ Gen.hostOps3_W) (h4 : b ∉ Gen.hostOps4_W)
    (n27 : b ≠ main_v27) (n42 : b ≠ main_v42) (n57 : b ≠ main_v57) (n780 : b ≠ main_v78_0) (n781 : b ≠ main_v78_1) :
    U9 m aft phi c b = m (c, b) :=
  (StableHlo.after_of_writes_sub hostOps4 _ Gen.hostOps4_writes h4).trans <|
  (Function.update_of_ne (StableHlo.devRef_ne_of_ne n781 : (Proc.devRef .tc b : DevRef τ sig) ≠ Proc.devRef .tc main_v78_1) _ _).trans <|
  (Function.update_of_ne (StableHlo.devRef_ne_of_ne n780 : (Proc.devRef .tc b : DevRef τ sig) ≠ Proc.devRef .tc main_v78_0) _ _).trans <|
  (StableHlo.after_of_writes_sub hostOps3 _ Gen.hostOps3_writes h3).trans <|
  (Function.update_of_ne (StableHlo.devRef_ne_of_ne n57 : (Proc.devRef .tc b : DevRef τ sig) ≠ Proc.devRef .tc main_v57) _ _).trans <|
  (StableHlo.after_of_writes_sub hostOps2 _ Gen.hostOps2_writes h2).trans <|
  (Function.update_of_ne (StableHlo.devRef_ne_of_ne n42 : (Proc.devRef .tc b : DevRef τ sig) ≠ Proc.devRef .tc main_v42) _ _).trans <|
  (StableHlo.after_of_writes_sub hostOps1 _ Gen.hostOps1_writes h1).trans <|
  (Function.update_of_ne (StableHlo.devRef_ne_of_ne n27 : (Proc.devRef .tc b : DevRef τ sig) ≠ Proc.devRef .tc main_v27) _ _).trans <|
  (StableHlo.after_of_writes_sub hostOps0 _ Gen.hostOps0_writes h0).trans rfl

/-- THE FRAME, at any `F`: every weakly fair execution terminates without a fault and leaves each argument array as
    launched. -/
theorem frame_all (h3 : R3Facts aft phi) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (U9_of m aft phi c main_arg0 (by decide) (by decide) (by decide) (by decide) (by decide) (by decide) (by decide) (by decide) (by decide) (by decide)),
    (h c _ (mem_uc main_arg1 (by decide))).trans (U9_of m aft phi c main_arg1 (by decide) (by decide) (by decide) (by decide) (by decide) (by decide) (by decide) (by decide) (by decide) (by decide)),
    (h c _ (mem_uc main_arg2 (by decide))).trans (U9_of m aft phi c main_arg2 (by decide) (by decide) (by decide) (by decide) (by decide) (by decide) (by decide) (by decide) (by decide) (by decide)),
    (h c _ (mem_uc main_arg3 (by decide))).trans (U9_of m aft phi c main_arg3 (by decide) (by decide) (by decide) (by decide) (by decide) (by decide) (by decide) (by decide) (by decide) (by decide)),
    (h c _ (mem_uc main_arg4 (by decide))).trans (U9_of m aft phi c main_arg4 (by decide) (by decide) (by decide) (by decide) (by decide) (by decide) (by decide) (by decide) (by decide) (by decide)),
    (h c _ (mem_uc main_arg5 (by decide))).trans (U9_of m aft phi c main_arg5 (by decide) (by decide) (by decide) (by decide) (by decide) (by decide) (by decide) (by decide) (by decide) (by decide)),
    (h c _ (mem_uc main_arg6 (by decide))).trans (U9_of m aft phi c main_arg6 (by decide) (by decide) (by decide) (by decide) (by decide) (by decide) (by decide) (by decide) (by decide) (by decide)),
    (h c _ (mem_uc main_arg7 (by decide))).trans (U9_of m aft phi c main_arg7 (by decide) (by decide) (by decide) (by decide) (by decide) (by decide) (by decide) (by decide) (by decide) (by decide)),
    (h c _ (mem_uc main_arg8 (by decide))).trans (U9_of m aft phi c main_arg8 (by decide) (by decide) (by decide) (by decide) (by decide) (by decide) (by decide) (by decide) (by decide) (by decide)),
    (h c _ (mem_uc main_arg9 (by decide))).trans (U9_of m aft phi c main_arg9 (by decide) (by decide) (by decide) (by decide) (by decide) (by decide) (by decide) (by decide) (by decide) (by decide)),
    (h c _ (mem_uc main_arg10 (by decide))).trans (U9_of m aft phi c main_arg10 (by decide) (by decide) (by decide) (by decide) (by decide) (by decide) (by decide) (by decide) (by decide) (by decide)),
    (h c _ (mem_uc main_arg11 (by decide))).trans (U9_of m aft phi c main_arg11 (by decide) (by decide) (by decide) (by decide) (by decide) (by decide) (by decide) (by decide) (by decide) (by decide)),
    (h c _ (mem_uc main_arg12 (by decide))).trans (U9_of m aft phi c main_arg12 (by decide) (by decide) (by decide) (by decide) (by decide) (by decide) (by decide) (by decide) (by decide) (by decide))⟩)
    (run_all m ρ aft phi h3)

end Cert.KernelIdeal.Hand

end
-- ==== Proof.KI.R3Runs.lean ====
/- Region 3 (the head kernel) at a parameter `V`, the contents its arrays hold when the region is entered:
   the windows' blocks, the input windows' staging contents at every point, the two branch conditions in
   closed form over the grid, where output 9 is idle, the staging and scratch memrefs, and the region's
   invariant with the scratch accumulator split off the scoped rest. -/
import proofs.«172706_j3221225472394_1_alg».proof.Proof.Gen.KernelIdeal.Launch
import proofs.«172706_j3221225472394_1_alg».proof.Proof.Gen.KernelIdeal.Skeleton
import proofs.«172706_j3221225472394_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: unfetched,
    the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: unfetched,
    the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: unfetched,
    the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: unfetched,
    the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: unfetched,
    the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not: unfetched,
    the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not: unfetched,
    the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not: unfetched,
    the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first `scf.if` (the accumulator is zeroed), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the body's second `scf.if` (the mean is stored into output 9), from the grid coordinates. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem liveAt3_8 : ∀ t : Fin cfg3.N, cfg3.idle 8 (grid3.coords t) = false := by decide +kernel
/-- Where the second condition fails output 9 is idle, and its block is not written back there. -/
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
/-- Where it holds output 9 is live. -/
theorem liveAt3_9 : ∀ t : Fin cfg3.N, cond3_1 (grid3.coords t) → cfg3.idle 9 (grid3.coords t) = false := by decide +kernel

/-! ## The staging and scratch memrefs -/

/-- One staging buffer of each output window, through which its contents are stated. -/
abbrev VO3_8 : View sig .tc .vmem S4000x1 .f32 := (Memref.whole cc3_stg8_0 : Memref sig .tc .vmem S4000x1 .f32).view
abbrev VO3_9 : View sig .tc .vmem S1x1 .f32 := (Memref.whole cc3_stg9_0 : Memref sig .tc .vmem S1x1 .f32).view
abbrev ms3_0 (t : Fin cfg3.N) : Memref sig .tc .vmem S4000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x8 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x8 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S8x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S4000x1 .i32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x1 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S4000x1 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x1 .f32 := win3_9.stage (cfg3.slots t 9)
abbrev hs3_9 (t : Fin cfg3.N) : (ms3_9 t).IsWhole := hstage3_9 ((cfg3.slots t 9).cast nbuf3_9)
/-- The scratch accumulator: a whole scoped buffer of the kernel's own, passed beside the windows. -/
abbrev scM3_0 : Memref sig .tc .vmem S1x1 .f32 := Memref.whole cc3_scratch0
abbrev VS3_0 : View sig .tc .vmem S1x1 .f32 := scM3_0.view

/-- Every scoped buffer of the core that is neither a staging buffer of region 3 nor its scratch, at some contents. -/
abbrev restBut3 (c : Dev nD) : sProp 𝕄 :=
  Pipeline.scopedRestBut (Ix := Unit) (Name := ℕ) (U := UR sig nD τ) (Lvl := ℕ) (Val := Elt F) spec3 c [cc3_scratch0]

/-- The region's invariant with the scratch accumulator as a memref owned at some contents, split off the
    other scoped buffers. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA
  rw [Pipeline.scopedRest_split_of_list spec3 c [cc3_scratch0] (by decide) (by decide)]
  simp only [scM3_0, owns_whole]; try rfl

end Cert.KernelIdeal.Hand

end
-- ==== Proof.KI.R3RunA.lean ====
/- The head kernel's body run whole at the first point: the accumulator is zeroed first (first `scf.if` taken), output 9 is not stored (second not taken). -/
import proofs.«172706_j3221225472394_1_alg».proof.Proof.KI.R3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

set_option maxHeartbeats 4000000 in
/-- What the body's stores leave in output 8's, output 9's and the scratch accumulator's memrefs, as pieces (last
    first), at the first point: the accumulator is zeroed first (first `scf.if` taken), output 9 is not stored (second not taken); with the proof that on whole memrefs — the inputs' at
    their contents, output 8's at anything, output 9's at contents handed back untouched, the accumulator's at anything —
    the body runs to the continuation holding the inputs' as they were and each stored buffer with its pieces written. -/
noncomputable def kernelRun3_A (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) :
    Σ' (L8 : List (View.Piece (Elt F) S4000x1 .f32)) (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11) K } := by
  refine ⟨?_, [], ?_, fun xi9 E K => ?run⟩
  case run =>
    simp only [cc3__head_kernel_eq_skeleton]; unfold cc3__head_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    iexists _; iexact HS0

end Cert.KernelIdeal.Hand

end
-- ==== Proof.KI.R3RunB.lean ====
/- The head kernel's body run whole at a middle point: neither `scf.if` is taken. -/
import proofs.«172706_j3221225472394_1_alg».proof.Proof.KI.R3RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

set_option maxHeartbeats 4000000 in
/-- What the body's stores leave in output 8's, output 9's and the scratch accumulator's memrefs, as pieces (last
    first), at a middle point: neither `scf.if` is taken; with the proof that on whole memrefs — the inputs' at
    their contents, output 8's at anything, output 9's at contents handed back untouched, the accumulator's at what the point before left —
    the body runs to the continuation holding the inputs' as they were and each stored buffer with its pieces written. -/
noncomputable def kernelRun3_B (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    Σ' (L8 : List (View.Piece (Elt F) S4000x1 .f32)) (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11) K } := by
  refine ⟨?_, [], ?_, fun xi9 E K => ?run⟩
  case run =>
    simp only [cc3__head_kernel_eq_skeleton]; unfold cc3__head_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    iexists _; iexact HS0

end Cert.KernelIdeal.Hand

end
-- ==== Proof.KI.R3RunC.lean ====
/- The head kernel's body run whole at the last point: the accumulator is not zeroed, and its mean is stored into output 9 (second `scf.if` taken). -/
import proofs.«172706_j3221225472394_1_alg».proof.Proof.KI.R3RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

set_option maxHeartbeats 4000000 in
/-- What the body's stores leave in output 8's, output 9's and the scratch accumulator's memrefs, as pieces (last
    first), at the last point: the accumulator is not zeroed, and its mean is stored into output 9 (second `scf.if` taken); with the proof that on whole memrefs — the inputs' at
    their contents, output 8's at anything, output 9's at anything, the accumulator's at what the point before left —
    the body runs to the continuation holding the inputs' as they were and each stored buffer with its pieces written. -/
noncomputable def kernelRun3_C (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    Σ' (L8 : List (View.Piece (Elt F) S4000x1 .f32)) (L9 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc3__head_kernel_eq_skeleton]; unfold cc3__head_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS0

end Cert.KernelIdeal.Hand

end
-- ==== Proof.KI.R3Pieces.lean ====
/- What the pieces each whole-body run of the head kernel found leave in output 8, output 9 and the scratch
   accumulator: every store is of a whole buffer, so the last one's payload is the contents; each payload is one
   of the skeleton's, at the blocks read. -/
import proofs.«172706_j3221225472394_1_alg».proof.Proof.KI.R3RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

/-- The zero offsets of a whole-buffer access. -/
theorem hz2 : (![0, 0] : Fin 2 → Nat) = fun _ => 0 := by funext a; fin_cases a <;> rfl

/-! ## Case A -/

/-- Case A's one store into output 8 covers its block. -/
theorem cover3_A_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (y : S4000x1.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 S4000x1.size (by sl_kernel_rfl) y

/-- What it leaves there: the sigmoid of the block's logits. -/
theorem canon3_A_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) :
    View.canon (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 = k3_pay4 x0 x1 x2 x3 x4 x5 := by
  unfold kernelRun3_A; dsimp only; sl_unfold_words
  rw [View.canon_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-- Case A's stores into the scratch accumulator cover it. -/
theorem scover3_A_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (y : S1x1.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 S1x1.size (by sl_kernel_rfl) y

/-- What they leave there: zero plus the block's loss sum. -/
theorem canon3_A_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) :
    View.canon (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 = k3_pay1 (k3_pay4 x0 x1 x2 x3 x4 x5) (k3_pay5 x6) x7 (k3_pay3 (F := F)) := by
  unfold kernelRun3_A; dsimp only; sl_unfold_words
  rw [View.canon_cons_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-! ## Case B -/

/-- Case B's one store into output 8 covers its block. -/
theorem cover3_B_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S4000x1.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 S4000x1.size (by sl_kernel_rfl) y

/-- What it leaves there: the sigmoid of the block's logits. -/
theorem canon3_B_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 = k3_pay4 x0 x1 x2 x3 x4 x5 := by
  unfold kernelRun3_B; dsimp only; sl_unfold_words
  rw [View.canon_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-- Case B's stores into the scratch accumulator cover it. -/
theorem scover3_B_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S1x1.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 S1x1.size (by sl_kernel_rfl) y

/-- What they leave there: what the accumulator held plus the block's loss sum. -/
theorem canon3_B_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : ¬cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 = k3_pay1 (k3_pay4 x0 x1 x2 x3 x4 x5) (k3_pay5 x6) x7 xs0 := by
  unfold kernelRun3_B; dsimp only; sl_unfold_words
  rw [View.canon_cons_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-! ## Case C -/

/-- Case C's one store into output 8 covers its block. -/
theorem cover3_C_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S4000x1.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 S4000x1.size (by sl_kernel_rfl) y

/-- What it leaves there: the sigmoid of the block's logits. -/
theorem canon3_C_8 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).1 = k3_pay4 x0 x1 x2 x3 x4 x5 := by
  unfold kernelRun3_C; dsimp only; sl_unfold_words
  rw [View.canon_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-- Case C's stores into the scratch accumulator cover it. -/
theorem scover3_C_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S1x1.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 S1x1.size (by sl_kernel_rfl) y

/-- What they leave there: what the accumulator held plus the block's loss sum. -/
theorem canon3_C_0 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.2.1 = k3_pay1 (k3_pay4 x0 x1 x2 x3 x4 x5) (k3_pay5 x6) x7 xs0 := by
  unfold kernelRun3_C; dsimp only; sl_unfold_words
  rw [View.canon_cons_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

/-- Case C's one store into output 9 covers its block. -/
theorem cover3_C_9 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) (y : S1x1.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.1 S1x1.size (by sl_kernel_rfl) y

/-- What it leaves there: the accumulator's mean. -/
theorem canon3_C_9 (c : Dev nD) (i : grid3.Coords) (arg1 : Memref sig .tc .vmem S4000x64 .f32) (harg1 : arg1.IsWhole) (arg2 : Memref sig .tc .vmem S1x64 .f32) (harg2 : arg2.IsWhole) (arg3 : Memref sig .tc .vmem S64x8 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S1x1 .f32) (harg6 : arg6.IsWhole) (arg7 : Memref sig .tc .vmem S4000x1 .i32) (harg7 : arg7.IsWhole) (arg8 : Memref sig .tc .vmem S1x1 .f32) (harg8 : arg8.IsWhole) (arg9 : Memref sig .tc .vmem S4000x1 .f32) (harg9 : arg9.IsWhole) (arg10 : Memref sig .tc .vmem S1x1 .f32) (harg10 : arg10.IsWhole) (arg11 : Memref sig .tc .vmem S1x1 .f32) (harg11 : arg11.IsWhole) (hc0 : ¬cond3_0 i) (hc1 : cond3_1 i)
    (x0 : Vec F S4000x64 .f32) (x1 : Vec F S1x64 .f32) (x2 : Vec F S64x8 .f32) (x3 : Vec F S1x8 .f32) (x4 : Vec F S8x1 .f32) (x5 : Vec F S1x1 .f32) (x6 : Vec F S4000x1 .i32) (x7 : Vec F S1x1 .f32) (xs0 : Vec F S1x1 .f32) :
    View.canon (kernelRun3_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0).2.1 = k3_pay2 (k3_pay1 (k3_pay4 x0 x1 x2 x3 x4 x5) (k3_pay5 x6) x7 xs0) := by
  unfold kernelRun3_C; dsimp only; sl_unfold_words
  rw [View.canon_unit_zero hz2]
  simp only [View.readCov_unit_zero (S := S1x1) _ hz2, View.readAt_eq_ld, harg1.read_unread, harg2.read_unread, harg3.read_unread, harg4.read_unread, harg5.read_unread, harg6.read_unread, harg7.read_unread, harg8.read_unread, harg11.read_unread, View.ld_unit_zero (S := S4000x64) hz2, View.ld_unit_zero (S := S1x64) hz2, View.ld_unit_zero (S := S64x8) hz2, View.ld_unit_zero (S := S1x8) hz2, View.ld_unit_zero (S := S8x1) hz2, View.ld_unit_zero (S := S1x1) hz2, View.ld_unit_zero (S := S4000x1) hz2]
  try rfl

end Cert.KernelIdeal.Hand

end
-- ==== Proof.KI.R3.lean ====
/- Region 3 (the head kernel) at a parameter `V`: the scratch accumulator point by point, the proof data in closed
   form over the skeleton's payloads, the body obligation (the three control cases, each by its whole-body run and
   the canonical contents of the pieces it found), and the invariant at the region's two ends. -/
import proofs.«172706_j3221225472394_1_alg».proof.Proof.KI.R3Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

/-! ## The scratch accumulator, point by point -/

/-- The scratch accumulator after point `n`: zero plus the first block's loss sum; then the point before's plus this block's. -/
def acc3 (c : Dev nD) : (n : ℕ) → n < cfg3.N → Vec F S1x1 .f32
  | 0, hn => k3_pay1 (k3_pay4 (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩)) (k3_pay5 (iblk3 V c 6 ⟨0, hn⟩)) (iblk3 V c 7 ⟨0, hn⟩) (k3_pay3 (F := F))
  | n + 1, hn => k3_pay1 (k3_pay4 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩)) (k3_pay5 (iblk3 V c 6 ⟨n + 1, hn⟩)) (iblk3 V c 7 ⟨n + 1, hn⟩) (acc3 c n (Nat.lt_of_succ_lt hn))

theorem acc3_zero (c : Dev nD) (t : Fin cfg3.N) (h : t.val = 0) :
    acc3 V c t.val t.isLt = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) (k3_pay3 (F := F)) := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) (acc3 V c (t.val - 1) (Nat.lt_of_le_of_lt (Nat.sub_le _ _) t.isLt)) := by
  obtain ⟨n, hn⟩ := t
  cases n with
  | zero => exact absurd rfl h
  | succ n => rfl

/-! ## The region's invariant -/

/-- Before the first point the launch's invariant (every scoped buffer at anything); afterwards the scratch
    accumulator at what the point before left, the other scoped buffers at anything, the generator register at
    some state. -/
def PhiS3 (c : Dev nD) : (n : ℕ) → n ≤ cfg3.N → sProp 𝕄
  | 0, _ => Pipeline.ΦA spec3 c
  | n + 1, hn => iprop(iprop(owns (c : Thread nD τ) scM3_0 fullShare (acc3 V c n hn) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (acc3 V c n hn) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (acc3 V c (n - 1) (by omega)) ∗ restBut3 (F := F) c) ∗ (∃ r, prngReg c r)) := by
  cases n with
  | zero => exact absurd rfl hz
  | succ n => rfl

/-! ## The pipeline's proof data -/

/-- The proof data of region 3 on core `c`: the arrays as the region finds them (`V`); after the body at point `t`
    each input's buffer at its block, output 8's at the sigmoid of the block's logits, output 9's at the mean of the
    accumulator there (read at the last point only: elsewhere the window is idle); the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => k3_pay4 (iblk3 V c 0 t) (iblk3 V c 1 t) (iblk3 V c 2 t) (iblk3 V c 3 t) (iblk3 V c 4 t) (iblk3 V c 5 t)
    | ⟨9, _⟩ => k3_pay2 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
/-- Output 8: the sigmoid block, stored whole at every point. -/
theorem after3_8 (c : Dev nD) (t : Fin cfg3.N) : (dat3 V c).after 8 t = k3_pay4 (iblk3 V c 0 t) (iblk3 V c 1 t) (iblk3 V c 2 t) (iblk3 V c 3 t) (iblk3 V c 4 t) (iblk3 V c 5 t) := by dsimp only [dat3]
/-- Output 9: the accumulator's mean. -/
theorem after3_9 (c : Dev nD) (t : Fin cfg3.N) : (dat3 V c).after 9 t = k3_pay2 (acc3 V c t.val t.isLt) := by dsimp only [dat3]
theorem after3_9_last (c : Dev nD) : (dat3 V c).after 9 ⟨24, by decide⟩ = k3_pay2 (acc3 V c 24 (by decide)) := after3_9 V c _

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The three runs at a point of the grid -/

abbrev runA (c : Dev nD) (t : Fin cfg3.N) (hc0 : cond3_0 (grid3.coords t)) (hc1 : ¬cond3_1 (grid3.coords t)) :=
  kernelRun3_A (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t)
abbrev runB (c : Dev nD) (t : Fin cfg3.N) (hc0 : ¬cond3_0 (grid3.coords t)) (hc1 : ¬cond3_1 (grid3.coords t)) (xs0 : Vec F S1x1 .f32) :=
  kernelRun3_B (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0
abbrev runC (c : Dev nD) (t : Fin cfg3.N) (hc0 : ¬cond3_0 (grid3.coords t)) (hc1 : cond3_1 (grid3.coords t)) (xs0 : Vec F S1x1 .f32) :=
  kernelRun3_C (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

/-- What case A's pieces leave in output 8's buffer, whatever it held: the sigmoid block. -/
theorem canon8_A (c : Dev nD) (t : Fin cfg3.N) (hc0 : cond3_0 (grid3.coords t)) (hc1 : ¬cond3_1 (grid3.coords t)) (f : (ms3_8 t).view.ty.Contents (Elt F)) :
    (ms3_8 t).view.read (Elt F) ((ms3_8 t).view.writes (Elt F) f (runA V c t hc0 hc1).1) = k3_pay4 (iblk3 V c 0 t) (iblk3 V c 1 t) (iblk3 V c 2 t) (iblk3 V c 3 t) (iblk3 V c 4 t) (iblk3 V c 5 t) :=
  (View.read_writes_eq_canon _ _ _ (cover3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t))).trans (canon3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t))
/-- What they leave in the scratch accumulator: zero plus the block's loss sum. -/
theorem canonS_A (c : Dev nD) (t : Fin cfg3.N) (hc0 : cond3_0 (grid3.coords t)) (hc1 : ¬cond3_1 (grid3.coords t)) (f : scM3_0.view.ty.Contents (Elt F)) :
    scM3_0.view.read (Elt F) (scM3_0.view.writes (Elt F) f (runA V c t hc0 hc1).2.2.1) = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) (k3_pay3 (F := F)) :=
  (View.read_writes_eq_canon _ _ _ (scover3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t))).trans (canon3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t))

/-- What case B's pieces leave in output 8's buffer, whatever it held: the sigmoid block. -/
theorem canon8_B (c : Dev nD) (t : Fin cfg3.N) (hc0 : ¬cond3_0 (grid3.coords t)) (hc1 : ¬cond3_1 (grid3.coords t)) (xs0 : Vec F S1x1 .f32) (f : (ms3_8 t).view.ty.Contents (Elt F)) :
    (ms3_8 t).view.read (Elt F) ((ms3_8 t).view.writes (Elt F) f (runB V c t hc0 hc1 xs0).1) = k3_pay4 (iblk3 V c 0 t) (iblk3 V c 1 t) (iblk3 V c 2 t) (iblk3 V c 3 t) (iblk3 V c 4 t) (iblk3 V c 5 t) :=
  (View.read_writes_eq_canon _ _ _ (cover3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)
/-- What they leave in the scratch accumulator: what it held plus the block's loss sum. -/
theorem canonS_B (c : Dev nD) (t : Fin cfg3.N) (hc0 : ¬cond3_0 (grid3.coords t)) (hc1 : ¬cond3_1 (grid3.coords t)) (xs0 : Vec F S1x1 .f32) (f : scM3_0.view.ty.Contents (Elt F)) :
    scM3_0.view.read (Elt F) (scM3_0.view.writes (Elt F) f (runB V c t hc0 hc1 xs0).2.2.1) = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) xs0 :=
  (View.read_writes_eq_canon _ _ _ (scover3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)

/-- What case C's pieces leave in output 8's buffer, whatever it held: the sigmoid block. -/
theorem canon8_C (c : Dev nD) (t : Fin cfg3.N) (hc0 : ¬cond3_0 (grid3.coords t)) (hc1 : cond3_1 (grid3.coords t)) (xs0 : Vec F S1x1 .f32) (f : (ms3_8 t).view.ty.Contents (Elt F)) :
    (ms3_8 t).view.read (Elt F) ((ms3_8 t).view.writes (Elt F) f (runC V c t hc0 hc1 xs0).1) = k3_pay4 (iblk3 V c 0 t) (iblk3 V c 1 t) (iblk3 V c 2 t) (iblk3 V c 3 t) (iblk3 V c 4 t) (iblk3 V c 5 t) :=
  (View.read_writes_eq_canon _ _ _ (cover3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)
/-- What they leave in the scratch accumulator: what it held plus the block's loss sum. -/
theorem canonS_C (c : Dev nD) (t : Fin cfg3.N) (hc0 : ¬cond3_0 (grid3.coords t)) (hc1 : cond3_1 (grid3.coords t)) (xs0 : Vec F S1x1 .f32) (f : scM3_0.view.ty.Contents (Elt F)) :
    scM3_0.view.read (Elt F) (scM3_0.view.writes (Elt F) f (runC V c t hc0 hc1 xs0).2.2.1) = k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) xs0 :=
  (View.read_writes_eq_canon _ _ _ (scover3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)
/-- What they leave in output 9's buffer: the accumulator's mean. -/
theorem canon9_C (c : Dev nD) (t : Fin cfg3.N) (hc0 : ¬cond3_0 (grid3.coords t)) (hc1 : cond3_1 (grid3.coords t)) (xs0 : Vec F S1x1 .f32) (f : (ms3_9 t).view.ty.Contents (Elt F)) :
    (ms3_9 t).view.read (Elt F) ((ms3_9 t).view.writes (Elt F) f (runC V c t hc0 hc1 xs0).2.1) = k3_pay2 (k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) xs0) :=
  (View.read_writes_eq_canon _ _ _ (cover3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)).trans (canon3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) hc0 hc1 (iblk3 V c 0 t) (iblk3 V c 1 t) (iblk3 V c 2 t) (iblk3 V c 3 t) (iblk3 V c 4 t) (iblk3 V c 5 t) (iblk3 V c 6 t) (iblk3 V c 7 t) xs0)

set_option maxHeartbeats 4800000 in
/-- The body at any point: the inputs' memrefs hold their blocks; the closed forms of the two conditions say which
    case the point is in; the case's run applies; the invariant hands the body the scratch accumulator at what the point
    before left (at anything at the first point) and takes it back at this point's contents; output 8 is left at
    the sigmoid block, output 9 untouched but at the last point, where it is left at the accumulator's mean. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  rw [show (dat3 V c).leavesExact 7 t = owns (c : Thread nD τ) (ms3_7 t) fullShare ((dat3 V c).after 7 t) from by
    unfold Dat.leavesExact; rw [liveAt3_7 t], after3_7]
  rw [show (dat3 V c).leavesExact 8 t = owns (c : Thread nD τ) (ms3_8 t) fullShare ((dat3 V c).after 8 t) from by
    unfold Dat.leavesExact; rw [liveAt3_8 t], after3_8]
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 9 t (idleAt3_9 t hc1) (noFlush3_9 t hc1)]
    rw [acc3_zero V c t h0]
    rw [PhiS3_castSucc V c t, PhiS3_zero V c _ _ h0, PhiA3_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA V c t hc0 hc1).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    iintro ⟨H0, H1, H2, H3, H4, H5, H6, H7, ⟨%e8, H8⟩, H9, ⟨%es0, HS0⟩⟩
    isplitl [HS0 HR Hg]
    · isplitl [HS0 HR]
      · isplitl [HS0]
        · unfold owns; iexists _; isplitr
          swap; · iexact HS0
          ipureintro; exact canonS_A V c t hc0 hc1 _
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact canon8_A V c t hc0 hc1 _
    iexists _; iexact H9
  · have hc0 : ¬cond3_0 (grid3.coords t) := fun h => h0 ((hcond3_0 t).mp h)
    by_cases h1 : t.val = 24
    · have hc1 : cond3_1 (grid3.coords t) := (hcond3_1 t).mpr h1
      rw [show (dat3 V c).leavesExact 9 t = owns (c : Thread nD τ) (ms3_9 t) fullShare ((dat3 V c).after 9 t) from by
        unfold Dat.leavesExact; rw [liveAt3_9 t hc1], after3_9]
      rw [acc3_pos V c t h0]
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC V c t hc0 hc1 (acc3 V c (t.val - 1) (Nat.lt_of_le_of_lt (Nat.sub_le _ _) t.isLt))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 HR Hg]
      · isplitl [HS0 HR]
        · isplitl [HS0]
          · unfold owns; iexists _; isplitr
            swap; · iexact HS0
            ipureintro; exact canonS_C V c t hc0 hc1 _ _
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact canon8_C V c t hc0 hc1 _ _
      unfold owns; iexists _; isplitr
      swap; · iexact H9
      ipureintro; exact canon9_C V c t hc0 hc1 _ _
    · have hc1 : ¬cond3_1 (grid3.coords t) := fun h => h1 ((hcond3_1 t).mp h)
      rw [Dat.leavesExact_idle (dat3 V c) 9 t (idleAt3_9 t hc1) (noFlush3_9 t hc1)]
      rw [acc3_pos V c t h0]
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB V c t hc0 hc1 (acc3 V c (t.val - 1) (Nat.lt_of_le_of_lt (Nat.sub_le _ _) t.isLt))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      iintro ⟨H0, H1, H2, H3, H4, H5, H6, H7, ⟨%e8, H8⟩, H9, ⟨%es0, HS0⟩⟩
      isplitl [HS0 HR Hg]
      · isplitl [HS0 HR]
        · isplitl [HS0]
          · unfold owns; iexists _; isplitr
            swap; · iexact HS0
            ipureintro; exact canonS_B V c t hc0 hc1 _ _
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact canon8_B V c t hc0 hc1 _ _
      iexists _; iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 25 := N_3; omega)

end Cert.KernelIdeal.Hand

end
-- ==== Proof.KI.R3Inst.lean ====
/-
  Region 3's proof data handed to the run: what its staging buffers hold after each point and its invariant are
  the components of the head kernel's proof data; the run needs its body obligation and the scoped rest passing in
  and out of the invariant at the region's two ends.
-/
import proofs.«172706_j3221225472394_1_alg».proof.Proof.Gen.KernelIdeal.Launch
import proofs.«172706_j3221225472394_1_alg».proof.Proof.Gen.KernelIdeal.Skeleton
import proofs.«172706_j3221225472394_1_alg».proof.Proof.Gen.KernelIdeal.Points
import proofs.«172706_j3221225472394_1_alg».proof.Proof.KI.Frame
import proofs.«172706_j3221225472394_1_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the head kernel leaves in each window's staging buffer, per point. -/
def aft3 : Aft3Ty F := fun V c => (dat3 V c).after
/-- The head kernel's invariant, per point. -/
def phi3 : Phi3Ty F := fun V c => (dat3 V c).Φ

theorem mkD3_eq (V : EntryTy F) (c : Dev nD) : mkD3 (aft3 (F := F)) phi3 V c = dat3 V c := rfl

theorem r3facts : R3Facts (aft3 (F := F)) phi3 where
  hbody V c := body_obligation3 V c
  hin V c := hin3 V c
  hout V c := hout3 V c

variable (m : (ℓ : Loc nD τ sig) → Buf (Elt F) ℓ) (ρ : Dev nD → PrngReg)

/-- THE FRAME of the program, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_all m ρ aft3 phi3 r3facts

/-- THE RUN with every unscoped buffer named at the end. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = U9 m aft3 phi3 c b) :=
  run_all m ρ aft3 phi3 r3facts

end Cert.KernelIdeal.Hand

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«172706_j3221225472394_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«172706_j3221225472394_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«172706_j3221225472394_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«172706_j3221225472394_1_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.KI.Val0.lean ====
/-
  Region 0's output array after the run, at the ideal values: the product of the node features and the first
  weight matrix.  Block `t` of the output is written by grid point `t` alone and holds rows
  `4000·t … 4000·t + 3999` of the product, because a row of a product reads only the same row of the left factor;
  the 25 blocks tile the array.
-/
import proofs.«172706_j3221225472394_1_alg».proof.Proof.KI.R0
import proofs.«172706_j3221225472394_1_alg».proof.Proof.LibProdRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.RegionValue (prodArr prodArr_apply block_prod)

variable (V : (c : Dev nD) → (b : Ref sig .tc) → Buf (Elt Ideal) ((c : Thread nD τ).loc b))

theorem off00 : (![0, 0] : Fin 2 → Nat) = fun _ => 0 := funext fun a => by fin_cases a <;> rfl

/-- The index maps over the grid: the row-block windows move with the point, the weight stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0_eq (c : Dev nD) (t : Fin cfg0.N) :
    (dat0 V c).flushed 2 t = ((cfg0.win 2).blk t).view.read (Elt Ideal) (prodArr (V c main_arg0) (V c main_arg3)) := by
  show (cfg0.win 2).cut (grid0.coords t) ((dat0 V c).after 2 t) = _
  rw [after0_2]
  unfold out0_2
  rw [View.canon_unit_zero off00]
  simp only [View.ld_unit_zero (S := S4000x128) off00, View.ld_unit_zero (S := S128x64) off00]
  obtain ⟨e0, e1, e2, e3, e4, e5⟩ := idx_facts0 t
  funext j
  show k0_pay1 (iblk0 V c 0 t) (iblk0 V c 1 t) j = prodArr (V c main_arg0) (V c main_arg3) (((cfg0.win 2).blk t).view.emb j)
  unfold k0_pay1
  refine block_prod none _ _ (V c main_arg0) (V c main_arg3) (t.val * 4000) j _ ?_ ?_ ?_ ?_
  · show win0_2.index t (0 : Fin 2) * 4000 + 1 * (j 0).val = t.val * 4000 + (j 0).val
    omega
  · show win0_2.index t (1 : Fin 2) * 64 + 1 * (j 1).val = (j 1).val
    omega
  · intro u z h0 h1
    show V c main_arg0 (((cfg0.win 0).blk t).view.emb u) = V c main_arg0 z
    refine congrArg _ (funext fun a => Fin.ext ?_)
    match a with
    | ⟨0, _⟩ => show win0_0.index t (0 : Fin 2) * 4000 + 1 * (u 0).val = (z 0).val; omega
    | ⟨1, _⟩ => show win0_0.index t (1 : Fin 2) * 128 + 1 * (u 1).val = (z 1).val; omega
  · intro u
    show V c main_arg3 (((cfg0.win 1).blk t).view.emb u) = V c main_arg3 u
    refine congrArg _ (funext fun a => Fin.ext ?_)
    match a with
    | ⟨0, _⟩ => show win0_1.index t (0 : Fin 2) * 128 + 1 * (u 0).val = (u 0).val; omega
    | ⟨1, _⟩ => show win0_1.index t (1 : Fin 2) * 64 + 1 * (u 1).val = (u 1).val; omega

theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v27).slice (win0_2.rect t)).set ↔ _
  rw [View.set_slice_whole, Rect.mem_set_unit]
  exact Iff.rfl

/-- Row `p` lies in block `p / 4000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_2 _, ?_⟩
  rw [mem_blk0]
  obtain ⟨e0, e1, e2, e3, e4, e5⟩ := idx_facts0 ⟨(i 0).val / 4000, by rw [hN]; omega⟩
  intro a
  match a with
  | ⟨0, _⟩ =>
    show win0_2.index ⟨(i 0).val / 4000, _⟩ (0 : Fin 2) * 4000 ≤ (i 0).val ∧ (i 0).val < win0_2.index ⟨(i 0).val / 4000, _⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, _⟩ (1 : Fin 2) * 64 ≤ (i 1).val ∧ (i 1).val < win0_2.index ⟨(i 0).val / 4000, _⟩ (1 : Fin 2) * 64 + 64
    rw [e5]; omega

/-- THE ARRAY after region 0: the whole product. -/
theorem final0 (c : Dev nD) : (dat0 V c).arrAt 2 cfg0.N = prodArr (V c main_arg0) (V c main_arg3) :=
  (dat0 V c).arrAt_eq_of_cover 2 _ (fun t _ => flushed0_eq V c t) cover0

end Cert.KernelIdeal.Hand

end
-- ==== Proof.ActSpec.lean ====
/-
  A bias row added to every row of an array and the result clamped below at a level: the input side of a
  hidden layer.  On a block of rows it is the same function of the block's rows.
-/
import Idealize.ShloMosaic.Lib.ValueIdx
import Idealize.ShloMosaic.PureOps.Ideal.Laws

noncomputable section

namespace Cert.ActSpec

open Idealize.ShloMosaic Idealize.ShloMosaic.ValueIdx

/-- `max (A (p, j) + b (0, j)) z` at every `(p, j)`. -/
def preAct {R N : ℕ} (z : EReal) (A : (⟨2, ![R, N]⟩ : Shape).Idx → EReal) (b : (⟨2, ![1, N]⟩ : Shape).Idx → EReal) :
    (⟨2, ![R, N]⟩ : Shape).Idx → EReal :=
  fun i => max (A i + b (ix2 (0 : Fin 1) (idxEquiv2 (n0 := R) (n1 := N) i).2)) z

theorem preAct_apply {R N : ℕ} (z : EReal) (A : (⟨2, ![R, N]⟩ : Shape).Idx → EReal) (b : (⟨2, ![1, N]⟩ : Shape).Idx → EReal)
    (p : Fin R) (q : Fin N) : preAct z A b (ix2 p q) = max (A (ix2 p q) + b (ix2 (0 : Fin 1) q)) z := rfl

end Cert.ActSpec

end
-- ==== Proof.KI.Val1.lean ====
/-
  Region 1's output array after the run, at the ideal values: the bias row added to the aggregated features,
  clamped at zero, times the layer's weight matrix.  Block `t` of the output holds rows `4000·t … 4000·t + 3999` of
  that product, because each of its rows reads only the same row of the aggregated features; the 25 blocks tile the array.
-/
import proofs.«172706_j3221225472394_1_alg».proof.Proof.KI.R1
import proofs.«172706_j3221225472394_1_alg».proof.Proof.LibProdRows
import proofs.«172706_j3221225472394_1_alg».proof.Proof.ActSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.RegionValue (prodArr prodArr_apply block_prod)

variable (V : (c : Dev nD) → (b : Ref sig .tc) → Buf (Elt Ideal) ((c : Thread nD τ).loc b))
open Cert.ActSpec (preAct preAct_apply)

theorem off00_1 : (![0, 0] : Fin 2 → Nat) = fun _ => 0 := funext fun a => by fin_cases a <;> rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The zero word, kept as a word. -/
abbrev zw1 : EReal := Ideal.ofBits .f32 0x00000000#32

/-- The body's left factor on a block, entry by entry. -/
theorem act_block1 (v0 : Vec Ideal S4000x64 .f32) (v2 : Vec Ideal S1x64 .f32) (p : Fin 4000) (q : Fin 64) :
    (truncf .bf16 (maximumf (addf (shapeCast S4000x64 v0 shapeCasts_S4000x64_S4000x64)
        (broadcastTo S4000x64 (shapeCast S1x64 v2 shapeCasts_S1x64_S1x64) broadcasts_S1x64_S4000x64))
      (broadcast S4000x64 (Scalar.ofBits .f32 0x00000000#32))) bitsLt_bf16_f32 : FVec Ideal S4000x64 .bf16) (ix2 p q)
      = max (v0 (ix2 p q) + v2 (ix2 (0 : Fin 1) q)) zw1 := by
  show max ((shapeCast S4000x64 v0 shapeCasts_S4000x64_S4000x64) (ix2 p q)
      + (broadcastTo S4000x64 (shapeCast S1x64 v2 shapeCasts_S1x64_S1x64) broadcasts_S1x64_S4000x64) (ix2 p q)) _ = _
  rw [shapeCast_self, broadcastTo_1b_ab_apply, shapeCast_self]
  rfl

theorem flushed1_eq (c : Dev nD) (t : Fin cfg1.N) :
    (dat1 V c).flushed 3 t = ((cfg1.win 3).blk t).view.read (Elt Ideal)
      (prodArr (preAct zw1 (V c main_v40) (V c main_v41)) (V c main_arg5)) := by
  show (cfg1.win 3).cut (grid1.coords t) ((dat1 V c).after 3 t) = _
  rw [after1_3]
  unfold out1_3
  rw [View.canon_unit_zero off00_1]
  simp only [View.ld_unit_zero (S := S4000x64) off00_1, View.ld_unit_zero (S := S1x64) off00_1, View.ld_unit_zero (S := S64x64) off00_1]
  obtain ⟨e0, e1, e2, e3, e4, e5, e6, e7⟩ := idx_facts1 t
  funext j
  show k1_pay1 (iblk1 V c 0 t) (iblk1 V c 1 t) (iblk1 V c 2 t) j
    = prodArr (preAct zw1 (V c main_v40) (V c main_v41)) (V c main_arg5) (((cfg1.win 3).blk t).view.emb j)
  unfold k1_pay1
  refine block_prod none _ _ (preAct zw1 (V c main_v40) (V c main_v41)) (V c main_arg5) (t.val * 4000) j _ ?_ ?_ ?_ ?_
  · show win1_3.index t (0 : Fin 2) * 4000 + 1 * (j 0).val = t.val * 4000 + (j 0).val
    omega
  · show win1_3.index t (1 : Fin 2) * 64 + 1 * (j 1).val = (j 1).val
    omega
  · intro u z h0 h1
    obtain ⟨p, q, rfl⟩ : ∃ (p : Fin 4000) (q : Fin 64), u = ix2 p q := ⟨u 0, u 1, eq_ix2 u⟩
    obtain ⟨p', q', rfl⟩ : ∃ (p' : Fin 100000) (q' : Fin 64), z = ix2 p' q' := ⟨z 0, z 1, eq_ix2 z⟩
    have hp : p'.val = t.val * 4000 + p.val := h0
    obtain rfl : q' = q := Fin.ext h1
    rw [act_block1, preAct_apply]
    have ea : iblk1 V c 0 t (ix2 p q') = V c main_v40 (ix2 p' q') := by
      show V c main_v40 (((cfg1.win 0).blk t).view.emb (ix2 p q')) = V c main_v40 (ix2 p' q')
      refine congrArg _ (funext fun a => Fin.ext ?_)
      match a with
      | ⟨0, _⟩ => show win1_0.index t (0 : Fin 2) * 4000 + 1 * p.val = p'.val; omega
      | ⟨1, _⟩ => show win1_0.index t (1 : Fin 2) * 64 + 1 * q'.val = q'.val; omega
    have eb : iblk1 V c 1 t (ix2 (0 : Fin 1) q') = V c main_v41 (ix2 (0 : Fin 1) q') := by
      show V c main_v41 (((cfg1.win 1).blk t).view.emb (ix2 (0 : Fin 1) q')) = V c main_v41 (ix2 (0 : Fin 1) q')
      refine congrArg _ (funext fun a => Fin.ext ?_)
      match a with
      | ⟨0, _⟩ => show win1_1.index t (0 : Fin 2) * 1 + 1 * 0 = 0; omega
      | ⟨1, _⟩ => show win1_1.index t (1 : Fin 2) * 64 + 1 * q'.val = q'.val; omega
    rw [ea, eb]
  · intro u
    show V c main_arg5 (((cfg1.win 2).blk t).view.emb u) = V c main_arg5 u
    refine congrArg _ (funext fun a => Fin.ext ?_)
    match a with
    | ⟨0, _⟩ => show win1_2.index t (0 : Fin 2) * 64 + 1 * (u 0).val = (u 0).val; omega
    | ⟨1, _⟩ => show win1_2.index t (1 : Fin 2) * 64 + 1 * (u 1).val = (u 1).val; omega

theorem mem_blk1 (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v42).slice (win1_3.rect t)).set ↔ _
  rw [View.set_slice_whole, Rect.mem_set_unit]
  exact Iff.rfl

theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 25 := N_1
  refine ⟨⟨(i 0).val / 4000, by rw [hN]; omega⟩, flush1_3 _, ?_⟩
  rw [mem_blk1]
  obtain ⟨e0, e1, e2, e3, e4, e5, e6, e7⟩ := idx_facts1 ⟨(i 0).val / 4000, by rw [hN]; omega⟩
  intro a
  match a with
  | ⟨0, _⟩ =>
    show win1_3.index ⟨(i 0).val / 4000, _⟩ (0 : Fin 2) * 4000 ≤ (i 0).val ∧ (i 0).val < win1_3.index ⟨(i 0).val / 4000, _⟩ (0 : Fin 2) * 4000 + 4000
    rw [e6]; show (i 0).val / 4000 * 4000 ≤ (i 0).val ∧ (i 0).val < (i 0).val / 4000 * 4000 + 4000; omega
  | ⟨1, _⟩ =>
    show win1_3.index ⟨(i 0).val / 4000, _⟩ (1 : Fin 2) * 64 ≤ (i 1).val ∧ (i 1).val < win1_3.index ⟨(i 0).val / 4000, _⟩ (1 : Fin 2) * 64 + 64
    rw [e7]; omega

/-- THE ARRAY after region 1. -/
theorem final1 (c : Dev nD) : (dat1 V c).arrAt 3 cfg1.N
    = prodArr (preAct zw1 (V c main_v40) (V c main_v41)) (V c main_arg5) :=
  (dat1 V c).arrAt_eq_of_cover 3 _ (fun t _ => flushed1_eq V c t) cover1

end Cert.KernelIdeal.Hand

end
-- ==== Proof.KI.Val2.lean ====
/-
  Region 2's output array after the run, at the ideal values: the bias row added to the aggregated features,
  clamped at zero, times the layer's weight matrix.  Block `t` of the output holds rows `4000·t … 4000·t + 3999` of
  that product, because each of its rows reads only the same row of the aggregated features; the 25 blocks tile the array.
-/
import proofs.«172706_j3221225472394_1_alg».proof.Proof.KI.R2
import proofs.«172706_j3221225472394_1_alg».proof.Proof.LibProdRows
import proofs.«172706_j3221225472394_1_alg».proof.Proof.ActSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.RegionValue (prodArr prodArr_apply block_prod)

variable (V : (c : Dev nD) → (b : Ref sig .tc) → Buf (Elt Ideal) ((c : Thread nD τ).loc b))
open Cert.ActSpec (preAct preAct_apply)

theorem off00_2 : (![0, 0] : Fin 2 → Nat) = fun _ => 0 := funext fun a => by fin_cases a <;> rfl

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The zero word, kept as a word. -/
abbrev zw2 : EReal := Ideal.ofBits .f32 0x00000000#32

/-- The body's left factor on a block, entry by entry. -/
theorem act_block2 (v0 : Vec Ideal S4000x64 .f32) (v2 : Vec Ideal S1x64 .f32) (p : Fin 4000) (q : Fin 64) :
    (truncf .bf16 (maximumf (addf (shapeCast S4000x64 v0 shapeCasts_S4000x64_S4000x64)
        (broadcastTo S4000x64 (shapeCast S1x64 v2 shapeCasts_S1x64_S1x64) broadcasts_S1x64_S4000x64))
      (broadcast S4000x64 (Scalar.ofBits .f32 0x00000000#32))) bitsLt_bf16_f32 : FVec Ideal S4000x64 .bf16) (ix2 p q)
      = max (v0 (ix2 p q) + v2 (ix2 (0 : Fin 1) q)) zw2 := by
  show max ((shapeCast S4000x64 v0 shapeCasts_S4000x64_S4000x64) (ix2 p q)
      + (broadcastTo S4000x64 (shapeCast S1x64 v2 shapeCasts_S1x64_S1x64) broadcasts_S1x64_S4000x64) (ix2 p q)) _ = _
  rw [shapeCast_self, broadcastTo_1b_ab_apply, shapeCast_self]
  rfl

theorem flushed2_eq (c : Dev nD) (t : Fin cfg2.N) :
    (dat2 V c).flushed 3 t = ((cfg2.win 3).blk t).view.read (Elt Ideal)
      (prodArr (preAct zw2 (V c main_v55) (V c main_v56)) (V c main_arg7)) := by
  show (cfg2.win 3).cut (grid2.coords t) ((dat2 V c).after 3 t) = _
  rw [after2_3]
  unfold out2_3
  rw [View.canon_unit_zero off00_2]
  simp only [View.ld_unit_zero (S := S4000x64) off00_2, View.ld_unit_zero (S := S1x64) off00_2, View.ld_unit_zero (S := S64x64) off00_2]
  obtain ⟨e0, e1, e2, e3, e4, e5, e6, e7⟩ := idx_facts2 t
  funext j
  show k2_pay1 (iblk2 V c 0 t) (iblk2 V c 1 t) (iblk2 V c 2 t) j
    = prodArr (preAct zw2 (V c main_v55) (V c main_v56)) (V c main_arg7) (((cfg2.win 3).blk t).view.emb j)
  unfold k2_pay1
  refine block_prod none _ _ (preAct zw2 (V c main_v55) (V c main_v56)) (V c main_arg7) (t.val * 4000) j _ ?_ ?_ ?_ ?_
  · show win2_3.index t (0 : Fin 2) * 4000 + 1 * (j 0).val = t.val * 4000 + (j 0).val
    omega
  · show win2_3.index t (1 : Fin 2) * 64 + 1 * (j 1).val = (j 1).val
    omega
  · intro u z h0 h1
    obtain ⟨p, q, rfl⟩ : ∃ (p : Fin 4000) (q : Fin 64), u = ix2 p q := ⟨u 0, u 1, eq_ix2 u⟩
    obtain ⟨p', q', rfl⟩ : ∃ (p' : Fin 100000) (q' : Fin 64), z = ix2 p' q' := ⟨z 0, z 1, eq_ix2 z⟩
    have hp : p'.val = t.val * 4000 + p.val := h0
    obtain rfl : q' = q := Fin.ext h1
    rw [act_block2, preAct_apply]
    have ea : iblk2 V c 0 t (ix2 p q') = V c main_v55 (ix2 p' q') := by
      show V c main_v55 (((cfg2.win 0).blk t).view.emb (ix2 p q')) = V c main_v55 (ix2 p' q')
      refine congrArg _ (funext fun a => Fin.ext ?_)
      match a with
      | ⟨0, _⟩ => show win2_0.index t (0 : Fin 2) * 4000 + 1 * p.val = p'.val; omega
      | ⟨1, _⟩ => show win2_0.index t (1 : Fin 2) * 64 + 1 * q'.val = q'.val; omega
    have eb : iblk2 V c 1 t (ix2 (0 : Fin 1) q') = V c main_v56 (ix2 (0 : Fin 1) q') := by
      show V c main_v56 (((cfg2.win 1).blk t).view.emb (ix2 (0 : Fin 1) q')) = V c main_v56 (ix2 (0 : Fin 1) q')
      refine congrArg _ (funext fun a => Fin.ext ?_)
      match a with
      | ⟨0, _⟩ => show win2_1.index t (0 : Fin 2) * 1 + 1 * 0 = 0; omega
      | ⟨1, _⟩ => show win2_1.index t (1 : Fin 2) * 64 + 1 * q'.val = q'.val; omega
    rw [ea, eb]
  · intro u
    show V c main_arg7 (((cfg2.win 2).blk t).view.emb u) = V c main_arg7 u
    refine congrArg _ (funext fun a => Fin.ext ?_)
    match a with
    | ⟨0, _⟩ => show win2_2.index t (0 : Fin 2) * 64 + 1 * (u 0).val = (u 0).val; omega
    | ⟨1, _⟩ => show win2_2.index t (1 : Fin 2) * 64 + 1 * (u 1).val = (u 1).val; omega

theorem mem_blk2 (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v57).slice (win2_3.rect t)).set ↔ _
  rw [View.set_slice_whole, Rect.mem_set_unit]
  exact Iff.rfl

theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 25 := N_2
  refine ⟨⟨(i 0).val / 4000, by rw [hN]; omega⟩, flush2_3 _, ?_⟩
  rw [mem_blk2]
  obtain ⟨e0, e1, e2, e3, e4, e5, e6, e7⟩ := idx_facts2 ⟨(i 0).val / 4000, by rw [hN]; omega⟩
  intro a
  match a with
  | ⟨0, _⟩ =>
    show win2_3.index ⟨(i 0).val / 4000, _⟩ (0 : Fin 2) * 4000 ≤ (i 0).val ∧ (i 0).val < win2_3.index ⟨(i 0).val / 4000, _⟩ (0 : Fin 2) * 4000 + 4000
    rw [e6]; show (i 0).val / 4000 * 4000 ≤ (i 0).val ∧ (i 0).val < (i 0).val / 4000 * 4000 + 4000; omega
  | ⟨1, _⟩ =>
    show win2_3.index ⟨(i 0).val / 4000, _⟩ (1 : Fin 2) * 64 ≤ (i 1).val ∧ (i 1).val < win2_3.index ⟨(i 0).val / 4000, _⟩ (1 : Fin 2) * 64 + 64
    rw [e7]; omega

/-- THE ARRAY after region 2. -/
theorem final2 (c : Dev nD) : (dat2 V c).arrAt 3 cfg2.N
    = prodArr (preAct zw2 (V c main_v55) (V c main_v56)) (V c main_arg7) :=
  (dat2 V c).arrAt_eq_of_cover 3 _ (fun t _ => flushed2_eq V c t) cover2

end Cert.KernelIdeal.Hand

end
-- ==== Proof.KI.Host0.lean ====
/-
  The host stretches of the kernel program read as the reference's stage functions.
  Between two kernel regions the program applies to whole arrays the same operations the
  reference applies (slices and joins of the edge list, the degree count and its inverse
  square root, the gather of rows, their scaling and the scatter-add), so what such a stretch
  leaves in a buffer is the reference's stage function of the same arguments, by unfolding
  both sides.  Everything is stated at an arbitrary valuation `W`, the buffers' contents when
  the stretch is entered.
-/
import proofs.«172706_j3221225472394_1_alg».proof.Proof.Gen.KernelIdeal.Launch
import proofs.«172706_j3221225472394_1_alg».proof.Proof.Gen.KernelIdeal.Regions
import proofs.«172706_j3221225472394_1_alg».proof.Proof.Gen.ReferenceIdeal.Read
import Idealize.ShloMosaic.Lib.StableHlo.Run

set_option maxRecDepth 16384

noncomputable section

namespace Cert.KernelIdeal.Hand

open Idealize.ShloMosaic Idealize.ShloMosaic.TcCoe Idealize.ShloMosaic.StableHlo
open Cert.KernelIdeal Cert.KernelIdeal.Gen

/-! ## Stretch 0: the edge list's two index vectors and the edge normalisation -/

/-- The source-index vector: the edge list's first row followed by the self loops. -/
theorem host0_row (W : Valuation τ sig (Elt Ideal)) :
    StableHlo.after hostOps0 W main_v5 = Cert.ReferenceIdeal.Read.val_main_v3 (F := Ideal) (W main_arg1) := by
  dsimp only [hostOps0]
  after_results
  rfl

/-- The target-index vector: the edge list's second row followed by the self loops. -/
theorem host0_col (W : Valuation τ sig (Elt Ideal)) :
    StableHlo.after hostOps0 W main_v6 = Cert.ReferenceIdeal.Read.val_main_v6 (F := Ideal) (W main_arg1) := by
  dsimp only [hostOps0]
  after_results
  rfl

/-- The edge normalisation: the product of the inverse square roots of the two endpoints' degrees. -/
theorem host0_norm (W : Valuation τ sig (Elt Ideal)) :
    StableHlo.after hostOps0 W main_v26 = Cert.ReferenceIdeal.Read.val_main_v26 (F := Ideal) (W main_arg1) := by
  dsimp only [hostOps0]
  after_results_simp
  rfl

end Cert.KernelIdeal.Hand
-- ==== Proof.KI.Host1.lean ====
/-
  The host stretches after the first kernel region, read as the reference's stage functions.
  Each of the three aggregations gathers the rows of the previous region's product along the
  edges, scales them by the edge normalisation and sums them into their target nodes, exactly
  as the reference does; given that the stretch finds the index vectors, the normalisation and
  the product equal to the reference's stages, its result is the reference's next stage.  The
  remaining operations reshape a bias to a row, compute the fraction of positive labels, and
  read the one-by-one loss as a scalar.  A reference no operation of a stretch writes keeps its
  contents.  Everything is stated at an arbitrary valuation `W`, the buffers' contents when the
  stretch is entered.
-/
import proofs.«172706_j3221225472394_1_alg».proof.Proof.Gen.KernelIdeal.Launch
import proofs.«172706_j3221225472394_1_alg».proof.Proof.Gen.KernelIdeal.Regions
import proofs.«172706_j3221225472394_1_alg».proof.Proof.Gen.ReferenceIdeal.Read
import Idealize.ShloMosaic.Lib.StableHlo.Run

set_option maxRecDepth 16384

noncomputable section

namespace Cert.KernelIdeal.Hand

open Idealize.ShloMosaic Idealize.ShloMosaic.TcCoe Idealize.ShloMosaic.StableHlo
open Cert.KernelIdeal Cert.KernelIdeal.Gen

/-! ## Stretch 0: what it leaves alone -/

/-- A reference the stretch does not write keeps its contents. -/
theorem host0_keep (W : Valuation τ sig (Elt Ideal)) (r : Ref sig .tc) (h : r ∉ hostOps0_W) :
    StableHlo.after hostOps0 W r = W r :=
  StableHlo.after_of_writes_sub hostOps0 W hostOps0_writes h

/-! ## Stretch 1: the first aggregation and the first bias as a row -/

/-- The first aggregation: the rows of the first product gathered along the edges, scaled by the
    edge normalisation and summed into their target nodes. -/
theorem host1_agg (W : Valuation τ sig (Elt Ideal))
    (x0 : (⟨Cert.ReferenceIdeal.S100000x128, .f32⟩ : BufTy).Contents (Elt Ideal))
    (x1 : (⟨Cert.ReferenceIdeal.S2x1600000, .i32⟩ : BufTy).Contents (Elt Ideal))
    (x3 : (⟨Cert.ReferenceIdeal.S128x64, .f32⟩ : BufTy).Contents (Elt Ideal))
    (h5 : W main_v5 = Cert.ReferenceIdeal.Read.val_main_v3 (F := Ideal) x1)
    (h6 : W main_v6 = Cert.ReferenceIdeal.Read.val_main_v6 (F := Ideal) x1)
    (h26 : W main_v26 = Cert.ReferenceIdeal.Read.val_main_v26 (F := Ideal) x1)
    (h27 : W main_v27 = Cert.ReferenceIdeal.Read.val_main_v27 (F := Ideal) x0 x3) :
    StableHlo.after hostOps1 W main_v40 = Cert.ReferenceIdeal.Read.val_main_v40 (F := Ideal) x0 x1 x3 := by
  dsimp only [hostOps1]
  after_results_simp
  rw [h5, h6, h26, h27]
  rfl

/-- The first bias as a one-row matrix. -/
theorem host1_bias (W : Valuation τ sig (Elt Ideal)) :
    StableHlo.after hostOps1 W main_v41 = shapeCast S1x64 (W main_arg4) shapeCasts_S64_S1x64 := by
  dsimp only [hostOps1]
  after_results
  rfl

/-- A reference the stretch does not write keeps its contents. -/
theorem host1_keep (W : Valuation τ sig (Elt Ideal)) (r : Ref sig .tc) (h : r ∉ hostOps1_W) :
    StableHlo.after hostOps1 W r = W r :=
  StableHlo.after_of_writes_sub hostOps1 W hostOps1_writes h

theorem host1_v5 (W : Valuation τ sig (Elt Ideal)) : StableHlo.after hostOps1 W main_v5 = W main_v5 := host1_keep W _ (by decide)
theorem host1_v6 (W : Valuation τ sig (Elt Ideal)) : StableHlo.after hostOps1 W main_v6 = W main_v6 := host1_keep W _ (by decide)
theorem host1_v26 (W : Valuation τ sig (Elt Ideal)) : StableHlo.after hostOps1 W main_v26 = W main_v26 := host1_keep W _ (by decide)
theorem host1_arg5 (W : Valuation τ sig (Elt Ideal)) : StableHlo.after hostOps1 W main_arg5 = W main_arg5 := host1_keep W _ (by decide)

/-! ## Stretch 2: the second aggregation and the second bias as a row -/

/-- The second aggregation, of the second layer's product. -/
theorem host2_agg (W : Valuation τ sig (Elt Ideal))
    (x0 : (⟨Cert.ReferenceIdeal.S100000x128, .f32⟩ : BufTy).Contents (Elt Ideal))
    (x1 : (⟨Cert.ReferenceIdeal.S2x1600000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (h5 : W main_v5 = Cert.ReferenceIdeal.Read.val_main_v3 (F := Ideal) x1)
    (h6 : W main_v6 = Cert.ReferenceIdeal.Read.val_main_v6 (F := Ideal) x1)
    (h26 : W main_v26 = Cert.ReferenceIdeal.Read.val_main_v26 (F := Ideal) x1)
    (h42 : W main_v42 = Cert.ReferenceIdeal.Read.val_main_v45 (F := Ideal) x0 x1 x3 x4 x5) :
    StableHlo.after hostOps2 W main_v55 = Cert.ReferenceIdeal.Read.val_main_v58 (F := Ideal) x0 x1 x3 x4 x5 := by
  dsimp only [hostOps2]
  after_results_simp
  rw [h5, h6, h26, h42]
  rfl

/-- The second bias as a one-row matrix. -/
theorem host2_bias (W : Valuation τ sig (Elt Ideal)) :
    StableHlo.after hostOps2 W main_v56 = shapeCast S1x64 (W main_arg6) shapeCasts_S64_S1x64 := by
  dsimp only [hostOps2]
  after_results
  rfl

/-- A reference the stretch does not write keeps its contents. -/
theorem host2_keep (W : Valuation τ sig (Elt Ideal)) (r : Ref sig .tc) (h : r ∉ hostOps2_W) :
    StableHlo.after hostOps2 W r = W r :=
  StableHlo.after_of_writes_sub hostOps2 W hostOps2_writes h

theorem host2_v5 (W : Valuation τ sig (Elt Ideal)) : StableHlo.after hostOps2 W main_v5 = W main_v5 := host2_keep W _ (by decide)
theorem host2_v6 (W : Valuation τ sig (Elt Ideal)) : StableHlo.after hostOps2 W main_v6 = W main_v6 := host2_keep W _ (by decide)
theorem host2_v26 (W : Valuation τ sig (Elt Ideal)) : StableHlo.after hostOps2 W main_v26 = W main_v26 := host2_keep W _ (by decide)
theorem host2_arg7 (W : Valuation τ sig (Elt Ideal)) : StableHlo.after hostOps2 W main_arg7 = W main_arg7 := host2_keep W _ (by decide)

/-! ## Stretch 3: the third aggregation, the positive fraction and the head's biases as rows -/

/-- The third aggregation, of the third layer's product. -/
theorem host3_agg (W : Valuation τ sig (Elt Ideal))
    (x0 : (⟨Cert.ReferenceIdeal.S100000x128, .f32⟩ : BufTy).Contents (Elt Ideal))
    (x1 : (⟨Cert.ReferenceIdeal.S2x1600000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (h5 : W main_v5 = Cert.ReferenceIdeal.Read.val_main_v3 (F := Ideal) x1)
    (h6 : W main_v6 = Cert.ReferenceIdeal.Read.val_main_v6 (F := Ideal) x1)
    (h26 : W main_v26 = Cert.ReferenceIdeal.Read.val_main_v26 (F := Ideal) x1)
    (h57 : W main_v57 = Cert.ReferenceIdeal.Read.val_main_v63 (F := Ideal) x0 x1 x3 x4 x5 x6 x7) :
    StableHlo.after hostOps3 W main_v70 = Cert.ReferenceIdeal.Read.val_main_v76 (F := Ideal) x0 x1 x3 x4 x5 x6 x7 := by
  dsimp only [hostOps3]
  after_results_simp
  rw [h5, h6, h26, h57]
  rfl

/-- The fraction of positive labels, as a one-by-one matrix. -/
theorem host3_pm (W : Valuation τ sig (Elt Ideal)) :
    StableHlo.after hostOps3 W main_v74 = shapeCast S1x1 (Cert.ReferenceIdeal.Read.val_main_v98 (F := Ideal) (W main_arg2)) shapeCasts_S_S1x1 := by
  dsimp only [hostOps3]
  after_results_simp
  rfl

/-- The third bias as a one-row matrix. -/
theorem host3_b3 (W : Valuation τ sig (Elt Ideal)) :
    StableHlo.after hostOps3 W main_v75 = shapeCast S1x64 (W main_arg8) shapeCasts_S64_S1x64 := by
  dsimp only [hostOps3]
  after_results
  rfl

/-- The head's first bias as a one-row matrix. -/
theorem host3_lb1 (W : Valuation τ sig (Elt Ideal)) :
    StableHlo.after hostOps3 W main_v76 = shapeCast S1x8 (W main_arg10) shapeCasts_S8_S1x8 := by
  dsimp only [hostOps3]
  after_results
  rfl

/-- The head's second bias as a one-by-one matrix. -/
theorem host3_lb2 (W : Valuation τ sig (Elt Ideal)) :
    StableHlo.after hostOps3 W main_v77 = shapeCast S1x1 (W main_arg12) shapeCasts_S1_S1x1 := by
  dsimp only [hostOps3]
  after_results
  rfl

/-- A reference the stretch does not write keeps its contents. -/
theorem host3_keep (W : Valuation τ sig (Elt Ideal)) (r : Ref sig .tc) (h : r ∉ hostOps3_W) :
    StableHlo.after hostOps3 W r = W r :=
  StableHlo.after_of_writes_sub hostOps3 W hostOps3_writes h

theorem host3_arg2 (W : Valuation τ sig (Elt Ideal)) : StableHlo.after hostOps3 W main_arg2 = W main_arg2 := host3_keep W _ (by decide)
theorem host3_arg9 (W : Valuation τ sig (Elt Ideal)) : StableHlo.after hostOps3 W main_arg9 = W main_arg9 := host3_keep W _ (by decide)
theorem host3_arg11 (W : Valuation τ sig (Elt Ideal)) : StableHlo.after hostOps3 W main_arg11 = W main_arg11 := host3_keep W _ (by decide)

/-! ## Stretch 4: the loss as a scalar -/

/-- The loss: the one-by-one result read as a scalar. -/
theorem host4_loss (W : Valuation τ sig (Elt Ideal)) :
    StableHlo.after hostOps4 W main_v79 = shapeCast S_ (W main_v78_1) shapeCasts_S1x1_S_ := by
  dsimp only [hostOps4]
  after_results
  rfl

/-- A reference the stretch does not write keeps its contents. -/
theorem host4_keep (W : Valuation τ sig (Elt Ideal)) (r : Ref sig .tc) (h : r ∉ hostOps4_W) :
    StableHlo.after hostOps4 W r = W r :=
  StableHlo.after_of_writes_sub hostOps4 W hostOps4_writes h

theorem host4_v78_0 (W : Valuation τ sig (Elt Ideal)) : StableHlo.after hostOps4 W main_v78_0 = W main_v78_0 := host4_keep W _ (by decide)

end Cert.KernelIdeal.Hand
-- ==== Proof.KI.Host.lean ====
/-
  The host stretches of the kernel program read as the reference's stage functions: the two
  modules together.
-/
import proofs.«172706_j3221225472394_1_alg».proof.Proof.KI.Host0
import proofs.«172706_j3221225472394_1_alg».proof.Proof.KI.Host1
-- ==== Proof.KI.Bridge0.lean ====
/-
  What the first three kernel regions leave, read as the reference's stages.  Each leaves the product of an array
  (the node features; then an aggregation plus its bias row, clamped below at zero) with a weight matrix.  The
  reference computes the same sums of products, term by term in the same order: its `dot_general` read at an
  index is the sum over the contracted coordinate, its bias is a row broadcast over the nodes where the kernel's is
  the vector recast as one row, and its rectifier is the maximum with a broadcast zero.
-/
import proofs.«172706_j3221225472394_1_alg».proof.Proof.Gen.ReferenceIdeal.Read
import proofs.«172706_j3221225472394_1_alg».proof.Proof.Gen.KernelIdeal
import proofs.«172706_j3221225472394_1_alg».proof.Proof.LibProdRows
import proofs.«172706_j3221225472394_1_alg».proof.Proof.ActSpec
import Idealize.ShloMosaic.Lib.ValueLayout

set_option maxRecDepth 16384

noncomputable section

open scoped BigOperators

namespace Cert.KernelIdeal.Hand

open Idealize.ShloMosaic Idealize.ShloMosaic.ValueIdx
open Cert.KernelIdeal Cert.KernelIdeal.Gen
open Cert.KernelIdeal.RegionValue (prodArr prodArr_apply)
open Cert.ActSpec (preAct preAct_apply)

/-- The first product: the node features times the first weight matrix, entry by entry the reference's
    `dot_general`. -/
theorem bridge0
    (x0 : (⟨Cert.ReferenceIdeal.S100000x128, .f32⟩ : BufTy).Contents (Elt Ideal))
    (x3 : (⟨Cert.ReferenceIdeal.S128x64, .f32⟩ : BufTy).Contents (Elt Ideal)) :
    prodArr x0 x3 = Cert.ReferenceIdeal.Read.val_main_v27 (F := Ideal) x0 x3 := by
  funext i
  obtain ⟨p, c, rfl⟩ : ∃ (p : Fin 100000) (c : Fin 64), i = ix2 p c := ⟨i 0, i 1, eq_ix2 i⟩
  rw [prodArr_apply, Cert.ReferenceIdeal.Read.val_main_v27_apply]
  refine Finset.sum_congr rfl fun k _ => ?_
  have el : Cert.ReferenceIdeal.Read.lidx_main_v27 (ix2 p c) k = ix2 p k := by
    funext a; match a with
    | ⟨0, _⟩ => rfl
    | ⟨1, _⟩ => rfl
  have er : Cert.ReferenceIdeal.Read.ridx_main_v27 (ix2 p c) k = ix2 k c := by
    funext a; match a with
    | ⟨0, _⟩ => rfl
    | ⟨1, _⟩ => rfl
  rw [el, er]

/-- The second product: the first aggregation plus its bias row, clamped below at zero, times the second weight
    matrix, is the reference's second `dot_general`, whose left operand is the same sum and maximum entry by entry. -/
theorem bridge1
    (x0 : (⟨Cert.ReferenceIdeal.S100000x128, .f32⟩ : BufTy).Contents (Elt Ideal))
    (x1 : (⟨Cert.ReferenceIdeal.S2x1600000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal)) :
    prodArr (preAct (Ideal.ofBits .f32 0x00000000#32) (Cert.ReferenceIdeal.Read.val_main_v40 (F := Ideal) x0 x1 x3)
        (shapeCast S1x64 x4 shapeCasts_S64_S1x64)) x5
      = Cert.ReferenceIdeal.Read.val_main_v45 (F := Ideal) x0 x1 x3 x4 x5 := by
  funext i
  obtain ⟨p, c, rfl⟩ : ∃ (p : Fin 100000) (c : Fin 64), i = ix2 p c := ⟨i 0, i 1, eq_ix2 i⟩
  rw [prodArr_apply, Cert.ReferenceIdeal.Read.val_main_v45_apply]
  refine Finset.sum_congr rfl fun k _ => ?_
  have el : Cert.ReferenceIdeal.Read.lidx_main_v45 (ix2 p c) k = ix2 p k := by
    funext a; match a with
    | ⟨0, _⟩ => rfl
    | ⟨1, _⟩ => rfl
  have er : Cert.ReferenceIdeal.Read.ridx_main_v45 (ix2 p c) k = ix2 k c := by
    funext a; match a with
    | ⟨0, _⟩ => rfl
    | ⟨1, _⟩ => rfl
  have eb : Cert.ReferenceIdeal.Read.idx_main_v41 (Cert.ReferenceIdeal.Read.idx_main_v42 (ix2 p k)) = ix1 k := by
    funext a; match a with
    | ⟨0, _⟩ => rfl
  rw [el, er, preAct_apply, Cert.ReferenceIdeal.Read.val_main_v44_apply, Cert.ReferenceIdeal.Read.val_main_v43_apply, Cert.ReferenceIdeal.Read.val_main_v42_apply,
    Cert.ReferenceIdeal.Read.val_main_v41_apply, Cert.ReferenceIdeal.Read.val_main_call0_v0_apply, Cert.ReferenceIdeal.Read.val_main_call0_cst_apply, eb,
    shapeCast_a_1a_apply, Ideal.maximumf_def, Ideal.addf_def, Ideal.ofBits_def]

/-- The third product, of the second aggregation, the same way. -/
theorem bridge2
    (x0 : (⟨Cert.ReferenceIdeal.S100000x128, .f32⟩ : BufTy).Contents (Elt Ideal))
    (x1 : (⟨Cert.ReferenceIdeal.S2x1600000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal)) :
    prodArr (preAct (Ideal.ofBits .f32 0x00000000#32) (Cert.ReferenceIdeal.Read.val_main_v58 (F := Ideal) x0 x1 x3 x4 x5)
        (shapeCast S1x64 x6 shapeCasts_S64_S1x64)) x7
      = Cert.ReferenceIdeal.Read.val_main_v63 (F := Ideal) x0 x1 x3 x4 x5 x6 x7 := by
  funext i
  obtain ⟨p, c, rfl⟩ : ∃ (p : Fin 100000) (c : Fin 64), i = ix2 p c := ⟨i 0, i 1, eq_ix2 i⟩
  rw [prodArr_apply, Cert.ReferenceIdeal.Read.val_main_v63_apply]
  refine Finset.sum_congr rfl fun k _ => ?_
  have el : Cert.ReferenceIdeal.Read.lidx_main_v63 (ix2 p c) k = ix2 p k := by
    funext a; match a with
    | ⟨0, _⟩ => rfl
    | ⟨1, _⟩ => rfl
  have er : Cert.ReferenceIdeal.Read.ridx_main_v63 (ix2 p c) k = ix2 k c := by
    funext a; match a with
    | ⟨0, _⟩ => rfl
    | ⟨1, _⟩ => rfl
  have eb : Cert.ReferenceIdeal.Read.idx_main_v59 (Cert.ReferenceIdeal.Read.idx_main_v60 (ix2 p k)) = ix1 k := by
    funext a; match a with
    | ⟨0, _⟩ => rfl
  rw [el, er, preAct_apply, Cert.ReferenceIdeal.Read.val_main_v62_apply, Cert.ReferenceIdeal.Read.val_main_v61_apply, Cert.ReferenceIdeal.Read.val_main_v60_apply,
    Cert.ReferenceIdeal.Read.val_main_v59_apply, Cert.ReferenceIdeal.Read.val_main_call1_v0_apply, Cert.ReferenceIdeal.Read.val_main_call1_cst_apply, eb,
    shapeCast_a_1a_apply, Ideal.maximumf_def, Ideal.addf_def, Ideal.ofBits_def]

end Cert.KernelIdeal.Hand
-- ==== Proof.KI.Stages.lean ====
/-
  The kernel program's intermediate arrays, boundary by boundary, named as the reference's own stages of the
  arguments.  The host stretches are the reference's operations on the same values; what each of the first three
  regions leaves is a dense layer's product, which is the reference's `dot_general` stage.
-/
import proofs.«172706_j3221225472394_1_alg».proof.Proof.KI.R3Inst
import proofs.«172706_j3221225472394_1_alg».proof.Proof.KI.Val0
import proofs.«172706_j3221225472394_1_alg».proof.Proof.KI.Val1
import proofs.«172706_j3221225472394_1_alg».proof.Proof.KI.Val2
import proofs.«172706_j3221225472394_1_alg».proof.Proof.KI.Host
import proofs.«172706_j3221225472394_1_alg».proof.Proof.KI.Bridge0

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Cert.KernelIdeal.RegionValue (prodArr)
open Cert.ActSpec (preAct)

variable (m : (ℓ : Loc nD τ sig) → Buf (Elt Ideal) ℓ) (c : Dev nD)

local notation "A3" => (aft3 (F := Ideal))
local notation "P3" => (phi3 (F := Ideal))

private theorem upd_ne (W : Valuation τ sig (Elt Ideal)) (a b : Ref sig .tc) (v) (h : b ≠ a) :
    Function.update W a v b = W b :=
  Function.update_of_ne (StableHlo.devRef_ne_of_ne h : (Proc.devRef .tc b : DevRef τ sig) ≠ Proc.devRef .tc a) _ _

/-! ## After the first host stretch -/

theorem u1_row : U1 m c main_v5 = Cert.ReferenceIdeal.Read.val_main_v3 (F := Ideal) (m ((c.tc : Thread nD τ).loc main_arg1)) := host0_row (U0 m c)
theorem u1_col : U1 m c main_v6 = Cert.ReferenceIdeal.Read.val_main_v6 (F := Ideal) (m ((c.tc : Thread nD τ).loc main_arg1)) := host0_col (U0 m c)
theorem u1_norm : U1 m c main_v26 = Cert.ReferenceIdeal.Read.val_main_v26 (F := Ideal) (m ((c.tc : Thread nD τ).loc main_arg1)) := host0_norm (U0 m c)
theorem u1_keep (r : Ref sig .tc) (h : r ∉ Gen.hostOps0_W) : U1 m c r = m (c, r) := host0_keep (U0 m c) r h

/-! ## After region 0 -/

theorem u2_v27 : U2 m c main_v27 = Cert.ReferenceIdeal.Read.val_main_v27 (F := Ideal) (m ((c.tc : Thread nD τ).loc main_arg0)) (m ((c.tc : Thread nD τ).loc main_arg3)) := by
  have e : U2 m c main_v27 = X2 m c := Function.update_self (Proc.devRef .tc main_v27 : DevRef τ sig) (X2 m c) (U1 m c)
  rw [e]
  unfold X2
  rw [final0 (Vt (U1 m)) c]
  show prodArr (U1 m c main_arg0) (U1 m c main_arg3) = _
  rw [u1_keep m c main_arg0 (by decide), u1_keep m c main_arg3 (by decide)]
  exact bridge0 _ _
theorem u2_keep (r : Ref sig .tc) (h : r ≠ main_v27) : U2 m c r = U1 m c r := upd_ne _ _ _ _ h

/-! ## After the second host stretch -/

theorem u3_v40 : U3 m c main_v40 = Cert.ReferenceIdeal.Read.val_main_v40 (F := Ideal) (m ((c.tc : Thread nD τ).loc main_arg0)) (m ((c.tc : Thread nD τ).loc main_arg1)) (m ((c.tc : Thread nD τ).loc main_arg3)) :=
  host1_agg (U2 m c) _ _ _ ((u2_keep m c main_v5 (by decide)).trans (u1_row m c)) ((u2_keep m c main_v6 (by decide)).trans (u1_col m c))
    ((u2_keep m c main_v26 (by decide)).trans (u1_norm m c)) (u2_v27 m c)
theorem u3_keep (r : Ref sig .tc) (h : r ∉ Gen.hostOps1_W) : U3 m c r = U2 m c r := host1_keep (U2 m c) r h
theorem u3_v41 : U3 m c main_v41 = shapeCast S1x64 (m ((c.tc : Thread nD τ).loc main_arg4)) shapeCasts_S64_S1x64 := by
  rw [show U3 m c main_v41 = _ from host1_bias (U2 m c), u2_keep m c main_arg4 (by decide), u1_keep m c main_arg4 (by decide)]
theorem u3_row : U3 m c main_v5 = Cert.ReferenceIdeal.Read.val_main_v3 (F := Ideal) (m ((c.tc : Thread nD τ).loc main_arg1)) :=
  (u3_keep m c main_v5 (by decide)).trans ((u2_keep m c main_v5 (by decide)).trans (u1_row m c))
theorem u3_col : U3 m c main_v6 = Cert.ReferenceIdeal.Read.val_main_v6 (F := Ideal) (m ((c.tc : Thread nD τ).loc main_arg1)) :=
  (u3_keep m c main_v6 (by decide)).trans ((u2_keep m c main_v6 (by decide)).trans (u1_col m c))
theorem u3_norm : U3 m c main_v26 = Cert.ReferenceIdeal.Read.val_main_v26 (F := Ideal) (m ((c.tc : Thread nD τ).loc main_arg1)) :=
  (u3_keep m c main_v26 (by decide)).trans ((u2_keep m c main_v26 (by decide)).trans (u1_norm m c))
theorem u3_arg (r : Ref sig .tc) (h1 : r ∉ Gen.hostOps1_W) (h2 : r ≠ main_v27) (h0 : r ∉ Gen.hostOps0_W) : U3 m c r = m (c, r) :=
  (u3_keep m c r h1).trans ((u2_keep m c r h2).trans (u1_keep m c r h0))

/-! ## After region 1 -/

theorem u4_v42 : U4 m c main_v42 = Cert.ReferenceIdeal.Read.val_main_v45 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  have e : U4 m c main_v42 = X4 m c := Function.update_self (Proc.devRef .tc main_v42 : DevRef τ sig) (X4 m c) (U3 m c)
  rw [e]
  unfold X4
  rw [final1 (Vt (U3 m)) c]
  show prodArr (preAct zw1 (U3 m c main_v40) (U3 m c main_v41)) (U3 m c main_arg5) = _
  rw [u3_v40, u3_v41, u3_arg m c main_arg5 (by decide) (by decide) (by decide)]
  exact bridge1 _ _ _ _ _
theorem u4_keep (r : Ref sig .tc) (h : r ≠ main_v42) : U4 m c r = U3 m c r := upd_ne _ _ _ _ h

/-! ## After the third host stretch -/

theorem u5_v55 : U5 m c main_v55 = Cert.ReferenceIdeal.Read.val_main_v58 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  host2_agg (U4 m c) _ _ _ _ _ ((u4_keep m c main_v5 (by decide)).trans (u3_row m c)) ((u4_keep m c main_v6 (by decide)).trans (u3_col m c))
    ((u4_keep m c main_v26 (by decide)).trans (u3_norm m c)) (u4_v42 m c)
theorem u5_keep (r : Ref sig .tc) (h : r ∉ Gen.hostOps2_W) : U5 m c r = U4 m c r := host2_keep (U4 m c) r h
theorem u5_arg (r : Ref sig .tc) (h2 : r ∉ Gen.hostOps2_W) (h42 : r ≠ main_v42) (h1 : r ∉ Gen.hostOps1_W) (h27 : r ≠ main_v27) (h0 : r ∉ Gen.hostOps0_W) :
    U5 m c r = m (c, r) :=
  (u5_keep m c r h2).trans ((u4_keep m c r h42).trans (u3_arg m c r h1 h27 h0))
theorem u5_v56 : U5 m c main_v56 = shapeCast S1x64 (m ((c.tc : Thread nD τ).loc main_arg6)) shapeCasts_S64_S1x64 := by
  rw [show U5 m c main_v56 = _ from host2_bias (U4 m c), u4_keep m c main_arg6 (by decide), u3_arg m c main_arg6 (by decide) (by decide) (by decide)]
theorem u5_row : U5 m c main_v5 = Cert.ReferenceIdeal.Read.val_main_v3 (F := Ideal) (m ((c.tc : Thread nD τ).loc main_arg1)) :=
  (u5_keep m c main_v5 (by decide)).trans ((u4_keep m c main_v5 (by decide)).trans (u3_row m c))
theorem u5_col : U5 m c main_v6 = Cert.ReferenceIdeal.Read.val_main_v6 (F := Ideal) (m ((c.tc : Thread nD τ).loc main_arg1)) :=
  (u5_keep m c main_v6 (by decide)).trans ((u4_keep m c main_v6 (by decide)).trans (u3_col m c))
theorem u5_norm : U5 m c main_v26 = Cert.ReferenceIdeal.Read.val_main_v26 (F := Ideal) (m ((c.tc : Thread nD τ).loc main_arg1)) :=
  (u5_keep m c main_v26 (by decide)).trans ((u4_keep m c main_v26 (by decide)).trans (u3_norm m c))

/-! ## After region 2 -/

theorem u6_v57 : U6 m c main_v57 = Cert.ReferenceIdeal.Read.val_main_v63 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : U6 m c main_v57 = X6 m c := Function.update_self (Proc.devRef .tc main_v57 : DevRef τ sig) (X6 m c) (U5 m c)
  rw [e]
  unfold X6
  rw [final2 (Vt (U5 m)) c]
  show prodArr (preAct zw2 (U5 m c main_v55) (U5 m c main_v56)) (U5 m c main_arg7) = _
  rw [u5_v55, u5_v56, u5_arg m c main_arg7 (by decide) (by decide) (by decide) (by decide) (by decide)]
  exact bridge2 _ _ _ _ _ _ _
theorem u6_keep (r : Ref sig .tc) (h : r ≠ main_v57) : U6 m c r = U5 m c r := upd_ne _ _ _ _ h

/-! ## After the fourth host stretch: what the head kernel is entered with -/

theorem u7_v70 : U7 m c main_v70 = Cert.ReferenceIdeal.Read.val_main_v76 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  host3_agg (U6 m c) _ _ _ _ _ _ _ ((u6_keep m c main_v5 (by decide)).trans (u5_row m c)) ((u6_keep m c main_v6 (by decide)).trans (u5_col m c))
    ((u6_keep m c main_v26 (by decide)).trans (u5_norm m c)) (u6_v57 m c)
theorem u7_keep (r : Ref sig .tc) (h : r ∉ Gen.hostOps3_W) : U7 m c r = U6 m c r := host3_keep (U6 m c) r h
theorem u7_arg (r : Ref sig .tc) (h3 : r ∉ Gen.hostOps3_W) (h57 : r ≠ main_v57) (h2 : r ∉ Gen.hostOps2_W) (h42 : r ≠ main_v42) (h1 : r ∉ Gen.hostOps1_W)
    (h27 : r ≠ main_v27) (h0 : r ∉ Gen.hostOps0_W) : U7 m c r = m (c, r) :=
  (u7_keep m c r h3).trans ((u6_keep m c r h57).trans (u5_arg m c r h2 h42 h1 h27 h0))
theorem u6_arg (r : Ref sig .tc) (h57 : r ≠ main_v57) (h2 : r ∉ Gen.hostOps2_W) (h42 : r ≠ main_v42) (h1 : r ∉ Gen.hostOps1_W)
    (h27 : r ≠ main_v27) (h0 : r ∉ Gen.hostOps0_W) : U6 m c r = m (c, r) :=
  (u6_keep m c r h57).trans (u5_arg m c r h2 h42 h1 h27 h0)
theorem u7_pm : U7 m c main_v74 = shapeCast S1x1 (Cert.ReferenceIdeal.Read.val_main_v98 (F := Ideal) (m ((c.tc : Thread nD τ).loc main_arg2))) shapeCasts_S_S1x1 := by
  rw [show U7 m c main_v74 = _ from host3_pm (U6 m c), u6_arg m c main_arg2 (by decide) (by decide) (by decide) (by decide) (by decide) (by decide)]
theorem u7_b3 : U7 m c main_v75 = shapeCast S1x64 (m ((c.tc : Thread nD τ).loc main_arg8)) shapeCasts_S64_S1x64 := by
  rw [show U7 m c main_v75 = _ from host3_b3 (U6 m c), u6_arg m c main_arg8 (by decide) (by decide) (by decide) (by decide) (by decide) (by decide)]
theorem u7_lb1 : U7 m c main_v76 = shapeCast S1x8 (m ((c.tc : Thread nD τ).loc main_arg10)) shapeCasts_S8_S1x8 := by
  rw [show U7 m c main_v76 = _ from host3_lb1 (U6 m c), u6_arg m c main_arg10 (by decide) (by decide) (by decide) (by decide) (by decide) (by decide)]
theorem u7_lb2 : U7 m c main_v77 = shapeCast S1x1 (m ((c.tc : Thread nD τ).loc main_arg12)) shapeCasts_S1_S1x1 := by
  rw [show U7 m c main_v77 = _ from host3_lb2 (U6 m c), u6_arg m c main_arg12 (by decide) (by decide) (by decide) (by decide) (by decide) (by decide)]

end Cert.KernelIdeal.Hand

end
-- ==== Proof.KI.R3Spec.lean ====
/- The head's mathematics, index by index on the extended reals: the logit of a row (two dense layers with
   rectifiers on a biased row, then a bias), its probability, one row's weighted cross-entropy term and the
   constants that term clips with. -/
import Idealize.ShloMosaic.PureOps.Ideal.Laws
import Idealize.ShloMosaic.Lib.ValueIdx

noncomputable section

open scoped BigOperators

namespace Cert.HeadSpec

open Idealize.ShloMosaic Idealize.ShloMosaic.ValueIdx

/-- Row `p`'s logit: `relu(relu(A p + b3) · W1 + b1) · W2 + b2`. -/
def headLogit (A : (⟨2, ![100000, 64]⟩ : Shape).Idx → EReal) (b3 : (⟨2, ![1, 64]⟩ : Shape).Idx → EReal)
    (W1 : (⟨2, ![64, 8]⟩ : Shape).Idx → EReal) (b1 : (⟨2, ![1, 8]⟩ : Shape).Idx → EReal)
    (W2 : (⟨2, ![8, 1]⟩ : Shape).Idx → EReal) (b2 : (⟨2, ![1, 1]⟩ : Shape).Idx → EReal) (p : Fin 100000) : EReal :=
  (∑ k : Fin 8, max ((∑ j : Fin 64, max (A (ix2 p j) + b3 (ix2 (0 : Fin 1) j)) 0 * W1 (ix2 j k)) + b1 (ix2 (0 : Fin 1) k)) 0
      * W2 (ix2 k (0 : Fin 1))) + b2 (ix2 (0 : Fin 1) (0 : Fin 1))

/-- The probabilities, as a `[100000, 1]` array: the logistic of each row's logit. -/
def headP (A : (⟨2, ![100000, 64]⟩ : Shape).Idx → EReal) (b3 : (⟨2, ![1, 64]⟩ : Shape).Idx → EReal)
    (W1 : (⟨2, ![64, 8]⟩ : Shape).Idx → EReal) (b1 : (⟨2, ![1, 8]⟩ : Shape).Idx → EReal)
    (W2 : (⟨2, ![8, 1]⟩ : Shape).Idx → EReal) (b2 : (⟨2, ![1, 1]⟩ : Shape).Idx → EReal)
    (i : (⟨2, ![100000, 1]⟩ : Shape).Idx) : EReal :=
  Ideal.logistic (headLogit A b3 W1 b1 W2 b2 (i 0))

/-- The words the loss is written with: one, and the two levels a probability is clipped to. -/
def one : EReal := Ideal.ofBits .f32 0x3F800000#32
def lo : EReal := Ideal.ofBits .f32 0x33D6BF95#32
def hi : EReal := Ideal.ofBits .f32 0x3F7FFFFE#32
/-- The count the loss sum is divided by. -/
def cnt : EReal := Ideal.ofBits .f32 0x47C35000#32

/-- One row's term of the loss: the class weight `y (1 - pm) + (1 - y) pm` times the negated log-likelihood of
    label `y` under the clipped probability. -/
def lossTerm (q y pm : EReal) : EReal :=
  (y * (one - pm) + (one - y) * pm) * (0 - (y * Ideal.log (min hi (max lo q)) + (one - y) * Ideal.log (one - min hi (max lo q))))

end Cert.HeadSpec

end
-- ==== Proof.KI.R3ValP.lean ====
/- Output 8 of region 3 after the run, at the ideal values: the probability of every row. Block `t` of the
   output is written by grid point `t` alone and holds rows `4000·t … 4000·t + 3999`, because a row's probability
   reads only the same row of the features; the 25 blocks tile the array. -/
import proofs.«172706_j3221225472394_1_alg».proof.Proof.KI.R3
import proofs.«172706_j3221225472394_1_alg».proof.Proof.KI.R3Spec
import proofs.«172706_j3221225472394_1_alg».proof.Proof.LibBlockDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.HeadSpec

/-! ## The sigmoid payload at a row -/

/-- The two products' dimension records are the plain ones: contract the left operand's columns with the right
    operand's rows. -/
theorem dotA_eq : dot_S4000x64_S64x8_S4000x8_1_0_0_1_n_n = DotDims.plain 4000 64 8 := rfl
theorem dotB_eq : dot_S4000x8_S8x1_S4000x1_1_0_0_1_n_n = DotDims.plain 4000 8 1 := rfl

/-- The zero word is the number zero. -/
theorem zero_word : (FloatOps.ofBits FTy.f32 0#32 : Idealize.ShloMosaic.Ideal .f32) = (0 : EReal) := Ideal.ofBits_zero_f32

theorem logistic_apply {s : Shape} (a : FVec Idealize.ShloMosaic.Ideal s .f32) (i : s.Idx) : logistic a i = Ideal.logistic (a i) := rfl

/-- The sigmoid block at row `r`: the logistic of that row's logit, over the blocks read. -/
theorem pay4_apply (x0 : Vec Idealize.ShloMosaic.Ideal S4000x64 .f32) (x1 : Vec Idealize.ShloMosaic.Ideal S1x64 .f32) (x2 : Vec Idealize.ShloMosaic.Ideal S64x8 .f32) (x3 : Vec Idealize.ShloMosaic.Ideal S1x8 .f32)
    (x4 : Vec Idealize.ShloMosaic.Ideal S8x1 .f32) (x5 : Vec Idealize.ShloMosaic.Ideal S1x1 .f32) (r : Fin 4000) :
    (k3_pay4 x0 x1 x2 x3 x4 x5 (ix2 r (0 : Fin 1)) : EReal)
      = Ideal.logistic ((∑ k : Fin 8, max ((∑ j : Fin 64, max ((x0 (ix2 r j) : EReal) + x1 (ix2 (0 : Fin 1) j)) 0 * x2 (ix2 j k)) + x3 (ix2 (0 : Fin 1) k)) 0
          * x4 (ix2 k (0 : Fin 1))) + x5 (ix2 (0 : Fin 1) (0 : Fin 1))) := by
  unfold k3_pay4
  rw [dotA_eq, dotB_eq]
  simp only [logistic_apply, addf_apply, maximumf_apply, truncf_apply, shapeCast_self, broadcastTo_1b_ab_apply, broadcast_apply,
    Cert.BlockDot.kdot_apply, zero_word]

/-! ## The blocks the body reads, as entries of the arrays the region finds -/

variable (V : (c : Dev nD) → (b : Ref sig .tc) → Buf (Elt Idealize.ShloMosaic.Ideal) ((c : Thread nD τ).loc b))

/-- The index maps over the grid: the feature rows and the output move with the point, the parameters stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_8.index t (0 : Fin 2) = t.val ∧ win3_8.index t (1 : Fin 2) = 0 :=
  (by decide +kernel : ∀ t : Fin grid3.N, _)

/-- Row `r` of the feature block at point `t` is row `4000·t + r` of the feature array. -/
theorem blk3_0_apply (c : Dev nD) (t : Fin cfg3.N) (r : Fin 4000) (j : Fin 64) (p : Fin 100000) (hp : p.val = t.val * 4000 + r.val) :
    (iblk3 V c 0 t : Vec Idealize.ShloMosaic.Ideal S4000x64 .f32) (ix2 r j) = (V c main_v70 : S100000x64.Idx → EReal) (ix2 p j) := by
  obtain ⟨e00, e01, e10, e11, e20, e21, e30, e31, e40, e41, e50, e51, e80, e81⟩ := idx_facts3 t
  show V c main_v70 (((cfg3.win 0).blk t).view.emb (ix2 r j)) = V c main_v70 (ix2 p j)
  refine congrArg _ (funext fun a => Fin.ext ?_)
  match a with
  | ⟨0, _⟩ => show win3_0.index t (0 : Fin 2) * 4000 + 1 * r.val = p.val; omega
  | ⟨1, _⟩ => show win3_0.index t (1 : Fin 2) * 64 + 1 * j.val = j.val; omega

/-- Window 1's block is its whole array at every point. -/
theorem blk3_1_apply (c : Dev nD) (t : Fin cfg3.N) (u : S1x64.Idx) :
    (iblk3 V c 1 t : Vec Idealize.ShloMosaic.Ideal S1x64 .f32) u = (V c main_v75 : S1x64.Idx → EReal) u := by
  obtain ⟨e00, e01, e10, e11, e20, e21, e30, e31, e40, e41, e50, e51, e80, e81⟩ := idx_facts3 t
  show V c main_v75 (((cfg3.win 1).blk t).view.emb u) = V c main_v75 u
  refine congrArg _ (funext fun a => Fin.ext ?_)
  match a with
  | ⟨0, _⟩ => show win3_1.index t (0 : Fin 2) * 1 + 1 * (u 0).val = (u 0).val; omega
  | ⟨1, _⟩ => show win3_1.index t (1 : Fin 2) * 64 + 1 * (u 1).val = (u 1).val; omega

/-- Window 2's block is its whole array at every point. -/
theorem blk3_2_apply (c : Dev nD) (t : Fin cfg3.N) (u : S64x8.Idx) :
    (iblk3 V c 2 t : Vec Idealize.ShloMosaic.Ideal S64x8 .f32) u = (V c main_arg9 : S64x8.Idx → EReal) u := by
  obtain ⟨e00, e01, e10, e11, e20, e21, e30, e31, e40, e41, e50, e51, e80, e81⟩ := idx_facts3 t
  show V c main_arg9 (((cfg3.win 2).blk t).view.emb u) = V c main_arg9 u
  refine congrArg _ (funext fun a => Fin.ext ?_)
  match a with
  | ⟨0, _⟩ => show win3_2.index t (0 : Fin 2) * 64 + 1 * (u 0).val = (u 0).val; omega
  | ⟨1, _⟩ => show win3_2.index t (1 : Fin 2) * 8 + 1 * (u 1).val = (u 1).val; omega

/-- Window 3's block is its whole array at every point. -/
theorem blk3_3_apply (c : Dev nD) (t : Fin cfg3.N) (u : S1x8.Idx) :
    (iblk3 V c 3 t : Vec Idealize.ShloMosaic.Ideal S1x8 .f32) u = (V c main_v76 : S1x8.Idx → EReal) u := by
  obtain ⟨e00, e01, e10, e11, e20, e21, e30, e31, e40, e41, e50, e51, e80, e81⟩ := idx_facts3 t
  show V c main_v76 (((cfg3.win 3).blk t).view.emb u) = V c main_v76 u
  refine congrArg _ (funext fun a => Fin.ext ?_)
  match a with
  | ⟨0, _⟩ => show win3_3.index t (0 : Fin 2) * 1 + 1 * (u 0).val = (u 0).val; omega
  | ⟨1, _⟩ => show win3_3.index t (1 : Fin 2) * 8 + 1 * (u 1).val = (u 1).val; omega

/-- Window 4's block is its whole array at every point. -/
theorem blk3_4_apply (c : Dev nD) (t : Fin cfg3.N) (u : S8x1.Idx) :
    (iblk3 V c 4 t : Vec Idealize.ShloMosaic.Ideal S8x1 .f32) u = (V c main_arg11 : S8x1.Idx → EReal) u := by
  obtain ⟨e00, e01, e10, e11, e20, e21, e30, e31, e40, e41, e50, e51, e80, e81⟩ := idx_facts3 t
  show V c main_arg11 (((cfg3.win 4).blk t).view.emb u) = V c main_arg11 u
  refine congrArg _ (funext fun a => Fin.ext ?_)
  match a with
  | ⟨0, _⟩ => show win3_4.index t (0 : Fin 2) * 8 + 1 * (u 0).val = (u 0).val; omega
  | ⟨1, _⟩ => show win3_4.index t (1 : Fin 2) * 1 + 1 * (u 1).val = (u 1).val; omega

/-- Window 5's block is its whole array at every point. -/
theorem blk3_5_apply (c : Dev nD) (t : Fin cfg3.N) (u : S1x1.Idx) :
    (iblk3 V c 5 t : Vec Idealize.ShloMosaic.Ideal S1x1 .f32) u = (V c main_v77 : S1x1.Idx → EReal) u := by
  obtain ⟨e00, e01, e10, e11, e20, e21, e30, e31, e40, e41, e50, e51, e80, e81⟩ := idx_facts3 t
  show V c main_v77 (((cfg3.win 5).blk t).view.emb u) = V c main_v77 u
  refine congrArg _ (funext fun a => Fin.ext ?_)
  match a with
  | ⟨0, _⟩ => show win3_5.index t (0 : Fin 2) * 1 + 1 * (u 0).val = (u 0).val; omega
  | ⟨1, _⟩ => show win3_5.index t (1 : Fin 2) * 1 + 1 * (u 1).val = (u 1).val; omega

/-! ## What point `t` writes back, the cover, the array -/

/-- What point `t` writes back to output 8 is block `t` of the probabilities. -/
theorem flushed3_8_eq (c : Dev nD) (t : Fin cfg3.N) :
    (dat3 V c).flushed 8 t = ((cfg3.win 8).blk t).view.read (Elt Idealize.ShloMosaic.Ideal) (headP (V c main_v70) (V c main_v75) (V c main_arg9) (V c main_v76) (V c main_arg11) (V c main_v77)) := by
  show (cfg3.win 8).cut (grid3.coords t) ((dat3 V c).after 8 t) = _
  rw [after3_8]
  obtain ⟨e00, e01, e10, e11, e20, e21, e30, e31, e40, e41, e50, e51, e80, e81⟩ := idx_facts3 t
  funext j
  obtain ⟨r, q, rfl⟩ : ∃ (r : Fin 4000) (q : Fin 1), j = ix2 r q := ⟨j 0, j 1, eq_ix2 j⟩
  obtain rfl : q = 0 := Subsingleton.elim _ _
  have hN : cfg3.N = 25 := N_3
  have hlt : t.val * 4000 + r.val < 100000 := by have := t.isLt; have := r.isLt; omega
  show k3_pay4 (iblk3 V c 0 t) (iblk3 V c 1 t) (iblk3 V c 2 t) (iblk3 V c 3 t) (iblk3 V c 4 t) (iblk3 V c 5 t) (ix2 r (0 : Fin 1))
      = (headP (V c main_v70) (V c main_v75) (V c main_arg9) (V c main_v76) (V c main_arg11) (V c main_v77)) (((cfg3.win 8).blk t).view.emb (ix2 r (0 : Fin 1)))
  have hemb : (((cfg3.win 8).blk t).view.emb (ix2 r (0 : Fin 1)) : S100000x1.Idx) = ix2 (⟨t.val * 4000 + r.val, hlt⟩ : Fin 100000) (0 : Fin 1) := by
    funext a; apply Fin.ext
    match a with
    | ⟨0, _⟩ => show win3_8.index t (0 : Fin 2) * 4000 + 1 * r.val = t.val * 4000 + r.val; omega
    | ⟨1, _⟩ => show win3_8.index t (1 : Fin 2) * 1 + 1 * 0 = 0; omega
  rw [hemb]
  refine (pay4_apply (iblk3 V c 0 t) (iblk3 V c 1 t) (iblk3 V c 2 t) (iblk3 V c 3 t) (iblk3 V c 4 t) (iblk3 V c 5 t) r).trans ?_
  unfold headP headLogit
  refine congrArg Ideal.logistic ?_
  refine congrArg₂ (· + ·) (Finset.sum_congr rfl fun k _ => ?_) (blk3_5_apply V c t _)
  refine congrArg₂ (· * ·) ?_ (blk3_4_apply V c t _)
  refine congrArg₂ max ?_ rfl
  refine congrArg₂ (· + ·) (Finset.sum_congr rfl fun j _ => ?_) (blk3_3_apply V c t _)
  refine congrArg₂ (· * ·) ?_ (blk3_2_apply V c t _)
  refine congrArg₂ max ?_ rfl
  exact congrArg₂ (· + ·) (blk3_0_apply V c t r j _ rfl) (blk3_1_apply V c t _)

theorem mem_blk3_8 (t : Fin cfg3.N) (i : S100000x1.Idx) :
    i ∈ ((cfg3.win 8).blk t).view.set ↔ ∀ a : Fin 2, win3_8.index t a * S4000x1.size a ≤ (i a).val ∧ (i a).val < win3_8.index t a * S4000x1.size a + S4000x1.size a := by
  show i ∈ ((View.whole main_v78_0).slice (win3_8.rect t)).set ↔ _
  rw [View.set_slice_whole, Rect.mem_set_unit]
  exact Iff.rfl

/-- Row `p` lies in block `p / 4000`. -/
theorem cover3_8 (i : S100000x1.Idx) : ∃ t : Fin cfg3.N, (cfg3.win 8).flush t = true ∧ i ∈ ((cfg3.win 8).blk t).view.set := by
  have hi0 : (i 0).val < 100000 := (i 0).isLt
  have hi1 : (i 1).val < 1 := (i 1).isLt
  have hN : cfg3.N = 25 := N_3
  refine ⟨⟨(i 0).val / 4000, by rw [hN]; omega⟩, flush3_8 _, ?_⟩
  rw [mem_blk3_8]
  obtain ⟨e00, e01, e10, e11, e20, e21, e30, e31, e40, e41, e50, e51, e80, e81⟩ := idx_facts3 ⟨(i 0).val / 4000, by rw [hN]; omega⟩
  intro a
  match a with
  | ⟨0, _⟩ =>
    show win3_8.index ⟨(i 0).val / 4000, _⟩ (0 : Fin 2) * 4000 ≤ (i 0).val ∧ (i 0).val < win3_8.index ⟨(i 0).val / 4000, _⟩ (0 : Fin 2) * 4000 + 4000
    rw [e80]; show (i 0).val / 4000 * 4000 ≤ (i 0).val ∧ (i 0).val < (i 0).val / 4000 * 4000 + 4000; omega
  | ⟨1, _⟩ =>
    show win3_8.index ⟨(i 0).val / 4000, _⟩ (1 : Fin 2) * 1 ≤ (i 1).val ∧ (i 1).val < win3_8.index ⟨(i 0).val / 4000, _⟩ (1 : Fin 2) * 1 + 1
    rw [e81]; omega

/-- THE ARRAY after region 3's run: the probability of every row. -/
theorem final3_p (c : Dev nD) : (dat3 V c).arrAt 8 cfg3.N = (headP (V c main_v70) (V c main_v75) (V c main_arg9) (V c main_v76) (V c main_arg11) (V c main_v77)) :=
  (dat3 V c).arrAt_eq_of_cover 8 _ (fun t _ => flushed3_8_eq V c t) cover3_8

end Cert.KernelIdeal.Hand

end
-- ==== Proof.KI.R3ValL.lean ====
/- Output 9 of region 3 after the run, at the ideal values: the mean of every row's loss term. The scratch
   accumulator after point `n` is zero plus the loss sums of blocks `0 … n`, each block's sum running over its
   4000 rows; the 25 blocks' rows are the array's 100000 rows; the one write-back, after the last point, stores the
   accumulator divided by the row count. -/
import proofs.«172706_j3221225472394_1_alg».proof.Proof.KI.R3ValP

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.HeadSpec

/-! ## The payloads at an index -/

theorem log_apply {s : Shape} (a : FVec Idealize.ShloMosaic.Ideal s .f32) (i : s.Idx) : log a i = Ideal.log (a i) := rfl

/-- Adding up a one-column block over its rows. -/
theorem rowsum_apply (src : FVec Idealize.ShloMosaic.Ideal S4000x1 .f32) (hφ : FKind.Formats FTy.f32) (hacc : (0x00000000#32 : BitVec 32) = FKind.add.neutral FTy.f32 hφ) :
    multiReduction .add [0] S1 src 0x00000000#32 reduces_S4000x1_S1 hφ hacc (ix1 (0 : Fin 1)) = ∑ r : Fin 4000, (src (ix2 r (0 : Fin 1)) : EReal) := by
  refine (Ideal.multiReduction_add_single src 0x00000000#32 reduces_S4000x1_S1 hφ hacc (ix1 0)).trans ?_
  refine Finset.sum_congr rfl fun r _ => congrArg src ?_
  funext a; apply Fin.ext
  match a with
  | ⟨0, _⟩ => rfl
  | ⟨1, _⟩ => rfl

/-- The accumulator's update: what it held plus the block's loss terms added over the rows. -/
theorem pay1_apply (q y : FVec Idealize.ShloMosaic.Ideal S4000x1 .f32) (pm acc : Vec Idealize.ShloMosaic.Ideal S1x1 .f32) :
    (k3_pay1 q y pm acc (ix2 (0 : Fin 1) (0 : Fin 1)) : EReal)
      = acc (ix2 (0 : Fin 1) (0 : Fin 1)) + ∑ r : Fin 4000, lossTerm (q (ix2 r (0 : Fin 1))) (y (ix2 r (0 : Fin 1))) (pm (ix2 (0 : Fin 1) (0 : Fin 1))) := by
  unfold k3_pay1
  simp only [shapeCast_self, addf_apply, shapeCast_a_1a_apply]
  refine congrArg₂ (· + ·) rfl ((rowsum_apply _ _ _).trans (Finset.sum_congr rfl fun r _ => ?_))
  simp only [addf_apply, mulf_apply, subf_apply, maximumf_apply, minimumf_apply, log_apply, broadcast_apply, broadcastTo_1b_ab_apply,
    zero_word]
  unfold lossTerm one lo hi
  rfl

/-- The mean: the accumulator over the row count. -/
theorem pay2_apply (x : Vec Idealize.ShloMosaic.Ideal S1x1 .f32) : (k3_pay2 x (ix2 (0 : Fin 1) (0 : Fin 1)) : EReal) = Ideal.div (x (ix2 (0 : Fin 1) (0 : Fin 1))) cnt := by
  unfold k3_pay2
  simp only [divf_apply, broadcast_apply]
  rfl

/-- The accumulator starts at zero. -/
theorem pay3_apply : (k3_pay3 (F := Idealize.ShloMosaic.Ideal) (ix2 (0 : Fin 1) (0 : Fin 1)) : EReal) = 0 := by
  unfold k3_pay3
  simp only [shapeCast_self, broadcast_apply, zero_word]

/-! ## The blocks the loss reads, as entries of the arrays the region finds -/

variable (V : (c : Dev nD) → (b : Ref sig .tc) → Buf (Elt Idealize.ShloMosaic.Ideal) ((c : Thread nD τ).loc b))

/-- The index maps over the grid: the label rows move with the point, the positive rate and the loss cell stay. -/
theorem idx_factsL3 : ∀ t : Fin cfg3.N,
    win3_6.index t (0 : Fin 2) = t.val ∧ win3_6.index t (1 : Fin 2) = 0
    ∧ win3_7.index t (0 : Fin 2) = 0 ∧ win3_7.index t (1 : Fin 2) = 0
    ∧ win3_9.index t (0 : Fin 2) = 0 ∧ win3_9.index t (1 : Fin 2) = 0 :=
  (by decide +kernel : ∀ t : Fin grid3.N, _)

/-- Row `r` of block `t` is row `4000·t + r` of the arrays. -/
def rowOf (t : Fin cfg3.N) (r : Fin 4000) : Fin 100000 :=
  ⟨t.val * 4000 + r.val, by have := t.isLt; have hN : cfg3.N = 25 := N_3; have := r.isLt; omega⟩

/-- Row `r` of the label block at point `t` is row `4000·t + r` of the label array. -/
theorem blk3_6_apply (c : Dev nD) (t : Fin cfg3.N) (r : Fin 4000) :
    (iblk3 V c 6 t : Vec Idealize.ShloMosaic.Ideal S4000x1 .i32) (ix2 r (0 : Fin 1)) = V c main_arg2 (ix2 (rowOf t r) (0 : Fin 1)) := by
  obtain ⟨e60, e61, e70, e71, e90, e91⟩ := idx_factsL3 t
  show V c main_arg2 (((cfg3.win 6).blk t).view.emb (ix2 r (0 : Fin 1))) = V c main_arg2 (ix2 (rowOf t r) (0 : Fin 1))
  refine congrArg _ (funext fun a => Fin.ext ?_)
  match a with
  | ⟨0, _⟩ => show win3_6.index t (0 : Fin 2) * 4000 + 1 * r.val = t.val * 4000 + r.val; omega
  | ⟨1, _⟩ => show win3_6.index t (1 : Fin 2) * 1 + 1 * 0 = 0; omega

/-- The positive rate's block is its whole array at every point. -/
theorem blk3_7_apply (c : Dev nD) (t : Fin cfg3.N) (u : S1x1.Idx) :
    (iblk3 V c 7 t : Vec Idealize.ShloMosaic.Ideal S1x1 .f32) u = (V c main_v74 : S1x1.Idx → EReal) u := by
  obtain ⟨e60, e61, e70, e71, e90, e91⟩ := idx_factsL3 t
  show V c main_v74 (((cfg3.win 7).blk t).view.emb u) = V c main_v74 u
  refine congrArg _ (funext fun a => Fin.ext ?_)
  match a with
  | ⟨0, _⟩ => show win3_7.index t (0 : Fin 2) * 1 + 1 * (u 0).val = (u 0).val; omega
  | ⟨1, _⟩ => show win3_7.index t (1 : Fin 2) * 1 + 1 * (u 1).val = (u 1).val; omega

/-- The sigmoid block at row `r` of point `t` is the probability of row `4000·t + r`. -/
theorem sig_row (c : Dev nD) (t : Fin cfg3.N) (r : Fin 4000) :
    (k3_pay4 (iblk3 V c 0 t) (iblk3 V c 1 t) (iblk3 V c 2 t) (iblk3 V c 3 t) (iblk3 V c 4 t) (iblk3 V c 5 t) (ix2 r (0 : Fin 1)) : EReal) = headP (V c main_v70) (V c main_v75) (V c main_arg9) (V c main_v76) (V c main_arg11) (V c main_v77) (ix2 (rowOf t r) (0 : Fin 1)) := by
  refine (pay4_apply (iblk3 V c 0 t) (iblk3 V c 1 t) (iblk3 V c 2 t) (iblk3 V c 3 t) (iblk3 V c 4 t) (iblk3 V c 5 t) r).trans ?_
  unfold headP headLogit
  refine congrArg Ideal.logistic ?_
  refine congrArg₂ (· + ·) (Finset.sum_congr rfl fun k _ => ?_) (blk3_5_apply V c t _)
  refine congrArg₂ (· * ·) ?_ (blk3_4_apply V c t _)
  refine congrArg₂ max ?_ rfl
  refine congrArg₂ (· + ·) (Finset.sum_congr rfl fun j _ => ?_) (blk3_3_apply V c t _)
  refine congrArg₂ (· * ·) ?_ (blk3_2_apply V c t _)
  refine congrArg₂ max ?_ rfl
  exact congrArg₂ (· + ·) (blk3_0_apply V c t r j _ rfl) (blk3_1_apply V c t _)

/-! ## The accumulator as a sum over rows -/

/-- Row `p`'s loss term: its probability, its label read as a number, the positive rate. -/
def rowTerm (c : Dev nD) (p : Fin 100000) : EReal :=
  lossTerm (headP (V c main_v70) (V c main_v75) (V c main_arg9) (V c main_v76) (V c main_arg11) (V c main_v77) (ix2 p (0 : Fin 1))) (FloatOps.sitofp (F := Idealize.ShloMosaic.Ideal) .f32 (V c main_arg2 (ix2 p (0 : Fin 1)))) (V c main_v74 (ix2 (0 : Fin 1) (0 : Fin 1)))

/-- One point's update of the accumulator: what it held plus the loss terms of the point's 4000 rows. -/
theorem step_apply (c : Dev nD) (t : Fin cfg3.N) (acc : Vec Idealize.ShloMosaic.Ideal S1x1 .f32) :
    (k3_pay1 (k3_pay4 (iblk3 V c 0 t) (iblk3 V c 1 t) (iblk3 V c 2 t) (iblk3 V c 3 t) (iblk3 V c 4 t) (iblk3 V c 5 t)) (k3_pay5 (iblk3 V c 6 t)) (iblk3 V c 7 t) acc (ix2 (0 : Fin 1) (0 : Fin 1)) : EReal)
      = acc (ix2 (0 : Fin 1) (0 : Fin 1)) + ∑ r : Fin 4000, rowTerm V c (rowOf t r) := by
  refine (pay1_apply _ _ _ _).trans ?_
  refine congrArg₂ (· + ·) rfl (Finset.sum_congr rfl fun r _ => ?_)
  unfold rowTerm
  have h2 : (k3_pay5 (iblk3 V c 6 t) (ix2 r (0 : Fin 1)) : EReal) = FloatOps.sitofp (F := Idealize.ShloMosaic.Ideal) .f32 (V c main_arg2 (ix2 (rowOf t r) (0 : Fin 1))) := by
    show FloatOps.sitofp (F := Idealize.ShloMosaic.Ideal) .f32 ((iblk3 V c 6 t : Vec Idealize.ShloMosaic.Ideal S4000x1 .i32) (ix2 r (0 : Fin 1))) = _
    rw [blk3_6_apply V c t r]
  exact congr (congr (congrArg lossTerm (sig_row V c t r)) h2) (blk3_7_apply V c t (ix2 (0 : Fin 1) (0 : Fin 1)))

/-- Block `n`'s loss sum (zero past the grid). -/
def blockSum (c : Dev nD) (n : ℕ) : EReal :=
  if h : n < cfg3.N then ∑ r : Fin 4000, rowTerm V c (rowOf ⟨n, h⟩ r) else 0

/-- The accumulator after point `n`: zero plus the loss sums of blocks `0 … n`. -/
theorem acc3_apply (c : Dev nD) : ∀ (n : ℕ) (hn : n < cfg3.N),
    (acc3 V c n hn (ix2 (0 : Fin 1) (0 : Fin 1)) : EReal) = 0 + ∑ i ∈ Finset.range (n + 1), blockSum V c i
  | 0, hn => by
    refine (step_apply V c ⟨0, hn⟩ (k3_pay3 (F := Idealize.ShloMosaic.Ideal))).trans ?_
    rw [pay3_apply, Finset.sum_range_one]
    unfold blockSum
    rw [dif_pos hn]
  | n + 1, hn => by
    refine (step_apply V c ⟨n + 1, hn⟩ (acc3 V c n (Nat.lt_of_succ_lt hn))).trans ?_
    rw [acc3_apply c n (Nat.lt_of_succ_lt hn), Finset.sum_range_succ _ (n + 1), add_assoc]
    unfold blockSum
    rw [dif_pos hn]

/-- Block `t`'s rows are the rows `4000·t + r`. -/
theorem blockSum_eq (c : Dev nD) (t : Fin 25) :
    blockSum V c t.val = ∑ r : Fin 4000, rowTerm V c (finProdFinEquiv (t, r)) := by
  have hN : cfg3.N = 25 := N_3
  have ht : t.val < cfg3.N := by rw [hN]; exact t.isLt
  unfold blockSum
  rw [dif_pos ht]
  refine Finset.sum_congr rfl fun r _ => congrArg (rowTerm V c) (Fin.ext ?_)
  show t.val * 4000 + r.val = r.val + 4000 * t.val
  omega

/-- The 25 blocks' rows are the array's 100000 rows. -/
theorem sum_blocks (c : Dev nD) : ∑ i ∈ Finset.range 25, blockSum V c i = ∑ p : Fin 100000, rowTerm V c p :=
  calc ∑ i ∈ Finset.range 25, blockSum V c i
      = ∑ t : Fin 25, blockSum V c t.val := (Fin.sum_univ_eq_sum_range (fun i => blockSum V c i) 25).symm
    _ = ∑ t : Fin 25, ∑ r : Fin 4000, rowTerm V c (finProdFinEquiv (t, r)) := Finset.sum_congr rfl fun t _ => blockSum_eq V c t
    _ = ∑ x : Fin 25 × Fin 4000, rowTerm V c (finProdFinEquiv x) :=
        (Fintype.sum_prod_type' (fun (t : Fin 25) (r : Fin 4000) => rowTerm V c (finProdFinEquiv (t, r)))).symm
    _ = ∑ p : Fin 100000, rowTerm V c p := Equiv.sum_comp (finProdFinEquiv : Fin 25 × Fin 4000 ≃ Fin (25 * 4000)) (fun p => rowTerm V c p)

/-! ## The one write-back, and the array -/

/-- The accumulator at equal points. -/
theorem acc3_congr (c : Dev nD) {n m : ℕ} (h : n = m) (hn : n < cfg3.N) (hm : m < cfg3.N) : acc3 V c n hn = acc3 V c m hm := by
  subst h; rfl

/-- The one write-back of output 9, after the last point, writes the accumulator's mean. -/
theorem flushed3_9_eq (c : Dev nD) (t : Fin cfg3.N) (hf : (cfg3.win 9).flush t = true) :
    (dat3 V c).flushed 9 t = ((cfg3.win 9).blk t).view.read (Elt Idealize.ShloMosaic.Ideal) (k3_pay2 (acc3 V c 24 (by decide))) := by
  have hN : cfg3.N = 25 := N_3
  have h1 : t.val = 24 := by have := (flush3_9 t).mp hf; have := t.isLt; omega
  obtain ⟨e60, e61, e70, e71, e90, e91⟩ := idx_factsL3 t
  show (cfg3.win 9).cut (grid3.coords t) ((dat3 V c).after 9 t) = _
  rw [after3_9, acc3_congr V c h1 t.isLt (by decide)]
  funext j
  show k3_pay2 (acc3 V c 24 _) j = k3_pay2 (acc3 V c 24 _) (((cfg3.win 9).blk t).view.emb j)
  refine congrArg _ (funext fun a => Fin.ext ?_)
  match a with
  | ⟨0, _⟩ => show (j 0).val = win3_9.index t (0 : Fin 2) * 1 + 1 * (j 0).val; omega
  | ⟨1, _⟩ => show (j 1).val = win3_9.index t (1 : Fin 2) * 1 + 1 * (j 1).val; omega

theorem mem_blk3_9 (t : Fin cfg3.N) (i : S1x1.Idx) :
    i ∈ ((cfg3.win 9).blk t).view.set ↔ ∀ a : Fin 2, win3_9.index t a * S1x1.size a ≤ (i a).val ∧ (i a).val < win3_9.index t a * S1x1.size a + S1x1.size a := by
  show i ∈ ((View.whole main_v78_1).slice (win3_9.rect t)).set ↔ _
  rw [View.set_slice_whole, Rect.mem_set_unit]
  exact Iff.rfl

/-- The last point's block is the whole one-cell array. -/
theorem cover3_9 (i : S1x1.Idx) : ∃ t : Fin cfg3.N, (cfg3.win 9).flush t = true ∧ i ∈ ((cfg3.win 9).blk t).view.set := by
  have hi0 : (i 0).val < 1 := (i 0).isLt
  have hi1 : (i 1).val < 1 := (i 1).isLt
  refine ⟨⟨24, by decide⟩, (flush3_9 _).mpr rfl, ?_⟩
  rw [mem_blk3_9]
  obtain ⟨e60, e61, e70, e71, e90, e91⟩ := idx_factsL3 ⟨24, by decide⟩
  intro a
  match a with
  | ⟨0, _⟩ =>
    show win3_9.index ⟨24, _⟩ (0 : Fin 2) * 1 ≤ (i 0).val ∧ (i 0).val < win3_9.index ⟨24, _⟩ (0 : Fin 2) * 1 + 1
    rw [e90]; omega
  | ⟨1, _⟩ =>
    show win3_9.index ⟨24, _⟩ (1 : Fin 2) * 1 ≤ (i 1).val ∧ (i 1).val < win3_9.index ⟨24, _⟩ (1 : Fin 2) * 1 + 1
    rw [e91]; omega

/-- THE ARRAY after region 3's run: the accumulator's mean after the last point. -/
theorem final3_9 (c : Dev nD) : (dat3 V c).arrAt 9 cfg3.N = k3_pay2 (acc3 V c 24 (by decide)) :=
  (dat3 V c).arrAt_eq_of_cover 9 _ (flushed3_9_eq V c) cover3_9

/-- THE LOSS after region 3's run: zero plus every row's loss term, over the row count. -/
theorem final3_loss (c : Dev nD) :
    ((dat3 V c).arrAt 9 cfg3.N) (ix2 (0 : Fin 1) (0 : Fin 1))
      = Ideal.div (0 + ∑ p : Fin 100000, lossTerm (headP (V c main_v70) (V c main_v75) (V c main_arg9) (V c main_v76) (V c main_arg11) (V c main_v77) (ix2 p (0 : Fin 1)))
          (FloatOps.sitofp (F := Idealize.ShloMosaic.Ideal) .f32 (V c main_arg2 (ix2 p (0 : Fin 1)))) (V c main_v74 (ix2 (0 : Fin 1) (0 : Fin 1)))) cnt := by
  rw [final3_9]
  refine (pay2_apply _).trans ?_
  rw [acc3_apply V c 24 (by decide), sum_blocks]
  rfl

end Cert.KernelIdeal.Hand

end
-- ==== Proof.KI.Bridge1.lean ====
/-
  The head and the loss, read as the reference's stages.  The reference computes a row's logit as two dense
  layers with rectifiers on the biased third aggregation: its `dot_general`s read at an index are the sums over the
  contracted coordinate, its biases are rows broadcast over the nodes where the kernel's are the vectors recast as one
  row, its rectifiers are maxima with a broadcast zero; and it spells the probability as one over one plus the
  exponential of the negated logit, which is the logistic function by definition.  Its loss is the sum over the rows of
  the class weight times the negated log-likelihood of the label under the clipped probability, divided by the count;
  it negates where a row's term is written as a difference from zero, and it forms one minus the positive fraction once
  where a row's term forms it in place: the same value.
-/
import proofs.«172706_j3221225472394_1_alg».proof.Proof.Gen.ReferenceIdeal.Read
import proofs.«172706_j3221225472394_1_alg».proof.Proof.Gen.KernelIdeal
import proofs.«172706_j3221225472394_1_alg».proof.Proof.LibProdRows
import proofs.«172706_j3221225472394_1_alg».proof.Proof.ActSpec
import Idealize.ShloMosaic.Lib.ValueLayout
import Idealize.ShloMosaic.Lib.IdealHost
import proofs.«172706_j3221225472394_1_alg».proof.Proof.KI.R3Spec

set_option maxRecDepth 16384

noncomputable section

open scoped BigOperators

namespace Cert.KernelIdeal.Hand

open Idealize.ShloMosaic Idealize.ShloMosaic.ValueIdx
open Cert.KernelIdeal Cert.KernelIdeal.Gen
open Cert.KernelIdeal.RegionValue (prodArr prodArr_apply)
open Cert.ActSpec (preAct preAct_apply)
open Cert.HeadSpec

/-- The head's first hidden row: the third aggregation plus its bias row, clamped below at zero. -/
theorem hidden3_apply
    (x0 : (⟨Cert.ReferenceIdeal.S100000x128, .f32⟩ : BufTy).Contents (Elt Ideal))
    (x1 : (⟨Cert.ReferenceIdeal.S2x1600000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal)) (p : Fin 100000) (j : Fin 64) :
    Cert.ReferenceIdeal.Read.val_main_v80 (F := Ideal) x0 x1 x3 x4 x5 x6 x7 x8 (ix2 p j)
      = max (Cert.ReferenceIdeal.Read.val_main_v76 (F := Ideal) x0 x1 x3 x4 x5 x6 x7 (ix2 p j) + shapeCast S1x64 x8 shapeCasts_S64_S1x64 (ix2 (0 : Fin 1) j)) 0 := by
  have eb : Cert.ReferenceIdeal.Read.idx_main_v77 (Cert.ReferenceIdeal.Read.idx_main_v78 (ix2 p j)) = ix1 j := by
    funext a; match a with
    | ⟨0, _⟩ => rfl
  rw [Cert.ReferenceIdeal.Read.val_main_v80_apply, Cert.ReferenceIdeal.Read.val_main_v79_apply, Cert.ReferenceIdeal.Read.val_main_v78_apply, Cert.ReferenceIdeal.Read.val_main_v77_apply,
    Cert.ReferenceIdeal.Read.val_main_call2_v0_apply, Cert.ReferenceIdeal.Read.val_main_call2_cst_apply, eb, shapeCast_a_1a_apply,
    Ideal.maximumf_def, Ideal.addf_def, Ideal.ofBits_def, Ideal.ofBits_zero_f32]

/-- The head's second hidden row. -/
theorem hidden4_apply
    (x0 : (⟨Cert.ReferenceIdeal.S100000x128, .f32⟩ : BufTy).Contents (Elt Ideal))
    (x1 : (⟨Cert.ReferenceIdeal.S2x1600000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal))
    (x9 : (⟨Cert.ReferenceIdeal.S64x8, .f32⟩ : BufTy).Contents (Elt Ideal))
    (x10 : (⟨Cert.ReferenceIdeal.S8, .f32⟩ : BufTy).Contents (Elt Ideal)) (p : Fin 100000) (k : Fin 8) :
    Cert.ReferenceIdeal.Read.val_main_v85 (F := Ideal) x0 x1 x3 x4 x5 x6 x7 x8 x9 x10 (ix2 p k)
      = max ((∑ j : Fin 64, max (Cert.ReferenceIdeal.Read.val_main_v76 (F := Ideal) x0 x1 x3 x4 x5 x6 x7 (ix2 p j)
              + shapeCast S1x64 x8 shapeCasts_S64_S1x64 (ix2 (0 : Fin 1) j)) 0 * x9 (ix2 j k))
            + shapeCast S1x8 x10 shapeCasts_S8_S1x8 (ix2 (0 : Fin 1) k)) 0 := by
  have eb : Cert.ReferenceIdeal.Read.idx_main_v82 (Cert.ReferenceIdeal.Read.idx_main_v83 (ix2 p k)) = ix1 k := by
    funext a; match a with
    | ⟨0, _⟩ => rfl
  have el : ∀ j : Fin 64, Cert.ReferenceIdeal.Read.lidx_main_v81 (ix2 p k) j = ix2 p j := fun j => by
    funext a; match a with
    | ⟨0, _⟩ => rfl
    | ⟨1, _⟩ => rfl
  have er : ∀ j : Fin 64, Cert.ReferenceIdeal.Read.ridx_main_v81 (ix2 p k) j = ix2 j k := fun j => by
    funext a; match a with
    | ⟨0, _⟩ => rfl
    | ⟨1, _⟩ => rfl
  have hs : (∑ j : Fin 64, Cert.ReferenceIdeal.Read.val_main_v80 (F := Ideal) x0 x1 x3 x4 x5 x6 x7 x8 (Cert.ReferenceIdeal.Read.lidx_main_v81 (ix2 p k) j) * x9 (Cert.ReferenceIdeal.Read.ridx_main_v81 (ix2 p k) j))
      = ∑ j : Fin 64, max (Cert.ReferenceIdeal.Read.val_main_v76 (F := Ideal) x0 x1 x3 x4 x5 x6 x7 (ix2 p j)
              + shapeCast S1x64 x8 shapeCasts_S64_S1x64 (ix2 (0 : Fin 1) j)) 0 * x9 (ix2 j k) :=
    Finset.sum_congr rfl fun j _ => by rw [el j, er j, hidden3_apply]
  rw [Cert.ReferenceIdeal.Read.val_main_v85_apply, Cert.ReferenceIdeal.Read.val_main_v84_apply, Cert.ReferenceIdeal.Read.val_main_v83_apply, Cert.ReferenceIdeal.Read.val_main_v82_apply,
    Cert.ReferenceIdeal.Read.val_main_call3_v0_apply, Cert.ReferenceIdeal.Read.val_main_call3_cst_apply, eb, shapeCast_a_1a_apply, Cert.ReferenceIdeal.Read.val_main_v81_apply, hs,
    Ideal.maximumf_def, Ideal.addf_def, Ideal.ofBits_def, Ideal.ofBits_zero_f32]

/-- The probabilities: the logistic of each row's logit is the reference's quotient of one by one plus the
    exponential of the negated logit. -/
theorem bridgeP
    (x0 : (⟨Cert.ReferenceIdeal.S100000x128, .f32⟩ : BufTy).Contents (Elt Ideal))
    (x1 : (⟨Cert.ReferenceIdeal.S2x1600000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal))
    (x9 : (⟨Cert.ReferenceIdeal.S64x8, .f32⟩ : BufTy).Contents (Elt Ideal))
    (x10 : (⟨Cert.ReferenceIdeal.S8, .f32⟩ : BufTy).Contents (Elt Ideal))
    (x11 : (⟨Cert.ReferenceIdeal.S8x1, .f32⟩ : BufTy).Contents (Elt Ideal))
    (x12 : (⟨Cert.ReferenceIdeal.S1, .f32⟩ : BufTy).Contents (Elt Ideal)) :
    headP (Cert.ReferenceIdeal.Read.val_main_v76 (F := Ideal) x0 x1 x3 x4 x5 x6 x7) (shapeCast S1x64 x8 shapeCasts_S64_S1x64) x9
        (shapeCast S1x8 x10 shapeCasts_S8_S1x8) x11 (shapeCast S1x1 x12 shapeCasts_S1_S1x1)
      = Cert.ReferenceIdeal.Read.val_main_v95 (F := Ideal) x0 x1 x3 x4 x5 x6 x7 x8 x9 x10 x11 x12 := by
  funext i
  obtain ⟨p, c, rfl⟩ : ∃ (p : Fin 100000) (c : Fin 1), i = ix2 p c := ⟨i 0, i 1, eq_ix2 i⟩
  obtain rfl : c = 0 := Subsingleton.elim _ _
  have eb : Cert.ReferenceIdeal.Read.idx_main_v87 (Cert.ReferenceIdeal.Read.idx_main_v88 (ix2 p (0 : Fin 1))) = ix1 (0 : Fin 1) := by
    funext a; match a with
    | ⟨0, _⟩ => rfl
  have el : ∀ k : Fin 8, Cert.ReferenceIdeal.Read.lidx_main_v86 (ix2 p (0 : Fin 1)) k = ix2 p k := fun k => by
    funext a; match a with
    | ⟨0, _⟩ => rfl
    | ⟨1, _⟩ => rfl
  have er : ∀ k : Fin 8, Cert.ReferenceIdeal.Read.ridx_main_v86 (ix2 p (0 : Fin 1)) k = ix2 k (0 : Fin 1) := fun k => by
    funext a; match a with
    | ⟨0, _⟩ => rfl
    | ⟨1, _⟩ => rfl
  have hs : (∑ k : Fin 8, Cert.ReferenceIdeal.Read.val_main_v85 (F := Ideal) x0 x1 x3 x4 x5 x6 x7 x8 x9 x10 (Cert.ReferenceIdeal.Read.lidx_main_v86 (ix2 p (0 : Fin 1)) k) * x11 (Cert.ReferenceIdeal.Read.ridx_main_v86 (ix2 p (0 : Fin 1)) k))
      = ∑ k : Fin 8, max ((∑ j : Fin 64, max (Cert.ReferenceIdeal.Read.val_main_v76 (F := Ideal) x0 x1 x3 x4 x5 x6 x7 (ix2 p j)
              + shapeCast S1x64 x8 shapeCasts_S64_S1x64 (ix2 (0 : Fin 1) j)) 0 * x9 (ix2 j k))
            + shapeCast S1x8 x10 shapeCasts_S8_S1x8 (ix2 (0 : Fin 1) k)) 0 * x11 (ix2 k (0 : Fin 1)) :=
    Finset.sum_congr rfl fun k _ => by rw [el k, er k, hidden4_apply]
  rw [Cert.ReferenceIdeal.Read.val_main_v95_apply, Cert.ReferenceIdeal.Read.val_main_v94_apply, Cert.ReferenceIdeal.Read.val_main_cst_14_apply, Cert.ReferenceIdeal.Read.val_main_v93_apply,
    Cert.ReferenceIdeal.Read.val_main_v92_apply, Cert.ReferenceIdeal.Read.val_main_cst_13_apply, Cert.ReferenceIdeal.Read.val_main_v91_apply, Cert.ReferenceIdeal.Read.val_main_v90_apply,
    Cert.ReferenceIdeal.Read.val_main_v89_apply, Cert.ReferenceIdeal.Read.val_main_v88_apply, Cert.ReferenceIdeal.Read.val_main_v87_apply, eb, Cert.ReferenceIdeal.Read.val_main_v86_apply, hs,
    Ideal.hostDivf_def, Ideal.addf_def, Ideal.addf_def, Ideal.hostUnary_exp_def, Ideal.hostNegf_def, Ideal.negf_def,
    Ideal.ofBits_def, Ideal.ofBits_one_f32, ← shapeCast_a_1a_apply x12 shapeCasts_S1_S1x1 (0 : Fin 1) (0 : Fin 1)]
  rfl

/-- One row's term of the reference's loss: the class weight times the negated log-likelihood of the label under
    the clipped probability.  The reference negates where the row's term subtracts from zero. -/
theorem lossRef_term
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S100000x1, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal))
    (x9 : (⟨Cert.ReferenceIdeal.S64x8, .f32⟩ : BufTy).Contents (Elt Ideal))
    (x10 : (⟨Cert.ReferenceIdeal.S8, .f32⟩ : BufTy).Contents (Elt Ideal))
    (x11 : (⟨Cert.ReferenceIdeal.S8x1, .f32⟩ : BufTy).Contents (Elt Ideal))
    (x12 : (⟨Cert.ReferenceIdeal.S1, .f32⟩ : BufTy).Contents (Elt Ideal)) (j : (⟨2, ![100000, 1]⟩ : Shape).Idx) :
    Cert.ReferenceIdeal.Read.val_main_v118 (F := Ideal) x0 x1 x2 x3 x4 x5 x6 x7 x8 x9 x10 x11 x12 j
      = lossTerm (Cert.ReferenceIdeal.Read.val_main_v95 (F := Ideal) x0 x1 x3 x4 x5 x6 x7 x8 x9 x10 x11 x12 j) (FloatOps.sitofp (F := Ideal) .f32 (x2 j))
          (Cert.ReferenceIdeal.Read.val_main_v98 (F := Ideal) x2 ix0) := by
  rw [Cert.ReferenceIdeal.Read.val_main_v118_apply, Cert.ReferenceIdeal.Read.val_main_v106_apply, Cert.ReferenceIdeal.Read.val_main_v101_apply, Cert.ReferenceIdeal.Read.val_main_v105_apply,
    Cert.ReferenceIdeal.Read.val_main_v100_apply, Cert.ReferenceIdeal.Read.val_main_v99_apply, Cert.ReferenceIdeal.Read.val_main_cst_17_apply, Cert.ReferenceIdeal.Read.val_main_v103_apply,
    Cert.ReferenceIdeal.Read.val_main_v102_apply, Cert.ReferenceIdeal.Read.val_main_cst_18_apply, Cert.ReferenceIdeal.Read.val_main_v104_apply, Cert.ReferenceIdeal.Read.val_main_v117_apply,
    Cert.ReferenceIdeal.Read.val_main_v116_apply, Cert.ReferenceIdeal.Read.val_main_v109_apply, Cert.ReferenceIdeal.Read.val_main_v115_apply, Cert.ReferenceIdeal.Read.val_main_v108_apply,
    Cert.ReferenceIdeal.Read.val_main_v114_apply, Cert.ReferenceIdeal.Read.val_main_v113_apply, Cert.ReferenceIdeal.Read.val_main_v112_apply, Cert.ReferenceIdeal.Read.val_main_cst_22_apply,
    Cert.ReferenceIdeal.Read.val_main_v111_apply, Cert.ReferenceIdeal.Read.val_main_v110_apply, Cert.ReferenceIdeal.Read.val_main_cst_21_apply, Cert.ReferenceIdeal.Read.val_main_v107_apply,
    Cert.ReferenceIdeal.Read.val_main_call4_v4_apply, Cert.ReferenceIdeal.Read.val_main_call4_v3_apply, Cert.ReferenceIdeal.Read.val_main_cst_20_apply,
    Cert.ReferenceIdeal.Read.val_main_call4_v2_apply, Cert.ReferenceIdeal.Read.val_main_call4_v1_apply, Cert.ReferenceIdeal.Read.val_main_call4_v0_apply,
    Cert.ReferenceIdeal.Read.val_main_cst_19_apply, Cert.ReferenceIdeal.Read.val_main_v96_apply]
  unfold lossTerm one lo hi
  rw [zero_sub]
  simp only [Ideal.mulf_def, Ideal.addf_def, Ideal.subf_def, Ideal.hostNegf_def, Ideal.negf_def, Ideal.hostUnary_log_def,
    Ideal.minimumf_def, Ideal.maximumf_def, Ideal.ofBits_def]

/-- The reference's loss: the sum of the rows' terms over the count. -/
theorem bridgeLoss
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S100000x1, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal))
    (x9 : (⟨Cert.ReferenceIdeal.S64x8, .f32⟩ : BufTy).Contents (Elt Ideal))
    (x10 : (⟨Cert.ReferenceIdeal.S8, .f32⟩ : BufTy).Contents (Elt Ideal))
    (x11 : (⟨Cert.ReferenceIdeal.S8x1, .f32⟩ : BufTy).Contents (Elt Ideal))
    (x12 : (⟨Cert.ReferenceIdeal.S1, .f32⟩ : BufTy).Contents (Elt Ideal)) (i : (⟨0, ![]⟩ : Shape).Idx) :
    Cert.ReferenceIdeal.Read.val_main_v120 (F := Ideal) x0 x1 x2 x3 x4 x5 x6 x7 x8 x9 x10 x11 x12 i
      = Ideal.div (0 + ∑ j : (⟨2, ![100000, 1]⟩ : Shape).Idx,
          lossTerm (Cert.ReferenceIdeal.Read.val_main_v95 (F := Ideal) x0 x1 x3 x4 x5 x6 x7 x8 x9 x10 x11 x12 j) (FloatOps.sitofp (F := Ideal) .f32 (x2 j))
            (Cert.ReferenceIdeal.Read.val_main_v98 (F := Ideal) x2 ix0)) cnt := by
  have hs : (∑ j : Cert.ReferenceIdeal.S100000x1.Idx, Cert.ReferenceIdeal.Read.val_main_v118 (F := Ideal) x0 x1 x2 x3 x4 x5 x6 x7 x8 x9 x10 x11 x12 j)
      = ∑ j : (⟨2, ![100000, 1]⟩ : Shape).Idx,
          lossTerm (Cert.ReferenceIdeal.Read.val_main_v95 (F := Ideal) x0 x1 x3 x4 x5 x6 x7 x8 x9 x10 x11 x12 j) (FloatOps.sitofp (F := Ideal) .f32 (x2 j))
            (Cert.ReferenceIdeal.Read.val_main_v98 (F := Ideal) x2 ix0) :=
    Finset.sum_congr rfl fun j _ => lossRef_term x0 x1 x2 x3 x4 x5 x6 x7 x8 x9 x10 x11 x12 j
  rw [Cert.ReferenceIdeal.Read.val_main_v120_apply, Cert.ReferenceIdeal.Read.val_main_v119_apply, hs, Cert.ReferenceIdeal.Read.val_main_cst_24_apply, Cert.ReferenceIdeal.Read.val_main_cst_23_apply,
    Ideal.hostDivf_def, Ideal.ofBits_def, Ideal.ofBits_def, Ideal.ofBits_zero_f32]
  rfl

/-- The same with the sum taken over the rows. -/
theorem bridgeLoss_rows
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S100000x1, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal))
    (x9 : (⟨Cert.ReferenceIdeal.S64x8, .f32⟩ : BufTy).Contents (Elt Ideal))
    (x10 : (⟨Cert.ReferenceIdeal.S8, .f32⟩ : BufTy).Contents (Elt Ideal))
    (x11 : (⟨Cert.ReferenceIdeal.S8x1, .f32⟩ : BufTy).Contents (Elt Ideal))
    (x12 : (⟨Cert.ReferenceIdeal.S1, .f32⟩ : BufTy).Contents (Elt Ideal)) (i : (⟨0, ![]⟩ : Shape).Idx) :
    Cert.ReferenceIdeal.Read.val_main_v120 (F := Ideal) x0 x1 x2 x3 x4 x5 x6 x7 x8 x9 x10 x11 x12 i
      = Ideal.div (0 + ∑ p : Fin 100000,
          lossTerm (Cert.ReferenceIdeal.Read.val_main_v95 (F := Ideal) x0 x1 x3 x4 x5 x6 x7 x8 x9 x10 x11 x12 (ix2 p (0 : Fin 1)))
            (FloatOps.sitofp (F := Ideal) .f32 (x2 (ix2 p (0 : Fin 1))))
            (Cert.ReferenceIdeal.Read.val_main_v98 (F := Ideal) x2 ix0)) cnt := by
  rw [bridgeLoss, sum_idx2]
  simp only [Fin.sum_univ_one]

end Cert.KernelIdeal.Hand
-- ==== Proof.KI.Bridge.lean ====
/-
  What the kernel regions leave, read as the reference's stages: the two modules together.
-/
import proofs.«172706_j3221225472394_1_alg».proof.Proof.KI.Bridge0
import proofs.«172706_j3221225472394_1_alg».proof.Proof.KI.Bridge1
-- ==== Proof.KI.Casts.lean ====
/-
  The two casts between a scalar and a one-by-one matrix, read at their only index: both shapes have one
  element, so the cast reads the operand's only entry.
-/
import proofs.«172706_j3221225472394_1_alg».proof.Proof.Gen.KernelIdeal
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.ValueIdx
open Cert.KernelIdeal Cert.KernelIdeal.Gen

/-- A one-by-one matrix read as a scalar is its only entry. -/
theorem cast_11_0 {α : Type} (X : S1x1.Idx → α) (i : S_.Idx) :
    shapeCast S_ X shapeCasts_S1x1_S_ i = X (ix2 (0 : Fin 1) (0 : Fin 1)) :=
  shapeCast_apply X shapeCasts_S1x1_S_ i (ix2 (0 : Fin 1) (0 : Fin 1)) (by
    have h1 : (S1x1.rowMajor (ix2 (0 : Fin 1) (0 : Fin 1))).val < S1x1.numel := (S1x1.rowMajor _).isLt
    have h2 : (S_.rowMajor i).val < S_.numel := (S_.rowMajor i).isLt
    have e1 : S1x1.numel = 1 := by decide
    have e2 : S_.numel = 1 := by decide
    omega)

/-- A scalar read as a one-by-one matrix has the scalar as its only entry. -/
theorem cast_0_11 {α : Type} (s : S_.Idx → α) :
    shapeCast S1x1 s shapeCasts_S_S1x1 (ix2 (0 : Fin 1) (0 : Fin 1)) = s ix0 :=
  shapeCast_apply s shapeCasts_S_S1x1 (ix2 (0 : Fin 1) (0 : Fin 1)) ix0 (by
    have h1 : (S1x1.rowMajor (ix2 (0 : Fin 1) (0 : Fin 1))).val < S1x1.numel := (S1x1.rowMajor _).isLt
    have h2 : (S_.rowMajor ix0).val < S_.numel := (S_.rowMajor ix0).isLt
    have e1 : S1x1.numel = 1 := by decide
    have e2 : S_.numel = 1 := by decide
    omega)

end Cert.KernelIdeal.Hand

end
-- ==== Proof.KI.Final.lean ====
/-
  The kernel program's two results are the reference's last stages of the arguments: the probabilities are its
  sigmoid stage, the loss its mean of the weighted cross-entropy terms (the block-by-block accumulation is the sum
  over all rows, extended-real addition being commutative and associative).
-/
import proofs.«172706_j3221225472394_1_alg».proof.Proof.KI.Stages
import proofs.«172706_j3221225472394_1_alg».proof.Proof.KI.R3ValP
import proofs.«172706_j3221225472394_1_alg».proof.Proof.KI.R3ValL
import proofs.«172706_j3221225472394_1_alg».proof.Proof.KI.Bridge
import proofs.«172706_j3221225472394_1_alg».proof.Proof.KI.Casts

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen
open Cert.HeadSpec

variable (m : (ℓ : Loc nD τ sig) → Buf (Elt Ideal) ℓ) (ρ : Dev nD → PrngReg) (c : Dev nD)

local notation "A3" => (aft3 (F := Ideal))
local notation "P3" => (phi3 (F := Ideal))

/-! ## The probabilities -/

theorem u8_p : U8 m A3 P3 c main_v78_0 = (dat3 (Vt (U7 m)) c).arrAt 8 cfg3.N :=
  (Function.update_of_ne (StableHlo.devRef_ne_of_ne (by decide) : (Proc.devRef .tc main_v78_0 : DevRef τ sig) ≠ Proc.devRef .tc main_v78_1) _ _).trans
    (Function.update_self (Proc.devRef .tc main_v78_0 : DevRef τ sig) (X8a m A3 P3 c) (U7 m c))

theorem u8_l : U8 m A3 P3 c main_v78_1 = (dat3 (Vt (U7 m)) c).arrAt 9 cfg3.N :=
  Function.update_self (Proc.devRef .tc main_v78_1 : DevRef τ sig) (X8b m A3 P3 c) (Function.update (U7 m c) main_v78_0 (X8a m A3 P3 c))

/-- The head kernel's probability array as the reference's stage. -/
theorem head_p : headP (U7 m c main_v70) (U7 m c main_v75) (U7 m c main_arg9) (U7 m c main_v76) (U7 m c main_arg11) (U7 m c main_v77)
    = Cert.ReferenceIdeal.Read.val_main_v95 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [u7_v70, u7_b3, u7_lb1, u7_lb2, u7_arg m c main_arg9 (by decide) (by decide) (by decide) (by decide) (by decide) (by decide) (by decide), u7_arg m c main_arg11 (by decide) (by decide) (by decide) (by decide) (by decide) (by decide) (by decide)]
  exact bridgeP _ _ _ _ _ _ _ _ _ _ _ _

theorem u9_p : U9 m A3 P3 c main_v78_0 = Cert.ReferenceIdeal.Read.val_main_v95 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [show U9 m A3 P3 c main_v78_0 = U8 m A3 P3 c main_v78_0 from host4_v78_0 (U8 m A3 P3 c), u8_p, final3_p (Vt (U7 m)) c]
  exact head_p m c

/-! ## The loss -/

theorem u9_loss : U9 m A3 P3 c main_v79 = Cert.ReferenceIdeal.Read.val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [show U9 m A3 P3 c main_v79 = _ from host4_loss (U8 m A3 P3 c), u8_l]
  funext i
  rw [cast_11_0, final3_loss (Vt (U7 m)) c, bridgeLoss_rows]
  show Ideal.div (0 + ∑ p : Fin 100000, lossTerm (headP (U7 m c main_v70) (U7 m c main_v75) (U7 m c main_arg9) (U7 m c main_v76) (U7 m c main_arg11) (U7 m c main_v77) (ix2 p (0 : Fin 1)))
      (FloatOps.sitofp (F := Ideal) .f32 (U7 m c main_arg2 (ix2 p (0 : Fin 1)))) (U7 m c main_v74 (ix2 (0 : Fin 1) (0 : Fin 1)))) cnt = _
  rw [head_p m c, u7_pm, cast_0_11, u7_arg m c main_arg2 (by decide) (by decide) (by decide) (by decide) (by decide) (by decide) (by decide)]

/-! ## The run with the results named -/

/-- Every weakly fair execution of the idealized kernel program terminates without a fault, with the loss and the
    probabilities at the reference's stages of the arguments and the arguments unchanged. -/
theorem run_values : θ_run defs (onTc (τ := τ) (main (F := Ideal))) ⟨m, fun _ => 0, ρ⟩ (fun r => ∀ d : Dev nD,
      r.2.mem ((d.tc : Thread nD τ).loc main_v79) = Cert.ReferenceIdeal.Read.val_main_v120 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12))
      ∧ r.2.mem ((d.tc : Thread nD τ).loc main_v78_0) = Cert.ReferenceIdeal.Read.val_main_v95 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12)) :=
  (θ_run defs _ _).mono (fun r h d => ⟨(h d _ (mem_uc main_v79 (by decide))).trans (u9_loss m d),
    (h d _ (mem_uc main_v78_0 (by decide))).trans (u9_p m d),
    (h d _ (mem_uc main_arg0 (by decide))).trans (U9_of m A3 P3 d main_arg0 (by decide) (by decide) (by decide) (by decide) (by decide) (by decide) (by decide) (by decide) (by decide) (by decide)),
    (h d _ (mem_uc main_arg1 (by decide))).trans (U9_of m A3 P3 d main_arg1 (by decide) (by decide) (by decide) (by decide) (by decide) (by decide) (by decide) (by decide) (by decide) (by decide)),
    (h d _ (mem_uc main_arg2 (by decide))).trans (U9_of m A3 P3 d main_arg2 (by decide) (by decide) (by decide) (by decide) (by decide) (by decide) (by decide) (by decide) (by decide) (by decide)),
    (h d _ (mem_uc main_arg3 (by decide))).trans (U9_of m A3 P3 d main_arg3 (by decide) (by decide) (by decide) (by decide) (by decide) (by decide) (by decide) (by decide) (by decide) (by decide)),
    (h d _ (mem_uc main_arg4 (by decide))).trans (U9_of m A3 P3 d main_arg4 (by decide) (by decide) (by decide) (by decide) (by decide) (by decide) (by decide) (by decide) (by decide) (by decide)),
    (h d _ (mem_uc main_arg5 (by decide))).trans (U9_of m A3 P3 d main_arg5 (by decide) (by decide) (by decide) (by decide) (by decide) (by decide) (by decide) (by decide) (by decide) (by decide)),
    (h d _ (mem_uc main_arg6 (by decide))).trans (U9_of m A3 P3 d main_arg6 (by decide) (by decide) (by decide) (by decide) (by decide) (by decide) (by decide) (by decide) (by decide) (by decide)),
    (h d _ (mem_uc main_arg7 (by decide))).trans (U9_of m A3 P3 d main_arg7 (by decide) (by decide) (by decide) (by decide) (by decide) (by decide) (by decide) (by decide) (by decide) (by decide)),
    (h d _ (mem_uc main_arg8 (by decide))).trans (U9_of m A3 P3 d main_arg8 (by decide) (by decide) (by decide) (by decide) (by decide) (by decide) (by decide) (by decide) (by decide) (by decide)),
    (h d _ (mem_uc main_arg9 (by decide))).trans (U9_of m A3 P3 d main_arg9 (by decide) (by decide) (by decide) (by decide) (by decide) (by decide) (by decide) (by decide) (by decide) (by decide)),
    (h d _ (mem_uc main_arg10 (by decide))).trans (U9_of m A3 P3 d main_arg10 (by decide) (by decide) (by decide) (by decide) (by decide) (by decide) (by decide) (by decide) (by decide) (by decide)),
    (h d _ (mem_uc main_arg11 (by decide))).trans (U9_of m A3 P3 d main_arg11 (by decide) (by decide) (by decide) (by decide) (by decide) (by decide) (by decide) (by decide) (by decide) (by decide)),
    (h d _ (mem_uc main_arg12 (by decide))).trans (U9_of m A3 P3 d main_arg12 (by decide) (by decide) (by decide) (by decide) (by decide) (by decide) (by decide) (by decide) (by decide) (by decide))⟩)
    (run_named m ρ)

end Cert.KernelIdeal.Hand

end
-- ==== Proof.RefRead.lean ====
/-
  The reference's run and its stages read at an index: the generated modules, brought in under one name.
-/
import proofs.«172706_j3221225472394_1_alg».proof.Proof.Gen.ReferenceIdeal.Read
-- ==== Proof.lean ====
/-
  The certificate's claims.

  The program is a three-layer graph-convolution network with a two-layer read-out, a sigmoid and a class-weighted
  binary cross-entropy loss.  The kernel program computes each dense product in a tiled kernel of its own (25 blocks
  of 4000 rows; a row of a product reads only the same row of the left factor, so the blocks are the rows of the whole
  product), leaves the neighbourhood aggregation (gather, scale by the edge normalisation, scatter-add) to the same
  host operations the reference uses, and folds the bias, the rectifier, the read-out, the sigmoid and the loss's
  per-row terms into the kernels; the loss's sum over the 100000 nodes is accumulated block by block, which is the
  same sum because addition of extended reals is commutative and associative.  No step needs an input to be finite.

  Frames: each program runs to the end without a fault and leaves its arguments as launched (the two kernel programs:
  the run of their four regions among five host stretches; the reference: its generated run).  The idealization
  rewrote nothing, so `preserves` is trivial.  `algebraic`: both programs' results are the reference's own stage
  functions of the arguments.
-/
import proofs.«172706_j3221225472394_1_alg».proof.Defs
import proofs.«172706_j3221225472394_1_alg».proof.Proof.Gen.Kernel
import proofs.«172706_j3221225472394_1_alg».proof.Proof.Gen.KernelIdeal
import proofs.«172706_j3221225472394_1_alg».proof.Proof.Gen.ReferenceIdeal
import proofs.«172706_j3221225472394_1_alg».proof.Proof.Gen.Pre_finite_inputs
import proofs.«172706_j3221225472394_1_alg».proof.Proof.K.R3Inst
import proofs.«172706_j3221225472394_1_alg».proof.Proof.KI.Final
import proofs.«172706_j3221225472394_1_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the loss at the reference's last stage of the arguments and the probabilities at its
    sigmoid stage. -/
theorem algebraic : Cert.algebraic_KernelIdeal_ReferenceIdeal := by
  intro m ρ m' ρ' _ hagree
  refine ⟨_, _, Cert.KernelIdeal.Hand.run_values m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v120_eq]
    obtain ⟨e0, e1, e2, e3, e4, e5, e6, e7, e8, e9, e10, e11, e12⟩ := hagree c
    rw [e0, e1, e2, e3, e4, e5, e6, e7, e8, e9, e10, e11, e12]
  · rw [Cert.ReferenceIdeal.Read.val_main_v95_eq]
    obtain ⟨e0, e1, e2, e3, e4, e5, e6, e7, e8, e9, e10, e11, e12⟩ := hagree c
    rw [e0, e1, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
